-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64x64 : Shape := ⟨4, ![16, 128, 64, 64]⟩
abbrev S128x128x3x3 : Shape := ⟨4, ![128, 128, 3, 3]⟩
abbrev S128 : Shape := ⟨1, ![128]⟩
abbrev S_ : Shape := ⟨0, ![]⟩

class Facts : Prop where
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  h_S_ : 0 < S_.numel
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S16x128x64x64 .f32) (main_arg1 : FVec F S128x128x3x3 .f32) (main_arg2 : FVec F S128 .f32) (main_arg3 : FVec F S_ .f32) : IVec S_ 1 :=
  let main_v0 : FVec F S16x128x64x64 .f32 := Host.absf main_arg0
  let main_cst : FVec F S_ .f32 := constant S_ .f32 0x7F800000#32
  let main_v1 : FVec F S16x128x64x64 .f32 := broadcastInDim S16x128x64x64 ![] bcast_S_S16x128x64x64 main_cst
  let main_v2 : IVec S16x128x64x64 1 := cmpf .olt main_v0 main_v1
  let main_c : IVec S_ 1 := constantI S_ 1 1#1
  let main_v3 : IVec S_ 1 := (fun x v => Host.reduce IntOp.andi x v reducesTo_S16x128x64x64_S_d0_1_2_3 h_S_) main_v2 main_c
  let main_v4 : FVec F S128x128x3x3 .f32 := Host.absf main_arg1
  let main_cst_0 : FVec F S_ .f32 := constant S_ .f32 0x7F800000#32
  let main_v5 : FVec F S128x128x3x3 .f32 := broadcastInDim S128x128x3x3 ![] bcast_S_S128x128x3x3 main_cst_0
  let main_v6 : IVec S128x128x3x3 1 := cmpf .olt main_v4 main_v5
  let main_c_1 : IVec S_ 1 := constantI S_ 1 1#1
  let main_v7 : IVec S_ 1 := (fun x v => Host.reduce IntOp.andi x v reducesTo_S128x128x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S16x128x64x64 : Shape := ⟨4, ![16, 128, 64, 64]⟩
abbrev S128x128x3x3 : Shape := ⟨4, ![128, 128, 3, 3]⟩
abbrev S128 : Shape := ⟨1, ![128]⟩
abbrev S_ : Shape := ⟨0, ![]⟩
abbrev S3x3x128x128 : Shape := ⟨4, ![3, 3, 128, 128]⟩
abbrev S1152x128 : Shape := ⟨2, ![1152, 128]⟩
abbrev S16x128x4096 : Shape := ⟨3, ![16, 128, 4096]⟩
abbrev S128x1 : Shape := ⟨2, ![128, 1]⟩
abbrev S1x128x4096 : Shape := ⟨3, ![1, 128, 4096]⟩
abbrev S3x66x64x128 : Shape := ⟨4, ![3, 66, 64, 128]⟩
abbrev S1x64x128 : Shape := ⟨3, ![1, 64, 128]⟩
abbrev S64x1x128 : Shape := ⟨3, ![64, 1, 128]⟩
abbrev S128x4096 : Shape := ⟨2, ![128, 4096]⟩
abbrev S4096x128 : Shape := ⟨2, ![4096, 128]⟩
abbrev S64x64x128 : Shape := ⟨3, ![64, 64, 128]⟩
abbrev S1x1x64x128 : Shape := ⟨4, ![1, 1, 64, 128]⟩
abbrev S1x64x64x128 : Shape := ⟨4, ![1, 64, 64, 128]⟩
abbrev S1x64x1x128 : Shape := ⟨4, ![1, 64, 1, 128]⟩
abbrev S1x64x2x128 : Shape := ⟨4, ![1, 64, 2, 128]⟩
abbrev S64x63x128 : Shape := ⟨3, ![64, 63, 128]⟩
abbrev S1x64x63x128 : Shape := ⟨4, ![1, 64, 63, 128]⟩
abbrev S128x128 : Shape := ⟨2, ![128, 128]⟩

abbrev nBuf : Space → Nat
  | .hbm => 13
  | .vmem => 7
  | .smem => 0
  | _ => 0

abbrev bufTy : (tb : Table) → Fin (tcTables nBuf tb) → BufTy
  | .hbm, ⟨0, _⟩ => ⟨S16x128x64x64, .f32⟩
  | .hbm, ⟨1, _⟩ => ⟨S128x128x3x3, .f32⟩
  | .hbm, ⟨2, _⟩ => ⟨S128, .f32⟩
  | .hbm, ⟨3, _⟩ => ⟨S_, .f32⟩
  | .hbm, ⟨4, _⟩ => ⟨S128x128x3x3, .f32⟩
  | .hbm, ⟨5, _⟩ => ⟨S128x128x3x3, .f32⟩
  | .hbm, ⟨6, _⟩ => ⟨S3x3x128x128, .f32⟩
  | .hbm, ⟨7, _⟩ => ⟨S1152x128, .f32⟩
  | .hbm, ⟨8, _⟩ => ⟨S1152x128, .bf16⟩
  | .hbm, ⟨9, _⟩ => ⟨S16x128x4096, .f32⟩
  | .hbm, ⟨10, _⟩ => ⟨S128x1, .f32⟩
  | .hbm, ⟨11, _⟩ => ⟨S16x128x4096, .f32⟩
  | .hbm, ⟨12, _⟩ => ⟨S16x128x64x64, .f32⟩
  | .local _ .vmem, ⟨0, _⟩ => ⟨S1x128x4096, .f32⟩
  | .local _ .vmem, ⟨1, _⟩ => ⟨S1x128x4096, .f32⟩
  | .local _ .vmem, ⟨2, _⟩ => ⟨S1152x128, .bf16⟩
  | .local _ .vmem, ⟨3, _⟩ => ⟨S128x1, .f32⟩
  | .local _ .vmem, ⟨4, _⟩ => ⟨S1x128x4096, .f32⟩
  | .local _ .vmem, ⟨5, _⟩ => ⟨S1x128x4096, .f32⟩
  | .local _ .vmem, ⟨6, _⟩ => ⟨S3x66x64x128, .bf16⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x128x3x3 : S_.BroadcastsInDim S128x128x3x3 (![] : Fin 0 → Fin S128x128x3x3.rank)
  transposes_S128x128x3x3_S3x3x128x128_2_3_1_0 : S128x128x3x3.Transposes [2, 3, 1, 0] S3x3x128x128
  shapeCasts_S3x3x128x128_S1152x128 : S3x3x128x128.ShapeCasts S1152x128
  bitsLt_bf16_f32 : FTy.bits .bf16 < FTy.bits .f32
  shapeCasts_S16x128x64x64_S16x128x4096 : S16x128x64x64.ShapeCasts S16x128x4096
  shapeCasts_S128_S128x1 : S128.ShapeCasts S128x1
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  transposes_S128x4096_p1_0_S4096x128 : S128x4096.Transposes [1, 0] S4096x128
  shapeCasts_S4096x128_S64x64x128 : S4096x128.ShapeCasts S64x64x128
  inb_S3x66x64x128_S1x1x64x128_0_0_0_0 : ∀ a, (![0, 0, 0, 0] : Fin 4 → Nat) a + S1x1x64x128.size a ≤ S3x66x64x128.size a
  h_S1x1x64x128 : 0 < S1x1x64x128.numel
  shapeCasts_S1x1x64x128_S1x64x128 : S1x1x64x128.ShapeCasts S1x64x128
  shapeCasts_S1x64x128_S1x1x64x128 : S1x64x128.ShapeCasts S1x1x64x128
  packedbf16_S3x66x64x128_S1x1x64x128_0_0_0_0 : (Rect.unit (s := S3x66x64x128) ![0, 0, 0, 0] S1x1x64x128.size inb_S3x66x64x128_S1x1x64x128_0_0_0_0).PackedRows (EltTy.packing .bf16)
  inb_S3x66x64x128_S1x1x64x128_0_65_0_0 : ∀ a, (![0, 65, 0, 0] : Fin 4 → Nat) a + S1x1x64x128.size a ≤ S3x66x64x128.size a
  packedbf16_S3x66x64x128_S1x1x64x128_0_65_0_0 : (Rect.unit (s := S3x66x64x128) ![0, 65, 0, 0] S1x1x64x128.size inb_S3x66x64x128_S1x1x64x128_0_65_0_0).PackedRows (EltTy.packing .bf16)
  inb_S3x66x64x128_S1x1x64x128_1_0_0_0 : ∀ a, (![1, 0, 0, 0] : Fin 4 → Nat) a + S1x1x64x128.size a ≤ S3x66x64x128.size a
  packedbf16_S3x66x64x128_S1x1x64x128_1_0_0_0 : (Rect.unit (s := S3x66x64x128) ![1, 0, 0, 0] S1x1x64x128.size inb_S3x66x64x128_S1x1x64x128_1_0_0_0).PackedRows (EltTy.packing .bf16)
  inb_S3x66x64x128_S1x1x64x128_1_65_0_0 : ∀ a, (![1, 65, 0, 0] : Fin 4 → Nat) a + S1x1x64x128.size a ≤ S3x66x64x128.size a
  packedbf16_S3x66x64x128_S1x1x64x128_1_65_0_0 : (Rect.unit (s := S3x66x64x128) ![1, 65, 0, 0] S1x1x64x128.size inb_S3x66x64x128_S1x1x64x128_1_65_0_0).PackedRows (EltTy.packing .bf16)
  inb_S3x66x64x128_S1x1x64x128_2_0_0_0 : ∀ a, (![2, 0, 0, 0] : Fin 4 → Nat) a + S1x1x64x128.size a ≤ S3x66x64x128.size a
  packedbf16_S3x66x64x128_S1x1x64x128_2_0_0_0 : (Rect.unit (s := S3x66x64x128) ![2, 0, 0, 0] S1x1x64x128.size inb_S3x66x64x128_S1x1x64x128_2_0_0_0).PackedRows (EltTy.packing .bf16)
  inb_S3x66x64x128_S1x1x64x128_2_65_0_0 : ∀ a, (![2, 65, 0, 0] : Fin 4 → Nat) a + S1x1x64x128.size a ≤ S3x66x64x128.size a
  packedbf16_S3x66x64x128_S1x1x64x128_2_65_0_0 : (Rect.unit (s := S3x66x64x128) ![2, 65, 0, 0] S1x1x64x128.size inb_S3x66x64x128_S1x1x64x128_2_65_0_0).PackedRows (EltTy.packing .bf16)
  inb_S3x66x64x128_S1x64x64x128_1_1_0_0 : ∀ a, (![1, 1, 0, 0] : Fin 4 → Nat) a + S1x64x64x128.size a ≤ S3x66x64x128.size a
  h_S1x64x64x128 : 0 < S1x64x64x128.numel
  shapeCasts_S1x64x64x128_S64x64x128 : S1x64x64x128.ShapeCasts S64x64x128
  shapeCasts_S64x64x128_S1x64x64x128 : S64x64x128.ShapeCasts S1x64x64x128
  packedbf16_S3x66x64x128_S1x64x64x128_1_1_0_0 : (Rect.unit (s := S3x66x64x128) ![1, 1, 0, 0] S1x64x64x128.size inb_S3x66x64x128_S1x64x64x128_1_1_0_0).PackedRows (EltTy.packing .bf16)
  inb_S3x66x64x128_S1x64x1x128_0_1_0_0 : ∀ a, (![0, 1, 0, 0] : Fin 4 → Nat) a + S1x64x1x128.size a ≤ S3x66x64x128.size a
  h_S1x64x1x128 : 0 < S1x64x1x128.numel
  shapeCasts_S1x64x1x128_S64x1x128 : S1x64x1x128.ShapeCasts S64x1x128
  shapeCasts_S64x1x128_S1x64x1x128 : S64x1x128.ShapeCasts S1x64x1x128
  inb_S3x66x64x128_S1x64x2x128_0_1_0_0 : ∀ a, (![0, 1, 0, 0] : Fin 4 → Nat) a + S1x64x2x128.size a ≤ S3x66x64x128.size a
  h_S1x64x2x128 : 0 < S1x64x2x128.numel
  slices_S1x64x2x128_S1x64x1x128_0_0_0_0 : S1x64x2x128.Slices ![0, 0, 0, 0] S1x64x1x128
  packedbf16_S3x66x64x128_S1x64x2x128_0_1_0_0 : (Rect.unit (s := S3x66x64x128) ![0, 1, 0, 0] S1x64x2x128.size inb_S3x66x64x128_S1x64x2x128_0_1_0_0).PackedRows (EltTy.packing .bf16)
  slices_S64x64x128_o0_0_0_S64x63x128 : S64x64x128.Slices ![0, 0, 0] S64x63x128
  inb_S3x66x64x128_S1x64x63x128_0_1_1_0 : ∀ a, (![0, 1, 1, 0] : Fin 4 → Nat) a + S1x64x63x128.size a ≤ S3x66x64x128.size a
  h_S1x64x63x128 : 0 < S1x64x63x128.numel
  shapeCasts_S1x64x63x128_S64x63x128 : S1x64x63x128.ShapeCasts S64x63x128
  shapeCasts_S64x63x128_S1x64x63x128 : S64x63x128.ShapeCasts S1x64x63x128
  inb_S3x66x64x128_S1x64x64x128_0_1_0_0 : ∀ a, (![0, 1, 0, 0] : Fin 4 → Nat) a + S1x64x64x128.size a ≤ S3x66x64x128.size a
  slices_S1x64x64x128_S1x64x63x128_0_0_1_0 : S1x64x64x128.Slices ![0, 0, 1, 0] S1x64x63x128
  packedbf16_S3x66x64x128_S1x64x64x128_0_1_0_0 : (Rect.unit (s := S3x66x64x128) ![0, 1, 0, 0] S1x64x64x128.size inb_S3x66x64x128_S1x64x64x128_0_1_0_0).PackedRows (EltTy.packing .bf16)
  slices_S64x64x128_o0_1_0_S64x63x128 : S64x64x128.Slices ![0, 1, 0] S64x63x128
  inb_S3x66x64x128_S1x64x63x128_2_1_0_0 : ∀ a, (![2, 1, 0, 0] : Fin 4 → Nat) a + S1x64x63x128.size a ≤ S3x66x64x128.size a
  inb_S3x66x64x128_S1x64x64x128_2_1_0_0 : ∀ a, (![2, 1, 0, 0] : Fin 4 → Nat) a + S1x64x64x128.size a ≤ S3x66x64x128.size a
  slices_S1x64x64x128_S1x64x63x128_0_0_0_0 : S1x64x64x128.Slices ![0, 0, 0, 0] S1x64x63x128
  packedbf16_S3x66x64x128_S1x64x64x128_2_1_0_0 : (Rect.unit (s := S3x66x64x128) ![2, 1, 0, 0] S1x64x64x128.size inb_S3x66x64x128_S1x64x64x128_2_1_0_0).PackedRows (EltTy.packing .bf16)
  inb_S3x66x64x128_S1x64x1x128_2_1_63_0 : ∀ a, (![2, 1, 63, 0] : Fin 4 → Nat) a + S1x64x1x128.size a ≤ S3x66x64x128.size a
  inb_S3x66x64x128_S1x64x2x128_2_1_62_0 : ∀ a, (![2, 1, 62, 0] : Fin 4 → Nat) a + S1x64x2x128.size a ≤ S3x66x64x128.size a
  slices_S1x64x2x128_S1x64x1x128_0_0_1_0 : S1x64x2x128.Slices ![0, 0, 1, 0] S1x64x1x128
  packedbf16_S3x66x64x128_S1x64x2x128_2_1_62_0 : (Rect.unit (s := S3x66x64x128) ![2, 1, 62, 0] S1x64x2x128.size inb_S3x66x64x128_S1x64x2x128_2_1_62_0).PackedRows (EltTy.packing .bf16)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1152x128_S128x128_0_0 : ∀ a, (![0, 0] : Fin 2 → Nat) a + S128x128.size a ≤ S1152x128.size a
  h_S128x128 : 0 < S128x128.numel
  shapeCasts_S128x128_S128x128 : S128x128.ShapeCasts S128x128
  inb_S3x66x64x128_S1x64x64x128_0_0_0_0 : ∀ a, (![0, 0, 0, 0] : Fin 4 → Nat) a + S1x64x64x128.size a ≤ S3x66x64x128.size a
  shapeCasts_S64x64x128_S4096x128 : S64x64x128.ShapeCasts S4096x128
  broadcasts_S128x1_S128x4096 : S128x1.Broadcasts S128x4096
  inb_S1152x128_S128x128_128_0 : ∀ a, (![128, 0] : Fin 2 → Nat) a + S128x128.size a ≤ S1152x128.size a
  inb_S3x66x64x128_S1x64x64x128_1_0_0_0 : ∀ a, (![1, 0, 0, 0] : Fin 4 → Nat) a + S1x64x64x128.size a ≤ S3x66x64x128.size a
  inb_S1152x128_S128x128_256_0 : ∀ a, (![256, 0] : Fin 2 → Nat) a + S128x128.size a ≤ S1152x128.size a
  inb_S3x66x64x128_S1x64x64x128_2_0_0_0 : ∀ a, (![2, 0, 0, 0] : Fin 4 → Nat) a + S1x64x64x128.size a ≤ S3x66x64x128.size a
  inb_S1152x128_S128x128_384_0 : ∀ a, (![384, 0] : Fin 2 → Nat) a + S128x128.size a ≤ S1152x128.size a
  inb_S1152x128_S128x128_512_0 : ∀ a, (![512, 0] : Fin 2 → Nat) a + S128x128.size a ≤ S1152x128.size a
  inb_S1152x128_S128x128_640_0 : ∀ a, (![640, 0] : Fin 2 → Nat) a + S128x128.size a ≤ S1152x128.size a
  inb_S1152x128_S128x128_768_0 : ∀ a, (![768, 0] : Fin 2 → Nat) a + S128x128.size a ≤ S1152x128.size a
  inb_S3x66x64x128_S1x64x64x128_0_2_0_0 : ∀ a, (![0, 2, 0, 0] : Fin 4 → Nat) a + S1x64x64x128.size a ≤ S3x66x64x128.size a
  inb_S1152x128_S128x128_896_0 : ∀ a, (![896, 0] : Fin 2 → Nat) a + S128x128.size a ≤ S1152x128.size a
  inb_S3x66x64x128_S1x64x64x128_1_2_0_0 : ∀ a, (![1, 2, 0, 0] : Fin 4 → Nat) a + S1x64x64x128.size a ≤ S3x66x64x128.size a
  inb_S1152x128_S128x128_1024_0 : ∀ a, (![1024, 0] : Fin 2 → Nat) a + S128x128.size a ≤ S1152x128.size a
  inb_S3x66x64x128_S1x64x64x128_2_2_0_0 : ∀ a, (![2, 2, 0, 0] : Fin 4 → Nat) a + S1x64x64x128.size a ≤ S3x66x64x128.size a
  shapeCasts_S128x4096_S1x128x4096 : S128x4096.ShapeCasts S1x128x4096
  shapeCasts_S16x128x4096_S16x128x64x64 : S16x128x4096.ShapeCasts S16x128x64x64
  dot_S128x128_S4096x128_S128x4096_0_1_1_0_n_n_wf : DotDims.WF S128x128 S4096x128 S128x4096 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S16x128x4096.size a
  hwx0_0 : ∀ i : grid0.Coords, EltTy.bits .f32 = 32 ∨ (Rect.block (s := S16x128x4096) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S1152x128.size a
  hwx0_1 : ∀ i : grid0.Coords, EltTy.bits .bf16 = 32 ∨ (Rect.block (s := S1152x128) S1152x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4096.size a ≤ S16x128x4096.size a
  hwx0_3 : ∀ i : grid0.Coords, EltTy.bits .f32 = 32 ∨ (Rect.block (s := S16x128x4096) S1x128x4096.size (cc0_transform_3 i) (hinb0_3 i)).WholeWords (EltTy.packing .f32)

variable [Facts₀]

def dot_S128x128_S4096x128_S128x4096_0_1_1_0_n_n : DotDims S128x128 S4096x128 S128x4096 where
  lhsContracting := [0]
  rhsContracting := [1]
  lhsNonContracting := [1]
  rhsNonContracting := [0]
  lhsBatch := []
  rhsBatch := []
  wf := dot_S128x128_S4096x128_S128x4096_0_1_1_0_n_n_wf

abbrev win0_0 : Pipeline.Window sig grid0 :=
  Pipeline.Window.ofSpec (Memref.whole main_v5) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1152x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x64x64 : Shape := ⟨4, ![16, 128, 64, 64]⟩
abbrev S128x128x3x3 : Shape := ⟨4, ![128, 128, 3, 3]⟩
abbrev S128 : Shape := ⟨1, ![128]⟩
abbrev S_ : Shape := ⟨0, ![]⟩
abbrev S3x3x128x128 : Shape := ⟨4, ![3, 3, 128, 128]⟩
abbrev S1152x128 : Shape := ⟨2, ![1152, 128]⟩
abbrev S16x64x64x128 : Shape := ⟨4, ![16, 64, 64, 128]⟩
abbrev S16x66x66x128 : Shape := ⟨4, ![16, 66, 66, 128]⟩
abbrev S16x64x64x1152 : Shape := ⟨4, ![16, 64, 64, 1152]⟩
abbrev S16x4096x1152 : Shape := ⟨3, ![16, 4096, 1152]⟩
abbrev S1x128 : Shape := ⟨2, ![1, 128]⟩
abbrev S16x4096x128 : Shape := ⟨3, ![16, 4096, 128]⟩
abbrev S1x512x1152 : Shape := ⟨3, ![1, 512, 1152]⟩
abbrev S1x512x128 : Shape := ⟨3, ![1, 512, 128]⟩
abbrev S512x1152 : Shape := ⟨2, ![512, 1152]⟩
abbrev S512x128 : Shape := ⟨2, ![512, 128]⟩

abbrev nBuf : Space → Nat
  | .hbm => 38
  | .vmem => 6
  | .smem => 0
  | _ => 0

abbrev bufTy : (tb : Table) → Fin (tcTables nBuf tb) → BufTy
  | .hbm, ⟨0, _⟩ => ⟨S16x128x64x64, .f32⟩
  | .hbm, ⟨1, _⟩ => ⟨S128x128x3x3, .f32⟩
  | .hbm, ⟨2, _⟩ => ⟨S128, .f32⟩
  | .hbm, ⟨3, _⟩ => ⟨S_, .f32⟩
  | .hbm, ⟨4, _⟩ => ⟨S128x128x3x3, .f32⟩
  | .hbm, ⟨5, _⟩ => ⟨S128x128x3x3, .f32⟩
  | .hbm, ⟨6, _⟩ => ⟨S3x3x128x128, .f32⟩
  | .hbm, ⟨7, _⟩ => ⟨S1152x128, .f32⟩
  | .hbm, ⟨8, _⟩ => ⟨S1152x128, .bf16⟩
  | .hbm, ⟨9, _⟩ => ⟨S16x64x64x128, .f32⟩
  | .hbm, ⟨10, _⟩ => ⟨S_, .i32⟩
  | .hbm, ⟨11, _⟩ => ⟨S_, .f32⟩
  | .hbm, ⟨12, _⟩ => ⟨S16x66x66x128, .f32⟩
  | .hbm, ⟨13, _⟩ => ⟨S16x64x64x128, .f32⟩
  | .hbm, ⟨14, _⟩ => ⟨S16x64x64x128, .f32⟩
  | .hbm, ⟨15, _⟩ => ⟨S16x64x64x128, .f32⟩
  | .hbm, ⟨16, _⟩ => ⟨S16x64x64x128, .f32⟩
  | .hbm, ⟨17, _⟩ => ⟨S16x64x64x128, .f32⟩
  | .hbm, ⟨18, _⟩ => ⟨S16x64x64x128, .f32⟩
  | .hbm, ⟨19, _⟩ => ⟨S16x64x64x128, .f32⟩
  | .hbm, ⟨20, _⟩ => ⟨S16x64x64x128, .f32⟩
  | .hbm, ⟨21, _⟩ => ⟨S16x64x64x128, .f32⟩
  | .hbm, ⟨22, _⟩ => ⟨S16x64x64x1152, .f32⟩
  | .hbm, ⟨23, _⟩ => ⟨S16x4096x1152, .f32⟩
  | .hbm, ⟨24, _⟩ => ⟨S16x4096x1152, .bf16⟩
  | .hbm, ⟨25, _⟩ => ⟨S_, .i32⟩
  | .hbm, ⟨26, _⟩ => ⟨S_, .bf16⟩
  | .hbm, ⟨27, _⟩ => ⟨S16x4096x1152, .bf16⟩
  | .hbm, ⟨28, _⟩ => ⟨S_, .i32⟩
  | .hbm, ⟨29, _⟩ => ⟨S_, .bf16⟩
  | .hbm, ⟨30, _⟩ => ⟨S1152x128, .bf16⟩
  | .hbm, ⟨31, _⟩ => ⟨S1x128, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S16x4096x128, .f32⟩
  | .hbm, ⟨36, _⟩ => ⟨S16x64x64x128, .f32⟩
  | .hbm, ⟨37, _⟩ => ⟨S16x128x64x64, .f32⟩
  | .local _ .vmem, ⟨0, _⟩ => ⟨S1x512x1152, .bf16⟩
  | .local _ .vmem, ⟨1, _⟩ => ⟨S1x512x1152, .bf16⟩
  | .local _ .vmem, ⟨2, _⟩ => ⟨S1152x128, .bf16⟩
  | .local _ .vmem, ⟨3, _⟩ => ⟨S1x128, .f32⟩
  | .local _ .vmem, ⟨4, _⟩ => ⟨S1x512x128, .f32⟩
  | .local _ .vmem, ⟨5, _⟩ => ⟨S1x512x128, .f32⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_call1_v0 : Ref sig .tc := ⟨.hbm, 26, rfl⟩
abbrev main_v19 : Ref sig .tc := ⟨.hbm, 27, rfl⟩
abbrev main_c_1 : Ref sig .tc := ⟨.hbm, 28, rfl⟩
abbrev main_call2_v0 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_call3_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1152x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bcast_S_S128x128x3x3 : S_.BroadcastsInDim S128x128x3x3 (![] : Fin 0 → Fin S128x128x3x3.rank)
  transposes_S128x128x3x3_S3x3x128x128_2_3_1_0 : S128x128x3x3.Transposes [2, 3, 1, 0] S3x3x128x128
  shapeCasts_S3x3x128x128_S1152x128 : S3x3x128x128.ShapeCasts S1152x128
  bitsLt_bf16_f32 : FTy.bits .bf16 < FTy.bits .f32
  transposes_S16x128x64x64_S16x64x64x128_0_2_3_1 : S16x128x64x64.Transposes [0, 2, 3, 1] S16x64x64x128
  pads_S16x64x64x128_S16x66x66x128_000_110_110_000 : S16x64x64x128.Pads (![0, 1, 1, 0] : Fin 4 → Nat) ![0, 1, 1, 0] ![0, 0, 0, 0] S16x66x66x128
  h_S_ : 0 < S_.numel
  slices_S16x66x66x128_S16x64x64x128_0_0_0_0 : S16x66x66x128.Slices ![0, 0, 0, 0] S16x64x64x128
  slices_S16x66x66x128_S16x64x64x128_0_0_1_0 : S16x66x66x128.Slices ![0, 0, 1, 0] S16x64x64x128
  slices_S16x66x66x128_S16x64x64x128_0_0_2_0 : S16x66x66x128.Slices ![0, 0, 2, 0] S16x64x64x128
  slices_S16x66x66x128_S16x64x64x128_0_1_0_0 : S16x66x66x128.Slices ![0, 1, 0, 0] S16x64x64x128
  slices_S16x66x66x128_S16x64x64x128_0_1_1_0 : S16x66x66x128.Slices ![0, 1, 1, 0] S16x64x64x128
  slices_S16x66x66x128_S16x64x64x128_0_1_2_0 : S16x66x66x128.Slices ![0, 1, 2, 0] S16x64x64x128
  slices_S16x66x66x128_S16x64x64x128_0_2_0_0 : S16x66x66x128.Slices ![0, 2, 0, 0] S16x64x64x128
  slices_S16x66x66x128_S16x64x64x128_0_2_1_0 : S16x66x66x128.Slices ![0, 2, 1, 0] S16x64x64x128
  slices_S16x66x66x128_S16x64x64x128_0_2_2_0 : S16x66x66x128.Slices ![0, 2, 2, 0] S16x64x64x128
  concatenates_S16x64x64x128_S16x64x64x128_S16x64x64x128_S16x64x64x128_S16x64x64x128_S16x64x64x128_S16x64x64x128_S16x64x64x128_S16x64x64x128_S16x64x64x1152_d3 : Shape.Concatenates [S16x64x64x128, S16x64x64x128, S16x64x64x128, S16x64x64x128, S16x64x64x128, S16x64x64x128, S16x64x64x128, S16x64x64x128, S16x64x64x128] S16x64x64x1152 3
  shapeCasts_S16x64x64x1152_S16x4096x1152 : S16x64x64x1152.ShapeCasts S16x4096x1152
  pads_S16x4096x1152_S16x4096x1152_000_000_000 : S16x4096x1152.Pads (![0, 0, 0] : Fin 3 → Nat) ![0, 0, 0] ![0, 0, 0] S16x4096x1152
  pads_S1152x128_S1152x128_000_000 : S1152x128.Pads (![0, 0] : Fin 2 → Nat) ![0, 0] ![0, 0] S1152x128
  shapeCasts_S128_S1x128 : S128.ShapeCasts S1x128
  pads_S1x128_S1x128_000_000 : S1x128.Pads (![0, 0] : Fin 2 → Nat) ![0, 0] ![0, 0] S1x128
  inb_S1x512x1152_S1x512x1152_0_0_0 : ∀ a, (![0, 0, 0] : Fin 3 → Nat) a + S1x512x1152.size a ≤ S1x512x1152.size a
  h_S1x512x1152 : 0 < S1x512x1152.numel
  shapeCasts_S1x512x1152_S512x1152 : S1x512x1152.ShapeCasts S512x1152
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  shapeCasts_S16x4096x128_S16x64x64x128 : S16x4096x128.ShapeCasts S16x64x64x128
  transposes_S16x64x64x128_S16x128x64x64_0_3_1_2 : S16x64x64x128.Transposes [0, 3, 1, 2] S16x128x64x64
  dot_S512x1152_S1152x128_S512x128_1_0_0_1_n_n_wf : DotDims.WF S512x1152 S1152x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1152.size a ≤ S16x4096x1152.size a
  hwx0_0 : ∀ i : grid0.Coords, EltTy.bits .bf16 = 32 ∨ (Rect.block (s := S16x4096x1152) S1x512x1152.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S1152x128.size a
  hwx0_1 : ∀ i : grid0.Coords, EltTy.bits .bf16 = 32 ∨ (Rect.block (s := S1152x128) S1152x128.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S16x4096x128.size a
  hwx0_3 : ∀ i : grid0.Coords, EltTy.bits .f32 = 32 ∨ (Rect.block (s := S16x4096x128) S1x512x128.size (cc0_transform_3 i) (hinb0_3 i)).WholeWords (EltTy.packing .f32)

variable [Facts₀]

def dot_S512x1152_S1152x128_S512x128_1_0_0_1_n_n : DotDims S512x1152 S1152x128 S512x128 where
  lhsContracting := [1]
  rhsContracting := [0]
  lhsNonContracting := [0]
  rhsNonContracting := [1]
  lhsBatch := []
  rhsBatch := []
  wf := dot_S512x1152_S1152x128_S512x128_1_0_0_1_n_n_wf

abbrev win0_0 : Pipeline.Window sig grid0 :=
  Pipeline.Window.ofSpec (Memref.whole main_v19) S1x512x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1152x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.BLayout.lean ====
/-
  The body's stored values read at an index, at any float instance.

  The fused convolution body keeps, in a scratch of shape [3, 66, 64, 128], three copies of the transposed image
  (rows × columns × channels), each padded by a zero row above and below, the copy `kx` shifted by `kx - 1` columns.
  It fills them by plain stores of whole slabs and by BLENDED stores (rows that are part of their memory words are
  stored by loading the words, replacing the rows, and storing the words back). This module reads each stored value at
  one index: a splat of zero is zero everywhere; a slab of the image is the image at the slab's coordinates; a column
  window of the image is the image at the shifted column; and a blend is the new rows inside the replaced window and the
  loaded words outside it.
-/
import proofs.«176999_g2000105039750728_pallasbulk_413_24_alg».proof.Proof.Gen.Kernel.Skeleton
import Idealize.ShloMosaic.Lib.Pipeline.Value
import Idealize.ShloMosaic.Lib.ValueIdx

noncomputable section

namespace Cert.Kernel.Gen

open Idealize.ShloMosaic Idealize.ShloMosaic.ValueIdx

variable {F : FTy → Type} [FloatOps F]

/-! ## A blend read at an index -/

/-- Inside the replaced window a blend reads the new value at the index minus the window's offsets. -/
theorem updateSlice_of_mem {α : Type} {s u : Shape} (x : s.Idx → α) (upd : u.Idx → α) (start : Fin s.rank → Nat)
    (h : s.Slices start u) (i : s.Idx) (j : u.Idx)
    (hin : ∀ a : Fin s.rank, (i a).val = start a + (j (a.cast h.1.symm)).val) :
    updateSlice x upd start h i = upd j := by
  unfold updateSlice
  have hmem : ∀ a : Fin s.rank, start a ≤ (i a).val ∧ (i a).val < start a + u.size (a.cast h.1.symm) := fun a => by
    have h1 := hin a
    have h2 := (j (a.cast h.1.symm)).isLt
    omega
  rw [dif_pos hmem]
  refine congrArg upd (funext fun b => Fin.ext ?_)
  have h1 := hin (b.cast h.1)
  have e : (b.cast h.1).cast h.1.symm = b := rfl
  rw [e] at h1
  show (i (b.cast h.1)).val - start (b.cast h.1) = (j b).val
  omega

/-- Off the replaced window on some axis a blend reads the old value. -/
theorem updateSlice_of_not_mem {α : Type} {s u : Shape} (x : s.Idx → α) (upd : u.Idx → α) (start : Fin s.rank → Nat)
    (h : s.Slices start u) (i : s.Idx) (a : Fin s.rank)
    (ha : (i a).val < start a ∨ start a + u.size (a.cast h.1.symm) ≤ (i a).val) :
    updateSlice x upd start h i = x i := by
  unfold updateSlice
  rw [dif_neg]
  intro hall
  have := hall a
  omega

/-! ## The splats -/

/-- The bf16 zero the body splats. -/
abbrev zE : F .bf16 := Scalar.ofBits .bf16 0x0000#16

theorem pay4_apply (j : S1x1x64x128.Idx) : (k0_pay4 (F := F)) j = zE := rfl
theorem pay5_apply (j : S1x1x64x128.Idx) : (k0_pay5 (F := F)) j = zE := rfl
theorem pay6_apply (j : S1x1x64x128.Idx) : (k0_pay6 (F := F)) j = zE := rfl
theorem pay7_apply (j : S1x1x64x128.Idx) : (k0_pay7 (F := F)) j = zE := rfl
theorem pay8_apply (j : S1x1x64x128.Idx) : (k0_pay8 (F := F)) j = zE := rfl
theorem pay9_apply (j : S1x1x64x128.Idx) : (k0_pay9 (F := F)) j = zE := rfl
theorem pay11_apply (j : S1x64x1x128.Idx) : k0_pay11 (k0_pay2 (F := F)) j = zE := rfl
theorem pay14_apply (j : S1x64x1x128.Idx) : k0_pay14 (k0_pay2 (F := F)) j = zE := rfl

/-! ## The image's slab and its two column windows -/

/-- The whole transposed image as a slab of one copy. -/
theorem pay10_apply (r : FVec F S64x64x128 .bf16) (a : Fin 1) (h : Fin 64) (w : Fin 64) (c : Fin 128) :
    k0_pay10 r (ix4 a h w c) = r (ix3 h w c) := by
  unfold k0_pay10
  refine (shapeCast_addUnit_apply ![64, 64, 128] r _ _).trans (congrArg r (funext fun b => ?_))
  match b with
  | ⟨0, _⟩ => rfl
  | ⟨1, _⟩ => rfl
  | ⟨2, _⟩ => rfl

/-- Columns 0‥62 of the transposed image. -/
theorem pay12_apply (r : FVec F S64x64x128 .bf16) (a : Fin 1) (h : Fin 64) (w : Fin 63) (c : Fin 128) :
    k0_pay12 r (ix4 a h w c) = r (ix3 h ⟨w.val, by have := w.isLt; omega⟩ c) := by
  unfold k0_pay12
  refine (shapeCast_addUnit_apply ![64, 63, 128] _ _ _).trans ?_
  refine extractStridedSlice_apply _ r _ _ _ fun b => ?_
  match b with
  | ⟨0, _⟩ => exact (Nat.zero_add _).symm
  | ⟨1, _⟩ => exact (Nat.zero_add _).symm
  | ⟨2, _⟩ => exact (Nat.zero_add _).symm

/-- Columns 1‥63 of the transposed image. -/
theorem pay13_apply (r : FVec F S64x64x128 .bf16) (a : Fin 1) (h : Fin 64) (w : Fin 63) (c : Fin 128) :
    k0_pay13 r (ix4 a h w c) = r (ix3 h ⟨w.val + 1, by have := w.isLt; omega⟩ c) := by
  unfold k0_pay13
  refine (shapeCast_addUnit_apply ![64, 63, 128] _ _ _).trans ?_
  refine extractStridedSlice_apply _ r _ _ _ fun b => ?_
  match b with
  | ⟨0, _⟩ => exact (Nat.zero_add _).symm
  | ⟨1, _⟩ => exact Nat.add_comm _ _
  | ⟨2, _⟩ => exact (Nat.zero_add _).symm

end Cert.Kernel.Gen

end
-- ==== Proof.BScratch.lean ====
/-
  What the scratch holds once the body has filled it, whatever it held before.

  The body's stores into the scratch [3, 66, 64, 128], newest first, are eleven pieces: the zero rows 0 and 65 of the
  three copies (six plain stores), the middle copy's rows 1‥64 (the transposed image, one plain store), and four BLENDED
  stores — copy 0's column 0 zeroed inside the two-column words that hold it, copy 0's columns 1‥63 set to the image's
  columns 0‥62 inside whole rows, copy 2's columns 0‥62 set to the image's columns 1‥63 inside whole rows, copy 2's
  column 63 zeroed inside the two-column words that hold it. A blend stores back, outside its window, the words it
  loaded; what those loads found is either a value an earlier piece stored or a value a later piece overwrites, so read
  AFTER all eleven the scratch is a function of the image alone (`read_pcs11`): rows 0 and 65 zero; copy 1 the image;
  copy 0 the image shifted right by one column with a zero column 0; copy 2 the image shifted left by one column with a
  zero column 63.
-/
import proofs.«176999_g2000105039750728_pallasbulk_413_24_alg».proof.Proof.BLayout
import Idealize.ShloMosaic.Lib.WritesUnit
import Idealize.ShloMosaic.Lib.Pipeline.FrameBody
import Idealize.ShloMosaic.Lib.Exec.Geometry

set_option maxRecDepth 16384

noncomputable section

namespace Cert.Kernel.Gen

open Idealize.ShloMosaic Idealize.ShloMosaic.ValueIdx

variable {F : FTy → Type} [FloatOps F]

/-- A view of the scratch's shape and element type. -/
abbrev VS := View sig Kind.tc Space.vmem S3x66x64x128 EltTy.bf16

/-- The scratch after the body's stores, by coordinates (copy, row, column, channel), over the transposed image `r`. -/
def shiftedAt (r : FVec F S64x64x128 .bf16) (kx : Fin 3) (row : Fin 66) (col : Fin 64) (ch : Fin 128) : F .bf16 :=
  if hr : 1 ≤ row.val ∧ row.val ≤ 64 then
    if kx.val = 0 then
      if hc : 1 ≤ col.val then r (ix3 (⟨row.val - 1, by omega⟩ : Fin 64) (⟨col.val - 1, by have := col.isLt; omega⟩ : Fin 64) ch) else zE
    else if kx.val = 1 then r (ix3 (⟨row.val - 1, by omega⟩ : Fin 64) col ch)
    else if hc : col.val ≤ 62 then r (ix3 (⟨row.val - 1, by omega⟩ : Fin 64) (⟨col.val + 1, by omega⟩ : Fin 64) ch) else zE
  else zE

/-! ## The pieces, newest first -/

/-- The blends' new rows put into the loaded words. -/
def blend8 (old : S1x64x2x128.Idx → F .bf16) : S1x64x2x128.Idx → F .bf16 :=
  updateSlice old (k0_pay11 (k0_pay2 (F := F))) ![0, 0, 0, 0] slices_S1x64x2x128_S1x64x1x128_0_0_0_0
def blend9 (r : FVec F S64x64x128 .bf16) (old : S1x64x64x128.Idx → F .bf16) : S1x64x64x128.Idx → F .bf16 :=
  updateSlice old (k0_pay12 r) ![0, 0, 1, 0] slices_S1x64x64x128_S1x64x63x128_0_0_1_0
def blend10 (r : FVec F S64x64x128 .bf16) (old : S1x64x64x128.Idx → F .bf16) : S1x64x64x128.Idx → F .bf16 :=
  updateSlice old (k0_pay13 r) ![0, 0, 0, 0] slices_S1x64x64x128_S1x64x63x128_0_0_0_0
def blend11 (old : S1x64x2x128.Idx → F .bf16) : S1x64x2x128.Idx → F .bf16 :=
  updateSlice old (k0_pay14 (k0_pay2 (F := F))) ![0, 0, 1, 0] slices_S1x64x2x128_S1x64x1x128_0_0_1_0

/-- Five of the six zero rows. -/
def pcs5 : List (View.Piece (Elt F) S3x66x64x128 EltTy.bf16) :=
  [⟨Rect.unit (s := S3x66x64x128) ![2, 0, 0, 0] S1x1x64x128.size inb_S3x66x64x128_S1x1x64x128_2_0_0_0, k0_pay8⟩,
    ⟨Rect.unit (s := S3x66x64x128) ![1, 65, 0, 0] S1x1x64x128.size inb_S3x66x64x128_S1x1x64x128_1_65_0_0, k0_pay7⟩,
    ⟨Rect.unit (s := S3x66x64x128) ![1, 0, 0, 0] S1x1x64x128.size inb_S3x66x64x128_S1x1x64x128_1_0_0_0, k0_pay6⟩,
    ⟨Rect.unit (s := S3x66x64x128) ![0, 65, 0, 0] S1x1x64x128.size inb_S3x66x64x128_S1x1x64x128_0_65_0_0, k0_pay5⟩,
    ⟨Rect.unit (s := S3x66x64x128) ![0, 0, 0, 0] S1x1x64x128.size inb_S3x66x64x128_S1x1x64x128_0_0_0_0, k0_pay4⟩]

/-- Then the last zero row, the middle copy, and copy 0's zero column (a blend over what the scratch held). -/
def pcs8 (v : VS) (f5 : v.ty.Contents (Elt F)) (r : FVec F S64x64x128 .bf16) : List (View.Piece (Elt F) S3x66x64x128 EltTy.bf16) :=
  ⟨Rect.unit (s := S3x66x64x128) ![0, 1, 0, 0] S1x64x2x128.size inb_S3x66x64x128_S1x64x2x128_0_1_0_0,
      blend8 (View.readAt (Elt F) v (Rect.unit (s := S3x66x64x128) ![0, 1, 0, 0] S1x64x2x128.size inb_S3x66x64x128_S1x64x2x128_0_1_0_0).toLoadRect f5)⟩ ::
    ⟨Rect.unit (s := S3x66x64x128) ![1, 1, 0, 0] S1x64x64x128.size inb_S3x66x64x128_S1x64x64x128_1_1_0_0, k0_pay10 r⟩ ::
      ⟨Rect.unit (s := S3x66x64x128) ![2, 65, 0, 0] S1x1x64x128.size inb_S3x66x64x128_S1x1x64x128_2_65_0_0, k0_pay9⟩ :: pcs5

/-- Then copy 0's shifted columns (a blend over the writes so far) and copy 2's (a blend over what the scratch held). -/
def pcs10 (v : VS) (f5 : v.ty.Contents (Elt F)) (r : FVec F S64x64x128 .bf16) : List (View.Piece (Elt F) S3x66x64x128 EltTy.bf16) :=
  ⟨Rect.unit (s := S3x66x64x128) ![2, 1, 0, 0] S1x64x64x128.size inb_S3x66x64x128_S1x64x64x128_2_1_0_0,
      blend10 r (View.readAt (Elt F) v (Rect.unit (s := S3x66x64x128) ![2, 1, 0, 0] S1x64x64x128.size inb_S3x66x64x128_S1x64x64x128_2_1_0_0).toLoadRect f5)⟩ ::
    ⟨Rect.unit (s := S3x66x64x128) ![0, 1, 0, 0] S1x64x64x128.size inb_S3x66x64x128_S1x64x64x128_0_1_0_0,
        blend9 r (View.readAt (Elt F) v (Rect.unit (s := S3x66x64x128) ![0, 1, 0, 0] S1x64x64x128.size inb_S3x66x64x128_S1x64x64x128_0_1_0_0).toLoadRect
          (v.writes (Elt F) f5 (pcs8 v f5 r)))⟩ ::
      pcs8 v f5 r

/-- Last, copy 2's zero column (a blend over the writes so far, which cover its words). -/
def pcs11 (v : VS) (f5 : v.ty.Contents (Elt F)) (r : FVec F S64x64x128 .bf16) : List (View.Piece (Elt F) S3x66x64x128 EltTy.bf16) :=
  ⟨Rect.unit (s := S3x66x64x128) ![2, 1, 62, 0] S1x64x2x128.size inb_S3x66x64x128_S1x64x2x128_2_1_62_0,
      blend11 (v.readCov (pcs10 v f5 r) (Rect.unit (s := S3x66x64x128) ![2, 1, 62, 0] S1x64x2x128.size inb_S3x66x64x128_S1x64x2x128_2_1_62_0).toLoadRect)⟩ ::
    pcs10 v f5 r

/-! ## Reading through one piece -/

/-- An index outside the newest piece on axis `a` reads the rest. -/
theorem skipP (v : VS) (g : v.ty.Contents (Elt F)) {off size : Fin 4 → ℕ} (inb : ∀ a, off a + size a ≤ S3x66x64x128.size a)
    (w : (Rect.unit (s := S3x66x64x128) off size inb).shape.Idx → Elt F EltTy.bf16) (L : List (View.Piece (Elt F) S3x66x64x128 EltTy.bf16))
    (z : S3x66x64x128.Idx) (a : Fin 4) (ha : (z a).val < off a ∨ off a + size a ≤ (z a).val) :
    v.read (Elt F) (v.writes (Elt F) g ((⟨Rect.unit off size inb, w⟩ : View.Piece (Elt F) S3x66x64x128 EltTy.bf16) :: L)) z
      = v.read (Elt F) (v.writes (Elt F) g L) z :=
  View.read_writes_cons_unit_of_not_mem v g inb w L z rfl a ha

/-- An index at position `x` of the newest piece reads its payload there. -/
theorem hitP (v : VS) (g : v.ty.Contents (Elt F)) {off size : Fin 4 → ℕ} (inb : ∀ a, off a + size a ≤ S3x66x64x128.size a)
    (w : (Rect.unit (s := S3x66x64x128) off size inb).shape.Idx → Elt F EltTy.bf16) (L : List (View.Piece (Elt F) S3x66x64x128 EltTy.bf16))
    (z : S3x66x64x128.Idx) (x : (Rect.unit (s := S3x66x64x128) off size inb).shape.Idx) (hx : ∀ a, (z a).val = off a + (x a).val) :
    v.read (Elt F) (v.writes (Elt F) g ((⟨Rect.unit off size inb, w⟩ : View.Piece (Elt F) S3x66x64x128 EltTy.bf16) :: L)) z = w x :=
  View.read_writes_cons_unit_of_mem v g inb w L z x rfl hx

variable (v : VS) (g f5 : v.ty.Contents (Elt F)) (r : FVec F S64x64x128 .bf16)
variable (kx : Fin 3) (row : Fin 66) (col : Fin 64) (ch : Fin 128)

/-! ## The first eight pieces -/

/-- Rows 0 and 65 of every copy read zero. -/
theorem read_pcs8_border (hb : row.val = 0 ∨ row.val = 65) :
    v.read (Elt F) (v.writes (Elt F) g (pcs8 v f5 r)) (ix4 kx row col ch) = zE := by
  unfold pcs8 pcs5
  refine (skipP v g _ _ _ _ 1 (by show row.val < 1 ∨ 1 + 64 ≤ row.val; omega)).trans ?_
  refine (skipP v g _ _ _ _ 1 (by show row.val < 1 ∨ 1 + 64 ≤ row.val; omega)).trans ?_
  have hk := kx.isLt
  rcases hb with hb | hb
  · -- row 0
    refine (skipP v g _ _ _ _ 1 (by show row.val < 65 ∨ 65 + 1 ≤ row.val; omega)).trans ?_
    by_cases h2 : kx.val = 2
    · exact hitP v g _ _ _ _ (ix4 (0 : Fin 1) (0 : Fin 1) col ch) fun a => by
        match a with
        | ⟨0, _⟩ => show kx.val = 2 + 0; omega
        | ⟨1, _⟩ => show row.val = 0 + 0; omega
        | ⟨2, _⟩ => show col.val = 0 + col.val; omega
        | ⟨3, _⟩ => show ch.val = 0 + ch.val; omega
    refine (skipP v g _ _ _ _ 0 (by show kx.val < 2 ∨ 2 + 1 ≤ kx.val; omega)).trans ?_
    refine (skipP v g _ _ _ _ 1 (by show row.val < 65 ∨ 65 + 1 ≤ row.val; omega)).trans ?_
    by_cases h1 : kx.val = 1
    · exact hitP v g _ _ _ _ (ix4 (0 : Fin 1) (0 : Fin 1) col ch) fun a => by
        match a with
        | ⟨0, _⟩ => show kx.val = 1 + 0; omega
        | ⟨1, _⟩ => show row.val = 0 + 0; omega
        | ⟨2, _⟩ => show col.val = 0 + col.val; omega
        | ⟨3, _⟩ => show ch.val = 0 + ch.val; omega
    refine (skipP v g _ _ _ _ 0 (by show kx.val < 1 ∨ 1 + 1 ≤ kx.val; omega)).trans ?_
    refine (skipP v g _ _ _ _ 1 (by show row.val < 65 ∨ 65 + 1 ≤ row.val; omega)).trans ?_
    exact hitP v g _ _ _ _ (ix4 (0 : Fin 1) (0 : Fin 1) col ch) fun a => by
      match a with
      | ⟨0, _⟩ => show kx.val = 0 + 0; omega
      | ⟨1, _⟩ => show row.val = 0 + 0; omega
      | ⟨2, _⟩ => show col.val = 0 + col.val; omega
      | ⟨3, _⟩ => show ch.val = 0 + ch.val; omega
  · -- row 65
    by_cases h2 : kx.val = 2
    · exact hitP v g _ _ _ _ (ix4 (0 : Fin 1) (0 : Fin 1) col ch) fun a => by
        match a with
        | ⟨0, _⟩ => show kx.val = 2 + 0; omega
        | ⟨1, _⟩ => show row.val = 65 + 0; omega
        | ⟨2, _⟩ => show col.val = 0 + col.val; omega
        | ⟨3, _⟩ => show ch.val = 0 + ch.val; omega
    refine (skipP v g _ _ _ _ 0 (by show kx.val < 2 ∨ 2 + 1 ≤ kx.val; omega)).trans ?_
    refine (skipP v g _ _ _ _ 0 (by show kx.val < 2 ∨ 2 + 1 ≤ kx.val; omega)).trans ?_
    by_cases h1 : kx.val = 1
    · exact hitP v g _ _ _ _ (ix4 (0 : Fin 1) (0 : Fin 1) col ch) fun a => by
        match a with
        | ⟨0, _⟩ => show kx.val = 1 + 0; omega
        | ⟨1, _⟩ => show row.val = 65 + 0; omega
        | ⟨2, _⟩ => show col.val = 0 + col.val; omega
        | ⟨3, _⟩ => show ch.val = 0 + ch.val; omega
    refine (skipP v g _ _ _ _ 0 (by show kx.val < 1 ∨ 1 + 1 ≤ kx.val; omega)).trans ?_
    refine (skipP v g _ _ _ _ 0 (by show kx.val < 1 ∨ 1 + 1 ≤ kx.val; omega)).trans ?_
    exact hitP v g _ _ _ _ (ix4 (0 : Fin 1) (0 : Fin 1) col ch) fun a => by
      match a with
      | ⟨0, _⟩ => show kx.val = 0 + 0; omega
      | ⟨1, _⟩ => show row.val = 65 + 0; omega
      | ⟨2, _⟩ => show col.val = 0 + col.val; omega
      | ⟨3, _⟩ => show ch.val = 0 + ch.val; omega

/-- The middle copy's rows 1‥64 read the image. -/
theorem read_pcs8_mid (hk : kx.val = 1) (hr : 1 ≤ row.val ∧ row.val ≤ 64) :
    v.read (Elt F) (v.writes (Elt F) g (pcs8 v f5 r)) (ix4 kx row col ch)
      = r (ix3 (⟨row.val - 1, by omega⟩ : Fin 64) col ch) := by
  unfold pcs8
  refine (skipP v g _ _ _ _ 0 (by show kx.val < 0 ∨ 0 + 1 ≤ kx.val; omega)).trans ?_
  refine (hitP v g _ _ _ _ (ix4 (0 : Fin 1) (⟨row.val - 1, by omega⟩ : Fin 64) col ch) fun a => by
    match a with
    | ⟨0, _⟩ => show kx.val = 1 + 0; omega
    | ⟨1, _⟩ => show row.val = 1 + (row.val - 1); omega
    | ⟨2, _⟩ => show col.val = 0 + col.val; omega
    | ⟨3, _⟩ => show ch.val = 0 + ch.val; omega).trans ?_
  exact pay10_apply r _ _ _ _

/-- Copy 0's column 0, rows 1‥64, reads zero. -/
theorem read_pcs8_col0 (hk : kx.val = 0) (hr : 1 ≤ row.val ∧ row.val ≤ 64) (hc : col.val = 0) :
    v.read (Elt F) (v.writes (Elt F) g (pcs8 v f5 r)) (ix4 kx row col ch) = zE := by
  unfold pcs8
  refine (hitP v g _ _ _ _ (ix4 (0 : Fin 1) (⟨row.val - 1, by omega⟩ : Fin 64) (0 : Fin 2) ch) fun a => by
    match a with
    | ⟨0, _⟩ => show kx.val = 0 + 0; omega
    | ⟨1, _⟩ => show row.val = 1 + (row.val - 1); omega
    | ⟨2, _⟩ => show col.val = 0 + 0; omega
    | ⟨3, _⟩ => show ch.val = 0 + ch.val; omega).trans ?_
  unfold blend8
  refine (updateSlice_of_mem _ _ _ _ _ (ix4 (0 : Fin 1) (⟨row.val - 1, by omega⟩ : Fin 64) (0 : Fin 1) ch) fun a => by
    match a with
    | ⟨0, _⟩ => rfl
    | ⟨1, _⟩ => exact (Nat.zero_add _).symm
    | ⟨2, _⟩ => rfl
    | ⟨3, _⟩ => exact (Nat.zero_add _).symm).trans ?_
  exact pay11_apply _

end Cert.Kernel.Gen

end
-- ==== Proof.BScratch2.lean ====
/-
  The scratch after ALL the body's stores is three zero-padded, column-shifted copies of the transposed image.

  Continuing the reading of the eleven pieces, newest first: the ninth piece (copy 0's shifted columns) keeps, at
  column 0, the word it loaded — the zero the eighth piece put there; the tenth (copy 2's shifted columns) keeps, at
  column 63, a word of the scratch's former contents, which the eleventh piece then replaces by zero; and the eleventh
  keeps, at column 62, the word it loaded — the image's column 63, which the tenth piece put there. So every element of
  the scratch reads a value of the image or zero (`read_pcs11`), and so does every covered load of it (`readCov_pcs11`).
-/
import proofs.«176999_g2000105039750728_pallasbulk_413_24_alg».proof.Proof.BScratch

set_option maxRecDepth 16384

noncomputable section

namespace Cert.Kernel.Gen

open Idealize.ShloMosaic Idealize.ShloMosaic.ValueIdx

variable {F : FTy → Type} [FloatOps F]

/-- A load through a unit-stride rectangle reads the contents at the index plus the offsets. -/
theorem readAt_unit_apply (v : VS) (f : v.ty.Contents (Elt F)) {off size : Fin 4 → ℕ} (inb : ∀ a, off a + size a ≤ S3x66x64x128.size a)
    (x : (Rect.unit (s := S3x66x64x128) off size inb).shape.Idx) (z : S3x66x64x128.Idx) (hx : ∀ a, (z a).val = off a + (x a).val) :
    View.readAt (Elt F) v (Rect.unit (s := S3x66x64x128) off size inb).toLoadRect f x = v.read (Elt F) f z := by
  rw [View.readAt_apply]
  refine congrArg _ (funext fun a => Fin.ext ?_)
  show off a + 1 * (x a).val = (z a).val
  rw [hx a, Nat.one_mul]

variable (v : VS) (g f5 : v.ty.Contents (Elt F)) (r : FVec F S64x64x128 .bf16)
variable (kx : Fin 3) (row : Fin 66) (col : Fin 64) (ch : Fin 128)

/-! ## The first ten pieces -/

theorem read_pcs10_border (hb : row.val = 0 ∨ row.val = 65) :
    v.read (Elt F) (v.writes (Elt F) g (pcs10 v f5 r)) (ix4 kx row col ch) = zE := by
  unfold pcs10
  refine (skipP v g _ _ _ _ 1 (by show row.val < 1 ∨ 1 + 64 ≤ row.val; omega)).trans ?_
  refine (skipP v g _ _ _ _ 1 (by show row.val < 1 ∨ 1 + 64 ≤ row.val; omega)).trans ?_
  exact read_pcs8_border v g f5 r kx row col ch hb

theorem read_pcs10_mid1 (hk : kx.val = 1) (hr : 1 ≤ row.val ∧ row.val ≤ 64) :
    v.read (Elt F) (v.writes (Elt F) g (pcs10 v f5 r)) (ix4 kx row col ch)
      = r (ix3 (⟨row.val - 1, by omega⟩ : Fin 64) col ch) := by
  unfold pcs10
  refine (skipP v g _ _ _ _ 0 (by show kx.val < 2 ∨ 2 + 1 ≤ kx.val; omega)).trans ?_
  refine (skipP v g _ _ _ _ 0 (by show kx.val < 0 ∨ 0 + 1 ≤ kx.val; omega)).trans ?_
  exact read_pcs8_mid v g f5 r kx row col ch hk hr

/-- Copy 0, columns 1‥63: the image one column to the left. -/
theorem read_pcs10_mid0_pos (hk : kx.val = 0) (hr : 1 ≤ row.val ∧ row.val ≤ 64) (hc : 1 ≤ col.val) :
    v.read (Elt F) (v.writes (Elt F) g (pcs10 v f5 r)) (ix4 kx row col ch)
      = r (ix3 (⟨row.val - 1, by omega⟩ : Fin 64) (⟨col.val - 1, by have := col.isLt; omega⟩ : Fin 64) ch) := by
  unfold pcs10
  refine (skipP v g _ _ _ _ 0 (by show kx.val < 2 ∨ 2 + 1 ≤ kx.val; omega)).trans ?_
  refine (hitP v g _ _ _ _ (ix4 (0 : Fin 1) (⟨row.val - 1, by omega⟩ : Fin 64) col ch) fun a => by
    match a with
    | ⟨0, _⟩ => show kx.val = 0 + 0; omega
    | ⟨1, _⟩ => show row.val = 1 + (row.val - 1); omega
    | ⟨2, _⟩ => show col.val = 0 + col.val; omega
    | ⟨3, _⟩ => show ch.val = 0 + ch.val; omega).trans ?_
  unfold blend9
  refine (updateSlice_of_mem _ _ _ _ _
    (ix4 (0 : Fin 1) (⟨row.val - 1, by omega⟩ : Fin 64) (⟨col.val - 1, by have := col.isLt; omega⟩ : Fin 63) ch) fun a => by
    match a with
    | ⟨0, _⟩ => rfl
    | ⟨1, _⟩ => exact (Nat.zero_add _).symm
    | ⟨2, _⟩ => show col.val = 1 + (col.val - 1); omega
    | ⟨3, _⟩ => exact (Nat.zero_add _).symm).trans ?_
  exact pay12_apply r _ _ _ _

/-- Copy 0, column 0: the ninth piece stored back the word it loaded, the eighth piece's zero. -/
theorem read_pcs10_mid0_zero (hk : kx.val = 0) (hr : 1 ≤ row.val ∧ row.val ≤ 64) (hc : col.val = 0) :
    v.read (Elt F) (v.writes (Elt F) g (pcs10 v f5 r)) (ix4 kx row col ch) = zE := by
  unfold pcs10
  refine (skipP v g _ _ _ _ 0 (by show kx.val < 2 ∨ 2 + 1 ≤ kx.val; omega)).trans ?_
  refine (hitP v g _ _ _ _ (ix4 (0 : Fin 1) (⟨row.val - 1, by omega⟩ : Fin 64) col ch) fun a => by
    match a with
    | ⟨0, _⟩ => show kx.val = 0 + 0; omega
    | ⟨1, _⟩ => show row.val = 1 + (row.val - 1); omega
    | ⟨2, _⟩ => show col.val = 0 + col.val; omega
    | ⟨3, _⟩ => show ch.val = 0 + ch.val; omega).trans ?_
  unfold blend9
  refine (updateSlice_of_not_mem _ _ _ _ _ 2 (Or.inl (by show col.val < 1; omega))).trans ?_
  refine (readAt_unit_apply v _ _ _ (ix4 kx row col ch) fun a => by
    match a with
    | ⟨0, _⟩ => show kx.val = 0 + 0; omega
    | ⟨1, _⟩ => show row.val = 1 + (row.val - 1); omega
    | ⟨2, _⟩ => show col.val = 0 + col.val; omega
    | ⟨3, _⟩ => show ch.val = 0 + ch.val; omega).trans ?_
  exact read_pcs8_col0 v f5 f5 r kx row col ch hk hr hc

/-- Copy 2, columns 0‥62: the image one column to the right. -/
theorem read_pcs10_mid2 (hk : kx.val = 2) (hr : 1 ≤ row.val ∧ row.val ≤ 64) (hc : col.val ≤ 62) :
    v.read (Elt F) (v.writes (Elt F) g (pcs10 v f5 r)) (ix4 kx row col ch)
      = r (ix3 (⟨row.val - 1, by omega⟩ : Fin 64) (⟨col.val + 1, by omega⟩ : Fin 64) ch) := by
  unfold pcs10
  refine (hitP v g _ _ _ _ (ix4 (0 : Fin 1) (⟨row.val - 1, by omega⟩ : Fin 64) col ch) fun a => by
    match a with
    | ⟨0, _⟩ => show kx.val = 2 + 0; omega
    | ⟨1, _⟩ => show row.val = 1 + (row.val - 1); omega
    | ⟨2, _⟩ => show col.val = 0 + col.val; omega
    | ⟨3, _⟩ => show ch.val = 0 + ch.val; omega).trans ?_
  unfold blend10
  refine (updateSlice_of_mem _ _ _ _ _
    (ix4 (0 : Fin 1) (⟨row.val - 1, by omega⟩ : Fin 64) (⟨col.val, by omega⟩ : Fin 63) ch) fun a => by
    match a with
    | ⟨0, _⟩ => rfl
    | ⟨1, _⟩ => exact (Nat.zero_add _).symm
    | ⟨2, _⟩ => exact (Nat.zero_add _).symm
    | ⟨3, _⟩ => exact (Nat.zero_add _).symm).trans ?_
  exact pay13_apply r _ _ _ _

/-! ## All eleven -/

/-- THE SCRATCH AFTER THE BODY'S STORES, over any former contents. -/
theorem read_pcs11 :
    v.read (Elt F) (v.writes (Elt F) g (pcs11 v f5 r)) (ix4 kx row col ch) = shiftedAt r kx row col ch := by
  have hkx := kx.isLt
  have hrow := row.isLt
  have hcol := col.isLt
  unfold shiftedAt
  by_cases hr : 1 ≤ row.val ∧ row.val ≤ 64
  · rw [dif_pos hr]
    by_cases h0 : kx.val = 0
    · rw [if_pos h0]
      unfold pcs11
      refine (skipP v g _ _ _ _ 0 (by show kx.val < 2 ∨ 2 + 1 ≤ kx.val; omega)).trans ?_
      by_cases hc : 1 ≤ col.val
      · rw [dif_pos hc]; exact read_pcs10_mid0_pos v g f5 r kx row col ch h0 hr hc
      · rw [dif_neg hc]; exact read_pcs10_mid0_zero v g f5 r kx row col ch h0 hr (by omega)
    · rw [if_neg h0]
      by_cases h1 : kx.val = 1
      · rw [if_pos h1]
        unfold pcs11
        refine (skipP v g _ _ _ _ 0 (by show kx.val < 2 ∨ 2 + 1 ≤ kx.val; omega)).trans ?_
        exact read_pcs10_mid1 v g f5 r kx row col ch h1 hr
      · rw [if_neg h1]
        have h2 : kx.val = 2 := by omega
        unfold pcs11
        by_cases hc : col.val ≤ 62
        · rw [dif_pos hc]
          by_cases hc' : col.val ≤ 61
          · refine (skipP v g _ _ _ _ 2 (by show col.val < 62 ∨ 62 + 2 ≤ col.val; omega)).trans ?_
            exact read_pcs10_mid2 v g f5 r kx row col ch h2 hr hc
          · -- column 62: the eleventh piece stored back the word it loaded, the tenth piece's
            refine (hitP v g _ _ _ _ (ix4 (0 : Fin 1) (⟨row.val - 1, by omega⟩ : Fin 64) (0 : Fin 2) ch) fun a => by
              match a with
              | ⟨0, _⟩ => show kx.val = 2 + 0; omega
              | ⟨1, _⟩ => show row.val = 1 + (row.val - 1); omega
              | ⟨2, _⟩ => show col.val = 62 + 0; omega
              | ⟨3, _⟩ => show ch.val = 0 + ch.val; omega).trans ?_
            unfold blend11
            refine (updateSlice_of_not_mem _ _ _ _ _ 2 (Or.inl (by show (0 : Nat) < 1; omega))).trans ?_
            unfold View.readCov
            refine (readAt_unit_apply v _ _ _ (ix4 kx row col ch) fun a => by
              match a with
              | ⟨0, _⟩ => show kx.val = 2 + 0; omega
              | ⟨1, _⟩ => show row.val = 1 + (row.val - 1); omega
              | ⟨2, _⟩ => show col.val = 62 + 0; omega
              | ⟨3, _⟩ => show ch.val = 0 + ch.val; omega).trans ?_
            exact read_pcs10_mid2 v _ f5 r kx row col ch h2 hr hc
        · rw [dif_neg hc]
          -- column 63: the eleventh piece's zero
          refine (hitP v g _ _ _ _ (ix4 (0 : Fin 1) (⟨row.val - 1, by omega⟩ : Fin 64) (1 : Fin 2) ch) fun a => by
            match a with
            | ⟨0, _⟩ => show kx.val = 2 + 0; omega
            | ⟨1, _⟩ => show row.val = 1 + (row.val - 1); omega
            | ⟨2, _⟩ => show col.val = 62 + 1; omega
            | ⟨3, _⟩ => show ch.val = 0 + ch.val; omega).trans ?_
          unfold blend11
          refine (updateSlice_of_mem _ _ _ _ _ (ix4 (0 : Fin 1) (⟨row.val - 1, by omega⟩ : Fin 64) (0 : Fin 1) ch) fun a => by
            match a with
            | ⟨0, _⟩ => rfl
            | ⟨1, _⟩ => exact (Nat.zero_add _).symm
            | ⟨2, _⟩ => rfl
            | ⟨3, _⟩ => exact (Nat.zero_add _).symm).trans ?_
          exact pay14_apply _
  · rw [dif_neg hr]
    unfold pcs11
    refine (skipP v g _ _ _ _ 1 (by show row.val < 1 ∨ 1 + 64 ≤ row.val; omega)).trans ?_
    exact read_pcs10_border v g f5 r kx row col ch (by omega)

/-- A covered load of the scratch through a unit-stride rectangle reads the shifted image at the index plus the offsets. -/
theorem readCov_pcs11 {off size : Fin 4 → ℕ} (inb : ∀ a, off a + size a ≤ S3x66x64x128.size a)
    (x : (Rect.unit (s := S3x66x64x128) off size inb).shape.Idx)
    (hx0 : kx.val = off 0 + (x 0).val) (hx1 : row.val = off 1 + (x 1).val) (hx2 : col.val = off 2 + (x 2).val) (hx3 : ch.val = off 3 + (x 3).val) :
    v.readCov (pcs11 v f5 r) (Rect.unit (s := S3x66x64x128) off size inb).toLoadRect x = shiftedAt r kx row col ch := by
  unfold View.readCov
  refine (readAt_unit_apply v _ _ x (ix4 kx row col ch) fun a => by
    match a with
    | ⟨0, _⟩ => exact hx0
    | ⟨1, _⟩ => exact hx1
    | ⟨2, _⟩ => exact hx2
    | ⟨3, _⟩ => exact hx3).trans ?_
  exact read_pcs11 v _ f5 r kx row col ch

end Cert.Kernel.Gen

end
-- ==== Proof.BOut.lean ====
/-
  The output block the fused convolution body stores, as one function of its three input blocks, at any float instance.

  After the body's stores the scratch is the shifted image (`shiftedAt` of the transposed image block); the nine
  operands of the body's products are its slabs `(kx, ky‥ky+63)`, tap `t = ky·3 + kx` against rows `t·128‥t·128+127`
  of the weight block; the bias column is broadcast over the pixels and the nine products are added to it one after the
  other. `outBlock` is that value, written over the generated payload names so that it is, term for term, what the
  symbolic run of the body finds in the output buffer once each slab load is replaced by the slab it reads.
-/
import proofs.«176999_g2000105039750728_pallasbulk_413_24_alg».proof.Proof.BScratch2

set_option maxRecDepth 16384

noncomputable section

namespace Cert.Kernel.Gen

open Idealize.ShloMosaic Idealize.ShloMosaic.ValueIdx

variable {F : FTy → Type} [FloatOps F]

/-- Rows `ky‥ky+63` of copy `kx` of the shifted image: the pixel rows tap `(ky, kx)` sees. -/
def slab (r : FVec F S64x64x128 .bf16) (kx ky : Fin 3) : Vec F S1x64x64x128 .bf16 :=
  fun y => shiftedAt r kx (⟨ky.val + (y 1).val, by have := ky.isLt; have : (y 1).val < 64 := (y 1).isLt; omega⟩ : Fin 66) (y 2) (y 3)

/-- Rows `t·128‥t·128+127` of the weight block. -/
def wrows (w0 : Vec F S1152x128 .bf16) (t : Fin 9) : Vec F S128x128 .bf16 :=
  fun y => w0 (ix2 (⟨t.val * 128 + (y 0).val, by have := t.isLt; have : (y 0).val < 128 := (y 0).isLt; omega⟩ : Fin 1152) (y 1))

/-- What the body stores into its output block. -/
def outBlock (x0 : Vec F S1x128x4096 .f32) (w0 : Vec F S1152x128 .bf16) (b0 : Vec F S128x1 .f32) : FVec F S1x128x4096 .f32 :=
  let r := k0_pay3 x0
  k0_pay18
    (k0_pay17 (k0_pay15 b0) (k0_pay16 (wrows w0 0) (slab r 0 0))
      (wrows w0 1) (slab r 1 0) (wrows w0 2) (slab r 2 0) (wrows w0 3) (slab r 0 1) (wrows w0 4) (slab r 1 1))
    (wrows w0 5) (slab r 2 1) (wrows w0 6) (slab r 0 2) (wrows w0 7) (slab r 1 2) (wrows w0 8) (slab r 2 2)

end Cert.Kernel.Gen

end
-- ==== Proof.BBody.lean ====
/-
  The frame of the fused convolution program: the body's triple, the proof data, the body obligation and the run.

  The body is run symbolically once (`sound_kernel`): from its three input blocks held at read contents, its output
  block and its scratch at anything, it ends with the inputs as they were, the scratch at something, and the output block
  at `outBlock` of the inputs — each of the nine covered loads of the scratch is the slab of the shifted image it names
  (`readCov_slab`, over `read_pcs11`), each load of the weight block its rows, so what the run finds in the output
  buffer is `outBlock` term for term. The scratch is the region invariant's (at some contents before and after every
  point: nothing is carried between grid points). The rest is the library's frame run around the host operations.
-/
import proofs.«176999_g2000105039750728_pallasbulk_413_24_alg».proof.Proof.Gen.Kernel.Frame
import proofs.«176999_g2000105039750728_pallasbulk_413_24_alg».proof.Proof.Gen.Kernel.Skeleton
import proofs.«176999_g2000105039750728_pallasbulk_413_24_alg».proof.Proof.BOut
import Idealize.ShloMosaic.Lib.Pipeline.Frame
import Idealize.ShloMosaic.Lib.Pipeline.FrameSuffix
import Idealize.ShloMosaic.Lib.Exec.Geometry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## What the body's loads read -/

theorem hz3 : (![0, 0, 0] : Fin 3 → ℕ) = fun _ => 0 := funext fun a => by
  match a with
  | ⟨0, _⟩ => rfl
  | ⟨1, _⟩ => rfl
  | ⟨2, _⟩ => rfl
theorem hz2 : (![0, 0] : Fin 2 → ℕ) = fun _ => 0 := funext fun a => by
  match a with
  | ⟨0, _⟩ => rfl
  | ⟨1, _⟩ => rfl

/-- A load of rows `t·128‥` of the weight block reads those rows. -/
theorem readAt_wrows (v2 : View sig Kind.tc Space.vmem S1152x128 EltTy.bf16) (f2 : v2.ty.Contents (Elt F)) (t : Fin 9)
    {off : Fin 2 → ℕ} (inb : ∀ a, off a + S128x128.size a ≤ S1152x128.size a) (hoff : off = ![t.val * 128, 0]) :
    View.readAt (Elt F) v2 (Rect.unit (s := S1152x128) off S128x128.size inb).toLoadRect f2 = wrows (v2.read (Elt F) f2) t := by
  subst hoff
  funext y
  rw [View.readAt_apply]
  unfold wrows
  refine congrArg _ (funext fun a => Fin.ext ?_)
  match a with
  | ⟨0, _⟩ => show t.val * 128 + 1 * (y 0).val = t.val * 128 + (y 0).val; omega
  | ⟨1, _⟩ => show 0 + 1 * (y 1).val = (y 1).val; omega

/-- A covered load of rows `ky‥ky+63` of copy `kx` of the scratch reads that slab of the shifted image. -/
theorem readCov_slab (v : VS) (f5 : v.ty.Contents (Elt F)) (r : FVec F S64x64x128 .bf16) (kx ky : Fin 3)
    {off : Fin 4 → ℕ} (inb : ∀ a, off a + S1x64x64x128.size a ≤ S3x66x64x128.size a) (hoff : off = ![kx.val, ky.val, 0, 0]) :
    v.readCov (pcs11 v f5 r) (Rect.unit (s := S3x66x64x128) off S1x64x64x128.size inb).toLoadRect = slab r kx ky := by
  subst hoff
  funext y
  unfold slab
  have h0 : (y 0).val < 1 := (y 0).isLt
  exact readCov_pcs11 v f5 r kx _ (y 2) (y 3) inb y (by show kx.val = kx.val + (y 0).val; omega) rfl
    (by show (y 2).val = 0 + (y 2).val; omega) (by show (y 3).val = 0 + (y 3).val; omega)

/-! ## The body's triple -/

set_option maxHeartbeats 4000000 in
theorem sound_kernel (c : Dev nD) (E : Set ℕ) (i : grid0.Coords)
    (arg1 : Memref sig .tc .vmem S1x128x4096 .f32) (harg1 : arg1.IsWhole) (arg2 : Memref sig .tc .vmem S1152x128 .bf16) (harg2 : arg2.IsWhole)
    (arg3 : Memref sig .tc .vmem S128x1 .f32) (harg3 : arg3.IsWhole) (arg4 : Memref sig .tc .vmem S1x128x4096 .f32) (harg4 : arg4.IsWhole)
    (arg5 : Memref sig .tc .vmem S3x66x64x128 .bf16) (harg5 : arg5.IsWhole)
    (x0 : Vec F S1x128x4096 .f32) (w0 : Vec F S1152x128 .bf16) (b0 : Vec F S128x1 .f32) (K : PUnit → sProp 𝕄) :
    iprop(owns (c : Thread nD τ) arg1 fullShare x0 ∗ owns (c : Thread nD τ) arg2 fullShare w0 ∗ owns (c : Thread nD τ) arg3 fullShare b0
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w0 ∗ owns (c : Thread nD τ) arg3 fullShare b0
            ∗ owns (c : Thread nD τ) arg4 fullShare (outBlock x0 w0 b0) ∗ (∃ d, owns (c : Thread nD τ) arg5 fullShare d)) -∗ K ⟨⟩))
      ⊢ wp frame (wpE (defs₀ (F := F)) Variants.none c none) E (cc0__conv3x3_kernel i arg1 harg1 arg2 harg2 arg3 harg3 arg4 harg4 arg5 harg5) K := by
  simp only [cc0__conv3x3_kernel_eq_skeleton]; unfold cc0__conv3x3_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec_parts
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    -- the one store through the whole output block leaves its payload
    rw [View.read_writes_eq_canon _ _ _ (fun y => ⟨_, List.mem_singleton_self _, View.mem_set_unit_zero hz3 inb_S1x128x4096_S1x128x4096_0_0_0 y⟩),
      View.canon_unit_zero hz3]
    -- the payload is `outBlock`, load by load
    have hx : View.readAt (Elt F) arg1.view (Rect.unit (s := S1x128x4096) ![0, 0, 0] S1x128x4096.size inb_S1x128x4096_S1x128x4096_0_0_0).toLoadRect f1
        = arg1.view.read (Elt F) f1 := View.ld_unit_zero hz3 _ _
    have hb : View.readAt (Elt F) arg3.view (Rect.unit (s := S128x1) ![0, 0] S128x1.size inb_S128x1_S128x1_0_0).toLoadRect f3
        = arg3.view.read (Elt F) f3 := View.ld_unit_zero hz2 _ _
    have hL : sound_kernel.sl.H5_11 c arg1 arg5 f1 f5 = pcs11 arg5.view f5 (k0_pay3 (arg1.view.read (Elt F) f1)) := by
      rw [← hx]; rfl
    show k0_pay18
        (k0_pay17 (k0_pay15 (View.readAt (Elt F) arg3.view (Rect.unit (s := S128x1) ![0, 0] S128x1.size inb_S128x1_S128x1_0_0).toLoadRect f3))
          (k0_pay16 (View.readAt (Elt F) arg2.view (Rect.unit (s := S1152x128) ![0, 0] S128x128.size inb_S1152x128_S128x128_0_0).toLoadRect f2)
            (arg5.view.readCov (sound_kernel.sl.H5_11 c arg1 arg5 f1 f5) (Rect.unit (s := S3x66x64x128) ![0, 0, 0, 0] S1x64x64x128.size inb_S3x66x64x128_S1x64x64x128_0_0_0_0).toLoadRect))
          (View.readAt (Elt F) arg2.view (Rect.unit (s := S1152x128) ![128, 0] S128x128.size inb_S1152x128_S128x128_128_0).toLoadRect f2)
          (arg5.view.readCov (sound_kernel.sl.H5_11 c arg1 arg5 f1 f5) (Rect.unit (s := S3x66x64x128) ![1, 0, 0, 0] S1x64x64x128.size inb_S3x66x64x128_S1x64x64x128_1_0_0_0).toLoadRect)
          (View.readAt (Elt F) arg2.view (Rect.unit (s := S1152x128) ![256, 0] S128x128.size inb_S1152x128_S128x128_256_0).toLoadRect f2)
          (arg5.view.readCov (sound_kernel.sl.H5_11 c arg1 arg5 f1 f5) (Rect.unit (s := S3x66x64x128) ![2, 0, 0, 0] S1x64x64x128.size inb_S3x66x64x128_S1x64x64x128_2_0_0_0).toLoadRect)
          (View.readAt (Elt F) arg2.view (Rect.unit (s := S1152x128) ![384, 0] S128x128.size inb_S1152x128_S128x128_384_0).toLoadRect f2)
          (arg5.view.readCov (sound_kernel.sl.H5_11 c arg1 arg5 f1 f5) (Rect.unit (s := S3x66x64x128) ![0, 1, 0, 0] S1x64x64x128.size inb_S3x66x64x128_S1x64x64x128_0_1_0_0).toLoadRect)
          (View.readAt (Elt F) arg2.view (Rect.unit (s := S1152x128) ![512, 0] S128x128.size inb_S1152x128_S128x128_512_0).toLoadRect f2)
          (arg5.view.readCov (sound_kernel.sl.H5_11 c arg1 arg5 f1 f5) (Rect.unit (s := S3x66x64x128) ![1, 1, 0, 0] S1x64x64x128.size inb_S3x66x64x128_S1x64x64x128_1_1_0_0).toLoadRect))
        (View.readAt (Elt F) arg2.view (Rect.unit (s := S1152x128) ![640, 0] S128x128.size inb_S1152x128_S128x128_640_0).toLoadRect f2)
        (arg5.view.readCov (sound_kernel.sl.H5_11 c arg1 arg5 f1 f5) (Rect.unit (s := S3x66x64x128) ![2, 1, 0, 0] S1x64x64x128.size inb_S3x66x64x128_S1x64x64x128_2_1_0_0).toLoadRect)
        (View.readAt (Elt F) arg2.view (Rect.unit (s := S1152x128) ![768, 0] S128x128.size inb_S1152x128_S128x128_768_0).toLoadRect f2)
        (arg5.view.readCov (sound_kernel.sl.H5_11 c arg1 arg5 f1 f5) (Rect.unit (s := S3x66x64x128) ![0, 2, 0, 0] S1x64x64x128.size inb_S3x66x64x128_S1x64x64x128_0_2_0_0).toLoadRect)
        (View.readAt (Elt F) arg2.view (Rect.unit (s := S1152x128) ![896, 0] S128x128.size inb_S1152x128_S128x128_896_0).toLoadRect f2)
        (arg5.view.readCov (sound_kernel.sl.H5_11 c arg1 arg5 f1 f5) (Rect.unit (s := S3x66x64x128) ![1, 2, 0, 0] S1x64x64x128.size inb_S3x66x64x128_S1x64x64x128_1_2_0_0).toLoadRect)
        (View.readAt (Elt F) arg2.view (Rect.unit (s := S1152x128) ![1024, 0] S128x128.size inb_S1152x128_S128x128_1024_0).toLoadRect f2)
        (arg5.view.readCov (sound_kernel.sl.H5_11 c arg1 arg5 f1 f5) (Rect.unit (s := S3x66x64x128) ![2, 2, 0, 0] S1x64x64x128.size inb_S3x66x64x128_S1x64x64x128_2_2_0_0).toLoadRect)
      = outBlock (arg1.view.read (Elt F) f1) (arg2.view.read (Elt F) f2) (arg3.view.read (Elt F) f3)
    rw [hL, hb,
      readAt_wrows arg2.view f2 0 inb_S1152x128_S128x128_0_0 rfl, readAt_wrows arg2.view f2 1 inb_S1152x128_S128x128_128_0 rfl,
      readAt_wrows arg2.view f2 2 inb_S1152x128_S128x128_256_0 rfl, readAt_wrows arg2.view f2 3 inb_S1152x128_S128x128_384_0 rfl,
      readAt_wrows arg2.view f2 4 inb_S1152x128_S128x128_512_0 rfl, readAt_wrows arg2.view f2 5 inb_S1152x128_S128x128_640_0 rfl,
      readAt_wrows arg2.view f2 6 inb_S1152x128_S128x128_768_0 rfl, readAt_wrows arg2.view f2 7 inb_S1152x128_S128x128_896_0 rfl,
      readAt_wrows arg2.view f2 8 inb_S1152x128_S128x128_1024_0 rfl,
      readCov_slab arg5.view f5 _ 0 0 inb_S3x66x64x128_S1x64x64x128_0_0_0_0 rfl, readCov_slab arg5.view f5 _ 1 0 inb_S3x66x64x128_S1x64x64x128_1_0_0_0 rfl,
      readCov_slab arg5.view f5 _ 2 0 inb_S3x66x64x128_S1x64x64x128_2_0_0_0 rfl, readCov_slab arg5.view f5 _ 0 1 inb_S3x66x64x128_S1x64x64x128_0_1_0_0 rfl,
      readCov_slab arg5.view f5 _ 1 1 inb_S3x66x64x128_S1x64x64x128_1_1_0_0 rfl, readCov_slab arg5.view f5 _ 2 1 inb_S3x66x64x128_S1x64x64x128_2_1_0_0 rfl,
      readCov_slab arg5.view f5 _ 0 2 inb_S3x66x64x128_S1x64x64x128_0_2_0_0 rfl, readCov_slab arg5.view f5 _ 1 2 inb_S3x66x64x128_S1x64x64x128_1_2_0_0 rfl,
      readCov_slab arg5.view f5 _ 2 2 inb_S3x66x64x128_S1x64x64x128_2_2_0_0 rfl]
    rfl
  · iexists _; iexists _; isplitr
    swap; · iexact H5
    ipureintro; rfl

end Cert.Kernel.Gen

end
-- ==== Proof.BFrame.lean ====
/-
  The fused convolution program's proof data, body obligation, run and frame.

  After the body at grid point `t` (image `t`) the three input windows' buffers hold their blocks and the output
  window's holds `outBlock` of them; the region invariant is the scratch and the generator register at anything, before
  and after every point; nothing is owed; shares are full. The body obligation at a generic point is the body's triple;
  the run is the library's frame run of a region followed by host operations, and the frame claim's post follows.
-/
import proofs.«176999_g2000105039750728_pallasbulk_413_24_alg».proof.Proof.BBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The region invariant with the scratch as a memref owned at some contents. -/
theorem PhiA0_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Gen

end
-- ==== Proof.KLayout.lean ====
/-
  The body's stored values read at an index, at any float instance.

  The fused convolution body keeps, in a scratch of shape [3, 66, 64, 128], three copies of the transposed image
  (rows × columns × channels), each padded by a zero row above and below, the copy `kx` shifted by `kx - 1` columns.
  It fills them by plain stores of whole slabs and by BLENDED stores (rows that are part of their memory words are
  stored by loading the words, replacing the rows, and storing the words back). This module reads each stored value at
  one index: a splat of zero is zero everywhere; a slab of the image is the image at the slab's coordinates; a column
  window of the image is the image at the shifted column; and a blend is the new rows inside the replaced window and the
  loaded words outside it.
-/
import proofs.«176999_g2000105039750728_pallasbulk_413_24_alg».proof.Proof.Gen.KernelIdeal.Skeleton
import Idealize.ShloMosaic.Lib.Pipeline.Value
import Idealize.ShloMosaic.Lib.ValueIdx

noncomputable section

namespace Cert.KernelIdeal.Gen

open Idealize.ShloMosaic Idealize.ShloMosaic.ValueIdx

variable {F : FTy → Type} [FloatOps F]

/-! ## A blend read at an index -/

/-- Inside the replaced window a blend reads the new value at the index minus the window's offsets. -/
theorem updateSlice_of_mem {α : Type} {s u : Shape} (x : s.Idx → α) (upd : u.Idx → α) (start : Fin s.rank → Nat)
    (h : s.Slices start u) (i : s.Idx) (j : u.Idx)
    (hin : ∀ a : Fin s.rank, (i a).val = start a + (j (a.cast h.1.symm)).val) :
    updateSlice x upd start h i = upd j := by
  unfold updateSlice
  have hmem : ∀ a : Fin s.rank, start a ≤ (i a).val ∧ (i a).val < start a + u.size (a.cast h.1.symm) := fun a => by
    have h1 := hin a
    have h2 := (j (a.cast h.1.symm)).isLt
    omega
  rw [dif_pos hmem]
  refine congrArg upd (funext fun b => Fin.ext ?_)
  have h1 := hin (b.cast h.1)
  have e : (b.cast h.1).cast h.1.symm = b := rfl
  rw [e] at h1
  show (i (b.cast h.1)).val - start (b.cast h.1) = (j b).val
  omega

/-- Off the replaced window on some axis a blend reads the old value. -/
theorem updateSlice_of_not_mem {α : Type} {s u : Shape} (x : s.Idx → α) (upd : u.Idx → α) (start : Fin s.rank → Nat)
    (h : s.Slices start u) (i : s.Idx) (a : Fin s.rank)
    (ha : (i a).val < start a ∨ start a + u.size (a.cast h.1.symm) ≤ (i a).val) :
    updateSlice x upd start h i = x i := by
  unfold updateSlice
  rw [dif_neg]
  intro hall
  have := hall a
  omega

/-! ## The splats -/

/-- The bf16 zero the body splats. -/
abbrev zE : F .bf16 := Scalar.ofBits .bf16 0x0000#16

theorem pay4_apply (j : S1x1x64x128.Idx) : (k0_pay4 (F := F)) j = zE := rfl
theorem pay5_apply (j : S1x1x64x128.Idx) : (k0_pay5 (F := F)) j = zE := rfl
theorem pay6_apply (j : S1x1x64x128.Idx) : (k0_pay6 (F := F)) j = zE := rfl
theorem pay7_apply (j : S1x1x64x128.Idx) : (k0_pay7 (F := F)) j = zE := rfl
theorem pay8_apply (j : S1x1x64x128.Idx) : (k0_pay8 (F := F)) j = zE := rfl
theorem pay9_apply (j : S1x1x64x128.Idx) : (k0_pay9 (F := F)) j = zE := rfl
theorem pay11_apply (j : S1x64x1x128.Idx) : k0_pay11 (k0_pay2 (F := F)) j = zE := rfl
theorem pay14_apply (j : S1x64x1x128.Idx) : k0_pay14 (k0_pay2 (F := F)) j = zE := rfl

/-! ## The image's slab and its two column windows -/

/-- The whole transposed image as a slab of one copy. -/
theorem pay10_apply (r : FVec F S64x64x128 .bf16) (a : Fin 1) (h : Fin 64) (w : Fin 64) (c : Fin 128) :
    k0_pay10 r (ix4 a h w c) = r (ix3 h w c) := by
  unfold k0_pay10
  refine (shapeCast_addUnit_apply ![64, 64, 128] r _ _).trans (congrArg r (funext fun b => ?_))
  match b with
  | ⟨0, _⟩ => rfl
  | ⟨1, _⟩ => rfl
  | ⟨2, _⟩ => rfl

/-- Columns 0‥62 of the transposed image. -/
theorem pay12_apply (r : FVec F S64x64x128 .bf16) (a : Fin 1) (h : Fin 64) (w : Fin 63) (c : Fin 128) :
    k0_pay12 r (ix4 a h w c) = r (ix3 h ⟨w.val, by have := w.isLt; omega⟩ c) := by
  unfold k0_pay12
  refine (shapeCast_addUnit_apply ![64, 63, 128] _ _ _).trans ?_
  refine extractStridedSlice_apply _ r _ _ _ fun b => ?_
  match b with
  | ⟨0, _⟩ => exact (Nat.zero_add _).symm
  | ⟨1, _⟩ => exact (Nat.zero_add _).symm
  | ⟨2, _⟩ => exact (Nat.zero_add _).symm

/-- Columns 1‥63 of the transposed image. -/
theorem pay13_apply (r : FVec F S64x64x128 .bf16) (a : Fin 1) (h : Fin 64) (w : Fin 63) (c : Fin 128) :
    k0_pay13 r (ix4 a h w c) = r (ix3 h ⟨w.val + 1, by have := w.isLt; omega⟩ c) := by
  unfold k0_pay13
  refine (shapeCast_addUnit_apply ![64, 63, 128] _ _ _).trans ?_
  refine extractStridedSlice_apply _ r _ _ _ fun b => ?_
  match b with
  | ⟨0, _⟩ => exact (Nat.zero_add _).symm
  | ⟨1, _⟩ => exact Nat.add_comm _ _
  | ⟨2, _⟩ => exact (Nat.zero_add _).symm

end Cert.KernelIdeal.Gen

end
-- ==== Proof.KScratch.lean ====
/-
  What the scratch holds once the body has filled it, whatever it held before.

  The body's stores into the scratch [3, 66, 64, 128], newest first, are eleven pieces: the zero rows 0 and 65 of the
  three copies (six plain stores), the middle copy's rows 1‥64 (the transposed image, one plain store), and four BLENDED
  stores — copy 0's column 0 zeroed inside the two-column words that hold it, copy 0's columns 1‥63 set to the image's
  columns 0‥62 inside whole rows, copy 2's columns 0‥62 set to the image's columns 1‥63 inside whole rows, copy 2's
  column 63 zeroed inside the two-column words that hold it. A blend stores back, outside its window, the words it
  loaded; what those loads found is either a value an earlier piece stored or a value a later piece overwrites, so read
  AFTER all eleven the scratch is a function of the image alone (`read_pcs11`): rows 0 and 65 zero; copy 1 the image;
  copy 0 the image shifted right by one column with a zero column 0; copy 2 the image shifted left by one column with a
  zero column 63.
-/
import proofs.«176999_g2000105039750728_pallasbulk_413_24_alg».proof.Proof.KLayout
import Idealize.ShloMosaic.Lib.WritesUnit
import Idealize.ShloMosaic.Lib.Pipeline.FrameBody
import Idealize.ShloMosaic.Lib.Exec.Geometry

set_option maxRecDepth 16384

noncomputable section

namespace Cert.KernelIdeal.Gen

open Idealize.ShloMosaic Idealize.ShloMosaic.ValueIdx

variable {F : FTy → Type} [FloatOps F]

/-- A view of the scratch's shape and element type. -/
abbrev VS := View sig Kind.tc Space.vmem S3x66x64x128 EltTy.bf16

/-- The scratch after the body's stores, by coordinates (copy, row, column, channel), over the transposed image `r`. -/
def shiftedAt (r : FVec F S64x64x128 .bf16) (kx : Fin 3) (row : Fin 66) (col : Fin 64) (ch : Fin 128) : F .bf16 :=
  if hr : 1 ≤ row.val ∧ row.val ≤ 64 then
    if kx.val = 0 then
      if hc : 1 ≤ col.val then r (ix3 (⟨row.val - 1, by omega⟩ : Fin 64) (⟨col.val - 1, by have := col.isLt; omega⟩ : Fin 64) ch) else zE
    else if kx.val = 1 then r (ix3 (⟨row.val - 1, by omega⟩ : Fin 64) col ch)
    else if hc : col.val ≤ 62 then r (ix3 (⟨row.val - 1, by omega⟩ : Fin 64) (⟨col.val + 1, by omega⟩ : Fin 64) ch) else zE
  else zE

/-! ## The pieces, newest first -/

/-- The blends' new rows put into the loaded words. -/
def blend8 (old : S1x64x2x128.Idx → F .bf16) : S1x64x2x128.Idx → F .bf16 :=
  updateSlice old (k0_pay11 (k0_pay2 (F := F))) ![0, 0, 0, 0] slices_S1x64x2x128_S1x64x1x128_0_0_0_0
def blend9 (r : FVec F S64x64x128 .bf16) (old : S1x64x64x128.Idx → F .bf16) : S1x64x64x128.Idx → F .bf16 :=
  updateSlice old (k0_pay12 r) ![0, 0, 1, 0] slices_S1x64x64x128_S1x64x63x128_0_0_1_0
def blend10 (r : FVec F S64x64x128 .bf16) (old : S1x64x64x128.Idx → F .bf16) : S1x64x64x128.Idx → F .bf16 :=
  updateSlice old (k0_pay13 r) ![0, 0, 0, 0] slices_S1x64x64x128_S1x64x63x128_0_0_0_0
def blend11 (old : S1x64x2x128.Idx → F .bf16) : S1x64x2x128.Idx → F .bf16 :=
  updateSlice old (k0_pay14 (k0_pay2 (F := F))) ![0, 0, 1, 0] slices_S1x64x2x128_S1x64x1x128_0_0_1_0

/-- Five of the six zero rows. -/
def pcs5 : List (View.Piece (Elt F) S3x66x64x128 EltTy.bf16) :=
  [⟨Rect.unit (s := S3x66x64x128) ![2, 0, 0, 0] S1x1x64x128.size inb_S3x66x64x128_S1x1x64x128_2_0_0_0, k0_pay8⟩,
    ⟨Rect.unit (s := S3x66x64x128) ![1, 65, 0, 0] S1x1x64x128.size inb_S3x66x64x128_S1x1x64x128_1_65_0_0, k0_pay7⟩,
    ⟨Rect.unit (s := S3x66x64x128) ![1, 0, 0, 0] S1x1x64x128.size inb_S3x66x64x128_S1x1x64x128_1_0_0_0, k0_pay6⟩,
    ⟨Rect.unit (s := S3x66x64x128) ![0, 65, 0, 0] S1x1x64x128.size inb_S3x66x64x128_S1x1x64x128_0_65_0_0, k0_pay5⟩,
    ⟨Rect.unit (s := S3x66x64x128) ![0, 0, 0, 0] S1x1x64x128.size inb_S3x66x64x128_S1x1x64x128_0_0_0_0, k0_pay4⟩]

/-- Then the last zero row, the middle copy, and copy 0's zero column (a blend over what the scratch held). -/
def pcs8 (v : VS) (f5 : v.ty.Contents (Elt F)) (r : FVec F S64x64x128 .bf16) : List (View.Piece (Elt F) S3x66x64x128 EltTy.bf16) :=
  ⟨Rect.unit (s := S3x66x64x128) ![0, 1, 0, 0] S1x64x2x128.size inb_S3x66x64x128_S1x64x2x128_0_1_0_0,
      blend8 (View.readAt (Elt F) v (Rect.unit (s := S3x66x64x128) ![0, 1, 0, 0] S1x64x2x128.size inb_S3x66x64x128_S1x64x2x128_0_1_0_0).toLoadRect f5)⟩ ::
    ⟨Rect.unit (s := S3x66x64x128) ![1, 1, 0, 0] S1x64x64x128.size inb_S3x66x64x128_S1x64x64x128_1_1_0_0, k0_pay10 r⟩ ::
      ⟨Rect.unit (s := S3x66x64x128) ![2, 65, 0, 0] S1x1x64x128.size inb_S3x66x64x128_S1x1x64x128_2_65_0_0, k0_pay9⟩ :: pcs5

/-- Then copy 0's shifted columns (a blend over the writes so far) and copy 2's (a blend over what the scratch held). -/
def pcs10 (v : VS) (f5 : v.ty.Contents (Elt F)) (r : FVec F S64x64x128 .bf16) : List (View.Piece (Elt F) S3x66x64x128 EltTy.bf16) :=
  ⟨Rect.unit (s := S3x66x64x128) ![2, 1, 0, 0] S1x64x64x128.size inb_S3x66x64x128_S1x64x64x128_2_1_0_0,
      blend10 r (View.readAt (Elt F) v (Rect.unit (s := S3x66x64x128) ![2, 1, 0, 0] S1x64x64x128.size inb_S3x66x64x128_S1x64x64x128_2_1_0_0).toLoadRect f5)⟩ ::
    ⟨Rect.unit (s := S3x66x64x128) ![0, 1, 0, 0] S1x64x64x128.size inb_S3x66x64x128_S1x64x64x128_0_1_0_0,
        blend9 r (View.readAt (Elt F) v (Rect.unit (s := S3x66x64x128) ![0, 1, 0, 0] S1x64x64x128.size inb_S3x66x64x128_S1x64x64x128_0_1_0_0).toLoadRect
          (v.writes (Elt F) f5 (pcs8 v f5 r)))⟩ ::
      pcs8 v f5 r

/-- Last, copy 2's zero column (a blend over the writes so far, which cover its words). -/
def pcs11 (v : VS) (f5 : v.ty.Contents (Elt F)) (r : FVec F S64x64x128 .bf16) : List (View.Piece (Elt F) S3x66x64x128 EltTy.bf16) :=
  ⟨Rect.unit (s := S3x66x64x128) ![2, 1, 62, 0] S1x64x2x128.size inb_S3x66x64x128_S1x64x2x128_2_1_62_0,
      blend11 (v.readCov (pcs10 v f5 r) (Rect.unit (s := S3x66x64x128) ![2, 1, 62, 0] S1x64x2x128.size inb_S3x66x64x128_S1x64x2x128_2_1_62_0).toLoadRect)⟩ ::
    pcs10 v f5 r

/-! ## Reading through one piece -/

/-- An index outside the newest piece on axis `a` reads the rest. -/
theorem skipP (v : VS) (g : v.ty.Contents (Elt F)) {off size : Fin 4 → ℕ} (inb : ∀ a, off a + size a ≤ S3x66x64x128.size a)
    (w : (Rect.unit (s := S3x66x64x128) off size inb).shape.Idx → Elt F EltTy.bf16) (L : List (View.Piece (Elt F) S3x66x64x128 EltTy.bf16))
    (z : S3x66x64x128.Idx) (a : Fin 4) (ha : (z a).val < off a ∨ off a + size a ≤ (z a).val) :
    v.read (Elt F) (v.writes (Elt F) g ((⟨Rect.unit off size inb, w⟩ : View.Piece (Elt F) S3x66x64x128 EltTy.bf16) :: L)) z
      = v.read (Elt F) (v.writes (Elt F) g L) z :=
  View.read_writes_cons_unit_of_not_mem v g inb w L z rfl a ha

/-- An index at position `x` of the newest piece reads its payload there. -/
theorem hitP (v : VS) (g : v.ty.Contents (Elt F)) {off size : Fin 4 → ℕ} (inb : ∀ a, off a + size a ≤ S3x66x64x128.size a)
    (w : (Rect.unit (s := S3x66x64x128) off size inb).shape.Idx → Elt F EltTy.bf16) (L : List (View.Piece (Elt F) S3x66x64x128 EltTy.bf16))
    (z : S3x66x64x128.Idx) (x : (Rect.unit (s := S3x66x64x128) off size inb).shape.Idx) (hx : ∀ a, (z a).val = off a + (x a).val) :
    v.read (Elt F) (v.writes (Elt F) g ((⟨Rect.unit off size inb, w⟩ : View.Piece (Elt F) S3x66x64x128 EltTy.bf16) :: L)) z = w x :=
  View.read_writes_cons_unit_of_mem v g inb w L z x rfl hx

variable (v : VS) (g f5 : v.ty.Contents (Elt F)) (r : FVec F S64x64x128 .bf16)
variable (kx : Fin 3) (row : Fin 66) (col : Fin 64) (ch : Fin 128)

/-! ## The first eight pieces -/

/-- Rows 0 and 65 of every copy read zero. -/
theorem read_pcs8_border (hb : row.val = 0 ∨ row.val = 65) :
    v.read (Elt F) (v.writes (Elt F) g (pcs8 v f5 r)) (ix4 kx row col ch) = zE := by
  unfold pcs8 pcs5
  refine (skipP v g _ _ _ _ 1 (by show row.val < 1 ∨ 1 + 64 ≤ row.val; omega)).trans ?_
  refine (skipP v g _ _ _ _ 1 (by show row.val < 1 ∨ 1 + 64 ≤ row.val; omega)).trans ?_
  have hk := kx.isLt
  rcases hb with hb | hb
  · -- row 0
    refine (skipP v g _ _ _ _ 1 (by show row.val < 65 ∨ 65 + 1 ≤ row.val; omega)).trans ?_
    by_cases h2 : kx.val = 2
    · exact hitP v g _ _ _ _ (ix4 (0 : Fin 1) (0 : Fin 1) col ch) fun a => by
        match a with
        | ⟨0, _⟩ => show kx.val = 2 + 0; omega
        | ⟨1, _⟩ => show row.val = 0 + 0; omega
        | ⟨2, _⟩ => show col.val = 0 + col.val; omega
        | ⟨3, _⟩ => show ch.val = 0 + ch.val; omega
    refine (skipP v g _ _ _ _ 0 (by show kx.val < 2 ∨ 2 + 1 ≤ kx.val; omega)).trans ?_
    refine (skipP v g _ _ _ _ 1 (by show row.val < 65 ∨ 65 + 1 ≤ row.val; omega)).trans ?_
    by_cases h1 : kx.val = 1
    · exact hitP v g _ _ _ _ (ix4 (0 : Fin 1) (0 : Fin 1) col ch) fun a => by
        match a with
        | ⟨0, _⟩ => show kx.val = 1 + 0; omega
        | ⟨1, _⟩ => show row.val = 0 + 0; omega
        | ⟨2, _⟩ => show col.val = 0 + col.val; omega
        | ⟨3, _⟩ => show ch.val = 0 + ch.val; omega
    refine (skipP v g _ _ _ _ 0 (by show kx.val < 1 ∨ 1 + 1 ≤ kx.val; omega)).trans ?_
    refine (skipP v g _ _ _ _ 1 (by show row.val < 65 ∨ 65 + 1 ≤ row.val; omega)).trans ?_
    exact hitP v g _ _ _ _ (ix4 (0 : Fin 1) (0 : Fin 1) col ch) fun a => by
      match a with
      | ⟨0, _⟩ => show kx.val = 0 + 0; omega
      | ⟨1, _⟩ => show row.val = 0 + 0; omega
      | ⟨2, _⟩ => show col.val = 0 + col.val; omega
      | ⟨3, _⟩ => show ch.val = 0 + ch.val; omega
  · -- row 65
    by_cases h2 : kx.val = 2
    · exact hitP v g _ _ _ _ (ix4 (0 : Fin 1) (0 : Fin 1) col ch) fun a => by
        match a with
        | ⟨0, _⟩ => show kx.val = 2 + 0; omega
        | ⟨1, _⟩ => show row.val = 65 + 0; omega
        | ⟨2, _⟩ => show col.val = 0 + col.val; omega
        | ⟨3, _⟩ => show ch.val = 0 + ch.val; omega
    refine (skipP v g _ _ _ _ 0 (by show kx.val < 2 ∨ 2 + 1 ≤ kx.val; omega)).trans ?_
    refine (skipP v g _ _ _ _ 0 (by show kx.val < 2 ∨ 2 + 1 ≤ kx.val; omega)).trans ?_
    by_cases h1 : kx.val = 1
    · exact hitP v g _ _ _ _ (ix4 (0 : Fin 1) (0 : Fin 1) col ch) fun a => by
        match a with
        | ⟨0, _⟩ => show kx.val = 1 + 0; omega
        | ⟨1, _⟩ => show row.val = 65 + 0; omega
        | ⟨2, _⟩ => show col.val = 0 + col.val; omega
        | ⟨3, _⟩ => show ch.val = 0 + ch.val; omega
    refine (skipP v g _ _ _ _ 0 (by show kx.val < 1 ∨ 1 + 1 ≤ kx.val; omega)).trans ?_
    refine (skipP v g _ _ _ _ 0 (by show kx.val < 1 ∨ 1 + 1 ≤ kx.val; omega)).trans ?_
    exact hitP v g _ _ _ _ (ix4 (0 : Fin 1) (0 : Fin 1) col ch) fun a => by
      match a with
      | ⟨0, _⟩ => show kx.val = 0 + 0; omega
      | ⟨1, _⟩ => show row.val = 65 + 0; omega
      | ⟨2, _⟩ => show col.val = 0 + col.val; omega
      | ⟨3, _⟩ => show ch.val = 0 + ch.val; omega

/-- The middle copy's rows 1‥64 read the image. -/
theorem read_pcs8_mid (hk : kx.val = 1) (hr : 1 ≤ row.val ∧ row.val ≤ 64) :
    v.read (Elt F) (v.writes (Elt F) g (pcs8 v f5 r)) (ix4 kx row col ch)
      = r (ix3 (⟨row.val - 1, by omega⟩ : Fin 64) col ch) := by
  unfold pcs8
  refine (skipP v g _ _ _ _ 0 (by show kx.val < 0 ∨ 0 + 1 ≤ kx.val; omega)).trans ?_
  refine (hitP v g _ _ _ _ (ix4 (0 : Fin 1) (⟨row.val - 1, by omega⟩ : Fin 64) col ch) fun a => by
    match a with
    | ⟨0, _⟩ => show kx.val = 1 + 0; omega
    | ⟨1, _⟩ => show row.val = 1 + (row.val - 1); omega
    | ⟨2, _⟩ => show col.val = 0 + col.val; omega
    | ⟨3, _⟩ => show ch.val = 0 + ch.val; omega).trans ?_
  exact pay10_apply r _ _ _ _

/-- Copy 0's column 0, rows 1‥64, reads zero. -/
theorem read_pcs8_col0 (hk : kx.val = 0) (hr : 1 ≤ row.val ∧ row.val ≤ 64) (hc : col.val = 0) :
    v.read (Elt F) (v.writes (Elt F) g (pcs8 v f5 r)) (ix4 kx row col ch) = zE := by
  unfold pcs8
  refine (hitP v g _ _ _ _ (ix4 (0 : Fin 1) (⟨row.val - 1, by omega⟩ : Fin 64) (0 : Fin 2) ch) fun a => by
    match a with
    | ⟨0, _⟩ => show kx.val = 0 + 0; omega
    | ⟨1, _⟩ => show row.val = 1 + (row.val - 1); omega
    | ⟨2, _⟩ => show col.val = 0 + 0; omega
    | ⟨3, _⟩ => show ch.val = 0 + ch.val; omega).trans ?_
  unfold blend8
  refine (updateSlice_of_mem _ _ _ _ _ (ix4 (0 : Fin 1) (⟨row.val - 1, by omega⟩ : Fin 64) (0 : Fin 1) ch) fun a => by
    match a with
    | ⟨0, _⟩ => rfl
    | ⟨1, _⟩ => exact (Nat.zero_add _).symm
    | ⟨2, _⟩ => rfl
    | ⟨3, _⟩ => exact (Nat.zero_add _).symm).trans ?_
  exact pay11_apply _

end Cert.KernelIdeal.Gen

end
-- ==== Proof.KScratch2.lean ====
/-
  The scratch after ALL the body's stores is three zero-padded, column-shifted copies of the transposed image.

  Continuing the reading of the eleven pieces, newest first: the ninth piece (copy 0's shifted columns) keeps, at
  column 0, the word it loaded — the zero the eighth piece put there; the tenth (copy 2's shifted columns) keeps, at
  column 63, a word of the scratch's former contents, which the eleventh piece then replaces by zero; and the eleventh
  keeps, at column 62, the word it loaded — the image's column 63, which the tenth piece put there. So every element of
  the scratch reads a value of the image or zero (`read_pcs11`), and so does every covered load of it (`readCov_pcs11`).
-/
import proofs.«176999_g2000105039750728_pallasbulk_413_24_alg».proof.Proof.KScratch

set_option maxRecDepth 16384

noncomputable section

namespace Cert.KernelIdeal.Gen

open Idealize.ShloMosaic Idealize.ShloMosaic.ValueIdx

variable {F : FTy → Type} [FloatOps F]

/-- A load through a unit-stride rectangle reads the contents at the index plus the offsets. -/
theorem readAt_unit_apply (v : VS) (f : v.ty.Contents (Elt F)) {off size : Fin 4 → ℕ} (inb : ∀ a, off a + size a ≤ S3x66x64x128.size a)
    (x : (Rect.unit (s := S3x66x64x128) off size inb).shape.Idx) (z : S3x66x64x128.Idx) (hx : ∀ a, (z a).val = off a + (x a).val) :
    View.readAt (Elt F) v (Rect.unit (s := S3x66x64x128) off size inb).toLoadRect f x = v.read (Elt F) f z := by
  rw [View.readAt_apply]
  refine congrArg _ (funext fun a => Fin.ext ?_)
  show off a + 1 * (x a).val = (z a).val
  rw [hx a, Nat.one_mul]

variable (v : VS) (g f5 : v.ty.Contents (Elt F)) (r : FVec F S64x64x128 .bf16)
variable (kx : Fin 3) (row : Fin 66) (col : Fin 64) (ch : Fin 128)

/-! ## The first ten pieces -/

theorem read_pcs10_border (hb : row.val = 0 ∨ row.val = 65) :
    v.read (Elt F) (v.writes (Elt F) g (pcs10 v f5 r)) (ix4 kx row col ch) = zE := by
  unfold pcs10
  refine (skipP v g _ _ _ _ 1 (by show row.val < 1 ∨ 1 + 64 ≤ row.val; omega)).trans ?_
  refine (skipP v g _ _ _ _ 1 (by show row.val < 1 ∨ 1 + 64 ≤ row.val; omega)).trans ?_
  exact read_pcs8_border v g f5 r kx row col ch hb

theorem read_pcs10_mid1 (hk : kx.val = 1) (hr : 1 ≤ row.val ∧ row.val ≤ 64) :
    v.read (Elt F) (v.writes (Elt F) g (pcs10 v f5 r)) (ix4 kx row col ch)
      = r (ix3 (⟨row.val - 1, by omega⟩ : Fin 64) col ch) := by
  unfold pcs10
  refine (skipP v g _ _ _ _ 0 (by show kx.val < 2 ∨ 2 + 1 ≤ kx.val; omega)).trans ?_
  refine (skipP v g _ _ _ _ 0 (by show kx.val < 0 ∨ 0 + 1 ≤ kx.val; omega)).trans ?_
  exact read_pcs8_mid v g f5 r kx row col ch hk hr

/-- Copy 0, columns 1‥63: the image one column to the left. -/
theorem read_pcs10_mid0_pos (hk : kx.val = 0) (hr : 1 ≤ row.val ∧ row.val ≤ 64) (hc : 1 ≤ col.val) :
    v.read (Elt F) (v.writes (Elt F) g (pcs10 v f5 r)) (ix4 kx row col ch)
      = r (ix3 (⟨row.val - 1, by omega⟩ : Fin 64) (⟨col.val - 1, by have := col.isLt; omega⟩ : Fin 64) ch) := by
  unfold pcs10
  refine (skipP v g _ _ _ _ 0 (by show kx.val < 2 ∨ 2 + 1 ≤ kx.val; omega)).trans ?_
  refine (hitP v g _ _ _ _ (ix4 (0 : Fin 1) (⟨row.val - 1, by omega⟩ : Fin 64) col ch) fun a => by
    match a with
    | ⟨0, _⟩ => show kx.val = 0 + 0; omega
    | ⟨1, _⟩ => show row.val = 1 + (row.val - 1); omega
    | ⟨2, _⟩ => show col.val = 0 + col.val; omega
    | ⟨3, _⟩ => show ch.val = 0 + ch.val; omega).trans ?_
  unfold blend9
  refine (updateSlice_of_mem _ _ _ _ _
    (ix4 (0 : Fin 1) (⟨row.val - 1, by omega⟩ : Fin 64) (⟨col.val - 1, by have := col.isLt; omega⟩ : Fin 63) ch) fun a => by
    match a with
    | ⟨0, _⟩ => rfl
    | ⟨1, _⟩ => exact (Nat.zero_add _).symm
    | ⟨2, _⟩ => show col.val = 1 + (col.val - 1); omega
    | ⟨3, _⟩ => exact (Nat.zero_add _).symm).trans ?_
  exact pay12_apply r _ _ _ _

/-- Copy 0, column 0: the ninth piece stored back the word it loaded, the eighth piece's zero. -/
theorem read_pcs10_mid0_zero (hk : kx.val = 0) (hr : 1 ≤ row.val ∧ row.val ≤ 64) (hc : col.val = 0) :
    v.read (Elt F) (v.writes (Elt F) g (pcs10 v f5 r)) (ix4 kx row col ch) = zE := by
  unfold pcs10
  refine (skipP v g _ _ _ _ 0 (by show kx.val < 2 ∨ 2 + 1 ≤ kx.val; omega)).trans ?_
  refine (hitP v g _ _ _ _ (ix4 (0 : Fin 1) (⟨row.val - 1, by omega⟩ : Fin 64) col ch) fun a => by
    match a with
    | ⟨0, _⟩ => show kx.val = 0 + 0; omega
    | ⟨1, _⟩ => show row.val = 1 + (row.val - 1); omega
    | ⟨2, _⟩ => show col.val = 0 + col.val; omega
    | ⟨3, _⟩ => show ch.val = 0 + ch.val; omega).trans ?_
  unfold blend9
  refine (updateSlice_of_not_mem _ _ _ _ _ 2 (Or.inl (by show col.val < 1; omega))).trans ?_
  refine (readAt_unit_apply v _ _ _ (ix4 kx row col ch) fun a => by
    match a with
    | ⟨0, _⟩ => show kx.val = 0 + 0; omega
    | ⟨1, _⟩ => show row.val = 1 + (row.val - 1); omega
    | ⟨2, _⟩ => show col.val = 0 + col.val; omega
    | ⟨3, _⟩ => show ch.val = 0 + ch.val; omega).trans ?_
  exact read_pcs8_col0 v f5 f5 r kx row col ch hk hr hc

/-- Copy 2, columns 0‥62: the image one column to the right. -/
theorem read_pcs10_mid2 (hk : kx.val = 2) (hr : 1 ≤ row.val ∧ row.val ≤ 64) (hc : col.val ≤ 62) :
    v.read (Elt F) (v.writes (Elt F) g (pcs10 v f5 r)) (ix4 kx row col ch)
      = r (ix3 (⟨row.val - 1, by omega⟩ : Fin 64) (⟨col.val + 1, by omega⟩ : Fin 64) ch) := by
  unfold pcs10
  refine (hitP v g _ _ _ _ (ix4 (0 : Fin 1) (⟨row.val - 1, by omega⟩ : Fin 64) col ch) fun a => by
    match a with
    | ⟨0, _⟩ => show kx.val = 2 + 0; omega
    | ⟨1, _⟩ => show row.val = 1 + (row.val - 1); omega
    | ⟨2, _⟩ => show col.val = 0 + col.val; omega
    | ⟨3, _⟩ => show ch.val = 0 + ch.val; omega).trans ?_
  unfold blend10
  refine (updateSlice_of_mem _ _ _ _ _
    (ix4 (0 : Fin 1) (⟨row.val - 1, by omega⟩ : Fin 64) (⟨col.val, by omega⟩ : Fin 63) ch) fun a => by
    match a with
    | ⟨0, _⟩ => rfl
    | ⟨1, _⟩ => exact (Nat.zero_add _).symm
    | ⟨2, _⟩ => exact (Nat.zero_add _).symm
    | ⟨3, _⟩ => exact (Nat.zero_add _).symm).trans ?_
  exact pay13_apply r _ _ _ _

/-! ## All eleven -/

/-- THE SCRATCH AFTER THE BODY'S STORES, over any former contents. -/
theorem read_pcs11 :
    v.read (Elt F) (v.writes (Elt F) g (pcs11 v f5 r)) (ix4 kx row col ch) = shiftedAt r kx row col ch := by
  have hkx := kx.isLt
  have hrow := row.isLt
  have hcol := col.isLt
  unfold shiftedAt
  by_cases hr : 1 ≤ row.val ∧ row.val ≤ 64
  · rw [dif_pos hr]
    by_cases h0 : kx.val = 0
    · rw [if_pos h0]
      unfold pcs11
      refine (skipP v g _ _ _ _ 0 (by show kx.val < 2 ∨ 2 + 1 ≤ kx.val; omega)).trans ?_
      by_cases hc : 1 ≤ col.val
      · rw [dif_pos hc]; exact read_pcs10_mid0_pos v g f5 r kx row col ch h0 hr hc
      · rw [dif_neg hc]; exact read_pcs10_mid0_zero v g f5 r kx row col ch h0 hr (by omega)
    · rw [if_neg h0]
      by_cases h1 : kx.val = 1
      · rw [if_pos h1]
        unfold pcs11
        refine (skipP v g _ _ _ _ 0 (by show kx.val < 2 ∨ 2 + 1 ≤ kx.val; omega)).trans ?_
        exact read_pcs10_mid1 v g f5 r kx row col ch h1 hr
      · rw [if_neg h1]
        have h2 : kx.val = 2 := by omega
        unfold pcs11
        by_cases hc : col.val ≤ 62
        · rw [dif_pos hc]
          by_cases hc' : col.val ≤ 61
          · refine (skipP v g _ _ _ _ 2 (by show col.val < 62 ∨ 62 + 2 ≤ col.val; omega)).trans ?_
            exact read_pcs10_mid2 v g f5 r kx row col ch h2 hr hc
          · -- column 62: the eleventh piece stored back the word it loaded, the tenth piece's
            refine (hitP v g _ _ _ _ (ix4 (0 : Fin 1) (⟨row.val - 1, by omega⟩ : Fin 64) (0 : Fin 2) ch) fun a => by
              match a with
              | ⟨0, _⟩ => show kx.val = 2 + 0; omega
              | ⟨1, _⟩ => show row.val = 1 + (row.val - 1); omega
              | ⟨2, _⟩ => show col.val = 62 + 0; omega
              | ⟨3, _⟩ => show ch.val = 0 + ch.val; omega).trans ?_
            unfold blend11
            refine (updateSlice_of_not_mem _ _ _ _ _ 2 (Or.inl (by show (0 : Nat) < 1; omega))).trans ?_
            unfold View.readCov
            refine (readAt_unit_apply v _ _ _ (ix4 kx row col ch) fun a => by
              match a with
              | ⟨0, _⟩ => show kx.val = 2 + 0; omega
              | ⟨1, _⟩ => show row.val = 1 + (row.val - 1); omega
              | ⟨2, _⟩ => show col.val = 62 + 0; omega
              | ⟨3, _⟩ => show ch.val = 0 + ch.val; omega).trans ?_
            exact read_pcs10_mid2 v _ f5 r kx row col ch h2 hr hc
        · rw [dif_neg hc]
          -- column 63: the eleventh piece's zero
          refine (hitP v g _ _ _ _ (ix4 (0 : Fin 1) (⟨row.val - 1, by omega⟩ : Fin 64) (1 : Fin 2) ch) fun a => by
            match a with
            | ⟨0, _⟩ => show kx.val = 2 + 0; omega
            | ⟨1, _⟩ => show row.val = 1 + (row.val - 1); omega
            | ⟨2, _⟩ => show col.val = 62 + 1; omega
            | ⟨3, _⟩ => show ch.val = 0 + ch.val; omega).trans ?_
          unfold blend11
          refine (updateSlice_of_mem _ _ _ _ _ (ix4 (0 : Fin 1) (⟨row.val - 1, by omega⟩ : Fin 64) (0 : Fin 1) ch) fun a => by
            match a with
            | ⟨0, _⟩ => rfl
            | ⟨1, _⟩ => exact (Nat.zero_add _).symm
            | ⟨2, _⟩ => rfl
            | ⟨3, _⟩ => exact (Nat.zero_add _).symm).trans ?_
          exact pay14_apply _
  · rw [dif_neg hr]
    unfold pcs11
    refine (skipP v g _ _ _ _ 1 (by show row.val < 1 ∨ 1 + 64 ≤ row.val; omega)).trans ?_
    exact read_pcs10_border v g f5 r kx row col ch (by omega)

/-- A covered load of the scratch through a unit-stride rectangle reads the shifted image at the index plus the offsets. -/
theorem readCov_pcs11 {off size : Fin 4 → ℕ} (inb : ∀ a, off a + size a ≤ S3x66x64x128.size a)
    (x : (Rect.unit (s := S3x66x64x128) off size inb).shape.Idx)
    (hx0 : kx.val = off 0 + (x 0).val) (hx1 : row.val = off 1 + (x 1).val) (hx2 : col.val = off 2 + (x 2).val) (hx3 : ch.val = off 3 + (x 3).val) :
    v.readCov (pcs11 v f5 r) (Rect.unit (s := S3x66x64x128) off size inb).toLoadRect x = shiftedAt r kx row col ch := by
  unfold View.readCov
  refine (readAt_unit_apply v _ _ x (ix4 kx row col ch) fun a => by
    match a with
    | ⟨0, _⟩ => exact hx0
    | ⟨1, _⟩ => exact hx1
    | ⟨2, _⟩ => exact hx2
    | ⟨3, _⟩ => exact hx3).trans ?_
  exact read_pcs11 v _ f5 r kx row col ch

end Cert.KernelIdeal.Gen

end
-- ==== Proof.KOut.lean ====
/-
  The output block the fused convolution body stores, as one function of its three input blocks, at any float instance.

  After the body's stores the scratch is the shifted image (`shiftedAt` of the transposed image block); the nine
  operands of the body's products are its slabs `(kx, ky‥ky+63)`, tap `t = ky·3 + kx` against rows `t·128‥t·128+127`
  of the weight block; the bias column is broadcast over the pixels and the nine products are added to it one after the
  other. `outBlock` is that value, written over the generated payload names so that it is, term for term, what the
  symbolic run of the body finds in the output buffer once each slab load is replaced by the slab it reads.
-/
import proofs.«176999_g2000105039750728_pallasbulk_413_24_alg».proof.Proof.KScratch2

set_option maxRecDepth 16384

noncomputable section

namespace Cert.KernelIdeal.Gen

open Idealize.ShloMosaic Idealize.ShloMosaic.ValueIdx

variable {F : FTy → Type} [FloatOps F]

/-- Rows `ky‥ky+63` of copy `kx` of the shifted image: the pixel rows tap `(ky, kx)` sees. -/
def slab (r : FVec F S64x64x128 .bf16) (kx ky : Fin 3) : Vec F S1x64x64x128 .bf16 :=
  fun y => shiftedAt r kx (⟨ky.val + (y 1).val, by have := ky.isLt; have : (y 1).val < 64 := (y 1).isLt; omega⟩ : Fin 66) (y 2) (y 3)

/-- Rows `t·128‥t·128+127` of the weight block. -/
def wrows (w0 : Vec F S1152x128 .bf16) (t : Fin 9) : Vec F S128x128 .bf16 :=
  fun y => w0 (ix2 (⟨t.val * 128 + (y 0).val, by have := t.isLt; have : (y 0).val < 128 := (y 0).isLt; omega⟩ : Fin 1152) (y 1))

/-- What the body stores into its output block. -/
def outBlock (x0 : Vec F S1x128x4096 .f32) (w0 : Vec F S1152x128 .bf16) (b0 : Vec F S128x1 .f32) : FVec F S1x128x4096 .f32 :=
  let r := k0_pay3 x0
  k0_pay18
    (k0_pay17 (k0_pay15 b0) (k0_pay16 (wrows w0 0) (slab r 0 0))
      (wrows w0 1) (slab r 1 0) (wrows w0 2) (slab r 2 0) (wrows w0 3) (slab r 0 1) (wrows w0 4) (slab r 1 1))
    (wrows w0 5) (slab r 2 1) (wrows w0 6) (slab r 0 2) (wrows w0 7) (slab r 1 2) (wrows w0 8) (slab r 2 2)

end Cert.KernelIdeal.Gen

end
-- ==== Proof.KBody.lean ====
/-
  The frame of the fused convolution program: the body's triple, the proof data, the body obligation and the run.

  The body is run symbolically once (`sound_kernel`): from its three input blocks held at read contents, its output
  block and its scratch at anything, it ends with the inputs as they were, the scratch at something, and the output block
  at `outBlock` of the inputs — each of the nine covered loads of the scratch is the slab of the shifted image it names
  (`readCov_slab`, over `read_pcs11`), each load of the weight block its rows, so what the run finds in the output
  buffer is `outBlock` term for term. The scratch is the region invariant's (at some contents before and after every
  point: nothing is carried between grid points). The rest is the library's frame run around the host operations.
-/
import proofs.«176999_g2000105039750728_pallasbulk_413_24_alg».proof.Proof.Gen.KernelIdeal.Frame
import proofs.«176999_g2000105039750728_pallasbulk_413_24_alg».proof.Proof.Gen.KernelIdeal.Skeleton
import proofs.«176999_g2000105039750728_pallasbulk_413_24_alg».proof.Proof.KOut
import Idealize.ShloMosaic.Lib.Pipeline.Frame
import Idealize.ShloMosaic.Lib.Pipeline.FrameSuffix
import Idealize.ShloMosaic.Lib.Exec.Geometry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## What the body's loads read -/

theorem hz3 : (![0, 0, 0] : Fin 3 → ℕ) = fun _ => 0 := funext fun a => by
  match a with
  | ⟨0, _⟩ => rfl
  | ⟨1, _⟩ => rfl
  | ⟨2, _⟩ => rfl
theorem hz2 : (![0, 0] : Fin 2 → ℕ) = fun _ => 0 := funext fun a => by
  match a with
  | ⟨0, _⟩ => rfl
  | ⟨1, _⟩ => rfl

/-- A load of rows `t·128‥` of the weight block reads those rows. -/
theorem readAt_wrows (v2 : View sig Kind.tc Space.vmem S1152x128 EltTy.bf16) (f2 : v2.ty.Contents (Elt F)) (t : Fin 9)
    {off : Fin 2 → ℕ} (inb : ∀ a, off a + S128x128.size a ≤ S1152x128.size a) (hoff : off = ![t.val * 128, 0]) :
    View.readAt (Elt F) v2 (Rect.unit (s := S1152x128) off S128x128.size inb).toLoadRect f2 = wrows (v2.read (Elt F) f2) t := by
  subst hoff
  funext y
  rw [View.readAt_apply]
  unfold wrows
  refine congrArg _ (funext fun a => Fin.ext ?_)
  match a with
  | ⟨0, _⟩ => show t.val * 128 + 1 * (y 0).val = t.val * 128 + (y 0).val; omega
  | ⟨1, _⟩ => show 0 + 1 * (y 1).val = (y 1).val; omega

/-- A covered load of rows `ky‥ky+63` of copy `kx` of the scratch reads that slab of the shifted image. -/
theorem readCov_slab (v : VS) (f5 : v.ty.Contents (Elt F)) (r : FVec F S64x64x128 .bf16) (kx ky : Fin 3)
    {off : Fin 4 → ℕ} (inb : ∀ a, off a + S1x64x64x128.size a ≤ S3x66x64x128.size a) (hoff : off = ![kx.val, ky.val, 0, 0]) :
    v.readCov (pcs11 v f5 r) (Rect.unit (s := S3x66x64x128) off S1x64x64x128.size inb).toLoadRect = slab r kx ky := by
  subst hoff
  funext y
  unfold slab
  have h0 : (y 0).val < 1 := (y 0).isLt
  exact readCov_pcs11 v f5 r kx _ (y 2) (y 3) inb y (by show kx.val = kx.val + (y 0).val; omega) rfl
    (by show (y 2).val = 0 + (y 2).val; omega) (by show (y 3).val = 0 + (y 3).val; omega)

/-! ## The body's triple -/

set_option maxHeartbeats 4000000 in
theorem sound_kernel (c : Dev nD) (E : Set ℕ) (i : grid0.Coords)
    (arg1 : Memref sig .tc .vmem S1x128x4096 .f32) (harg1 : arg1.IsWhole) (arg2 : Memref sig .tc .vmem S1152x128 .bf16) (harg2 : arg2.IsWhole)
    (arg3 : Memref sig .tc .vmem S128x1 .f32) (harg3 : arg3.IsWhole) (arg4 : Memref sig .tc .vmem S1x128x4096 .f32) (harg4 : arg4.IsWhole)
    (arg5 : Memref sig .tc .vmem S3x66x64x128 .bf16) (harg5 : arg5.IsWhole)
    (x0 : Vec F S1x128x4096 .f32) (w0 : Vec F S1152x128 .bf16) (b0 : Vec F S128x1 .f32) (K : PUnit → sProp 𝕄) :
    iprop(owns (c : Thread nD τ) arg1 fullShare x0 ∗ owns (c : Thread nD τ) arg2 fullShare w0 ∗ owns (c : Thread nD τ) arg3 fullShare b0
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w0 ∗ owns (c : Thread nD τ) arg3 fullShare b0
            ∗ owns (c : Thread nD τ) arg4 fullShare (outBlock x0 w0 b0) ∗ (∃ d, owns (c : Thread nD τ) arg5 fullShare d)) -∗ K ⟨⟩))
      ⊢ wp frame (wpE (defs₀ (F := F)) Variants.none c none) E (cc0__conv3x3_kernel i arg1 harg1 arg2 harg2 arg3 harg3 arg4 harg4 arg5 harg5) K := by
  simp only [cc0__conv3x3_kernel_eq_skeleton]; unfold cc0__conv3x3_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec_parts
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    -- the one store through the whole output block leaves its payload
    rw [View.read_writes_eq_canon _ _ _ (fun y => ⟨_, List.mem_singleton_self _, View.mem_set_unit_zero hz3 inb_S1x128x4096_S1x128x4096_0_0_0 y⟩),
      View.canon_unit_zero hz3]
    -- the payload is `outBlock`, load by load
    have hx : View.readAt (Elt F) arg1.view (Rect.unit (s := S1x128x4096) ![0, 0, 0] S1x128x4096.size inb_S1x128x4096_S1x128x4096_0_0_0).toLoadRect f1
        = arg1.view.read (Elt F) f1 := View.ld_unit_zero hz3 _ _
    have hb : View.readAt (Elt F) arg3.view (Rect.unit (s := S128x1) ![0, 0] S128x1.size inb_S128x1_S128x1_0_0).toLoadRect f3
        = arg3.view.read (Elt F) f3 := View.ld_unit_zero hz2 _ _
    have hL : sound_kernel.sl.H5_11 c arg1 arg5 f1 f5 = pcs11 arg5.view f5 (k0_pay3 (arg1.view.read (Elt F) f1)) := by
      rw [← hx]; rfl
    show k0_pay18
        (k0_pay17 (k0_pay15 (View.readAt (Elt F) arg3.view (Rect.unit (s := S128x1) ![0, 0] S128x1.size inb_S128x1_S128x1_0_0).toLoadRect f3))
          (k0_pay16 (View.readAt (Elt F) arg2.view (Rect.unit (s := S1152x128) ![0, 0] S128x128.size inb_S1152x128_S128x128_0_0).toLoadRect f2)
            (arg5.view.readCov (sound_kernel.sl.H5_11 c arg1 arg5 f1 f5) (Rect.unit (s := S3x66x64x128) ![0, 0, 0, 0] S1x64x64x128.size inb_S3x66x64x128_S1x64x64x128_0_0_0_0).toLoadRect))
          (View.readAt (Elt F) arg2.view (Rect.unit (s := S1152x128) ![128, 0] S128x128.size inb_S1152x128_S128x128_128_0).toLoadRect f2)
          (arg5.view.readCov (sound_kernel.sl.H5_11 c arg1 arg5 f1 f5) (Rect.unit (s := S3x66x64x128) ![1, 0, 0, 0] S1x64x64x128.size inb_S3x66x64x128_S1x64x64x128_1_0_0_0).toLoadRect)
          (View.readAt (Elt F) arg2.view (Rect.unit (s := S1152x128) ![256, 0] S128x128.size inb_S1152x128_S128x128_256_0).toLoadRect f2)
          (arg5.view.readCov (sound_kernel.sl.H5_11 c arg1 arg5 f1 f5) (Rect.unit (s := S3x66x64x128) ![2, 0, 0, 0] S1x64x64x128.size inb_S3x66x64x128_S1x64x64x128_2_0_0_0).toLoadRect)
          (View.readAt (Elt F) arg2.view (Rect.unit (s := S1152x128) ![384, 0] S128x128.size inb_S1152x128_S128x128_384_0).toLoadRect f2)
          (arg5.view.readCov (sound_kernel.sl.H5_11 c arg1 arg5 f1 f5) (Rect.unit (s := S3x66x64x128) ![0, 1, 0, 0] S1x64x64x128.size inb_S3x66x64x128_S1x64x64x128_0_1_0_0).toLoadRect)
          (View.readAt (Elt F) arg2.view (Rect.unit (s := S1152x128) ![512, 0] S128x128.size inb_S1152x128_S128x128_512_0).toLoadRect f2)
          (arg5.view.readCov (sound_kernel.sl.H5_11 c arg1 arg5 f1 f5) (Rect.unit (s := S3x66x64x128) ![1, 1, 0, 0] S1x64x64x128.size inb_S3x66x64x128_S1x64x64x128_1_1_0_0).toLoadRect))
        (View.readAt (Elt F) arg2.view (Rect.unit (s := S1152x128) ![640, 0] S128x128.size inb_S1152x128_S128x128_640_0).toLoadRect f2)
        (arg5.view.readCov (sound_kernel.sl.H5_11 c arg1 arg5 f1 f5) (Rect.unit (s := S3x66x64x128) ![2, 1, 0, 0] S1x64x64x128.size inb_S3x66x64x128_S1x64x64x128_2_1_0_0).toLoadRect)
        (View.readAt (Elt F) arg2.view (Rect.unit (s := S1152x128) ![768, 0] S128x128.size inb_S1152x128_S128x128_768_0).toLoadRect f2)
        (arg5.view.readCov (sound_kernel.sl.H5_11 c arg1 arg5 f1 f5) (Rect.unit (s := S3x66x64x128) ![0, 2, 0, 0] S1x64x64x128.size inb_S3x66x64x128_S1x64x64x128_0_2_0_0).toLoadRect)
        (View.readAt (Elt F) arg2.view (Rect.unit (s := S1152x128) ![896, 0] S128x128.size inb_S1152x128_S128x128_896_0).toLoadRect f2)
        (arg5.view.readCov (sound_kernel.sl.H5_11 c arg1 arg5 f1 f5) (Rect.unit (s := S3x66x64x128) ![1, 2, 0, 0] S1x64x64x128.size inb_S3x66x64x128_S1x64x64x128_1_2_0_0).toLoadRect)
        (View.readAt (Elt F) arg2.view (Rect.unit (s := S1152x128) ![1024, 0] S128x128.size inb_S1152x128_S128x128_1024_0).toLoadRect f2)
        (arg5.view.readCov (sound_kernel.sl.H5_11 c arg1 arg5 f1 f5) (Rect.unit (s := S3x66x64x128) ![2, 2, 0, 0] S1x64x64x128.size inb_S3x66x64x128_S1x64x64x128_2_2_0_0).toLoadRect)
      = outBlock (arg1.view.read (Elt F) f1) (arg2.view.read (Elt F) f2) (arg3.view.read (Elt F) f3)
    rw [hL, hb,
      readAt_wrows arg2.view f2 0 inb_S1152x128_S128x128_0_0 rfl, readAt_wrows arg2.view f2 1 inb_S1152x128_S128x128_128_0 rfl,
      readAt_wrows arg2.view f2 2 inb_S1152x128_S128x128_256_0 rfl, readAt_wrows arg2.view f2 3 inb_S1152x128_S128x128_384_0 rfl,
      readAt_wrows arg2.view f2 4 inb_S1152x128_S128x128_512_0 rfl, readAt_wrows arg2.view f2 5 inb_S1152x128_S128x128_640_0 rfl,
      readAt_wrows arg2.view f2 6 inb_S1152x128_S128x128_768_0 rfl, readAt_wrows arg2.view f2 7 inb_S1152x128_S128x128_896_0 rfl,
      readAt_wrows arg2.view f2 8 inb_S1152x128_S128x128_1024_0 rfl,
      readCov_slab arg5.view f5 _ 0 0 inb_S3x66x64x128_S1x64x64x128_0_0_0_0 rfl, readCov_slab arg5.view f5 _ 1 0 inb_S3x66x64x128_S1x64x64x128_1_0_0_0 rfl,
      readCov_slab arg5.view f5 _ 2 0 inb_S3x66x64x128_S1x64x64x128_2_0_0_0 rfl, readCov_slab arg5.view f5 _ 0 1 inb_S3x66x64x128_S1x64x64x128_0_1_0_0 rfl,
      readCov_slab arg5.view f5 _ 1 1 inb_S3x66x64x128_S1x64x64x128_1_1_0_0 rfl, readCov_slab arg5.view f5 _ 2 1 inb_S3x66x64x128_S1x64x64x128_2_1_0_0 rfl,
      readCov_slab arg5.view f5 _ 0 2 inb_S3x66x64x128_S1x64x64x128_0_2_0_0 rfl, readCov_slab arg5.view f5 _ 1 2 inb_S3x66x64x128_S1x64x64x128_1_2_0_0 rfl,
      readCov_slab arg5.view f5 _ 2 2 inb_S3x66x64x128_S1x64x64x128_2_2_0_0 rfl]
    rfl
  · iexists _; iexists _; isplitr
    swap; · iexact H5
    ipureintro; rfl

end Cert.KernelIdeal.Gen

end
-- ==== Proof.KFrame.lean ====
/-
  The fused convolution program's proof data, body obligation, run and frame.

  After the body at grid point `t` (image `t`) the three input windows' buffers hold their blocks and the output
  window's holds `outBlock` of them; the region invariant is the scratch and the generator register at anything, before
  and after every point; nothing is owed; shares are full. The body obligation at a generic point is the body's triple;
  the run is the library's frame run of a region followed by host operations, and the frame claim's post follows.
-/
import proofs.«176999_g2000105039750728_pallasbulk_413_24_alg».proof.Proof.KBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The region invariant with the scratch as a memref owned at some contents. -/
theorem PhiA0_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.ConvSpec.lean ====
/-
  The mathematics of an equalized 3×3 convolution (stride 1, zero padding 1) of a batch of NCHW images, stated once over
  the extended reals and over literal shapes, with no program in sight.

  * `W wn s k co` — the scaled weight, flattened tap-major: row `k = (ky·3 + kx)·128 + ci` of column `co` is
    `wn[co, ci, ky, kx] · s`.
  * `XP x n i j ci` — the image `n` zero-padded by one pixel on each side of both spatial axes, channel last:
    `x[n, ci, i-1, j-1]` for `1 ≤ i, j ≤ 64` and `0` on the border.
  * `tapDot` — one tap's contribution to an output pixel: the sum over the input channels of the weight row times
    the padded pixel that tap sees.
  * `convTaps` — the output as the bias plus the nine taps' contributions, added one after the other from tap 0
    (the arrangement of a kernel that accumulates one product per tap).
  * `convPatch` — the output as ONE contraction over all `9·128` rows of the flattened weight against the patch
    vector of the pixel, plus the bias (the arrangement of an im2col product).
-/
import Idealize.ShloMosaic.PureOps.Ideal
import Idealize.ShloMosaic.Lib.ValueIdx

noncomputable section

open scoped BigOperators

namespace Cert.ConvSpec

open Idealize.ShloMosaic Idealize.ShloMosaic.ValueIdx

abbrev SX : Shape := ⟨4, ![16, 128, 64, 64]⟩
abbrev SW : Shape := ⟨4, ![128, 128, 3, 3]⟩
abbrev SB : Shape := ⟨1, ![128]⟩
abbrev S0 : Shape := ⟨0, ![]⟩

/-- The tap `ky·3 + kx` of a flattened weight row. -/
def tapOf (k : Fin 1152) : Fin 9 := ⟨k.val / 128, by have := k.isLt; omega⟩
/-- The input channel of a flattened weight row. -/
def chanOf (k : Fin 1152) : Fin 128 := ⟨k.val % 128, Nat.mod_lt _ (by decide)⟩
/-- The flattened weight row of a tap and an input channel. -/
def rowOf (t : Fin 9) (ci : Fin 128) : Fin 1152 := ⟨t.val * 128 + ci.val, by have := t.isLt; have := ci.isLt; omega⟩
/-- A tap's row offset `ky` and column offset `kx`. -/
def kyOf (t : Fin 9) : Fin 3 := ⟨t.val / 3, by have := t.isLt; omega⟩
def kxOf (t : Fin 9) : Fin 3 := ⟨t.val % 3, Nat.mod_lt _ (by decide)⟩

/-- The scaled weight, flattened tap-major. -/
def W (wn : SW.Idx → EReal) (s : S0.Idx → EReal) (k : Fin 1152) (co : Fin 128) : EReal :=
  wn (ix4 co (chanOf k) (kyOf (tapOf k)) (kxOf (tapOf k))) * s ix0

/-- The zero-padded image, channel last. -/
def XP (x : SX.Idx → EReal) (n : Fin 16) (i j : Fin 66) (ci : Fin 128) : EReal :=
  if h : 1 ≤ i.val ∧ i.val ≤ 64 ∧ 1 ≤ j.val ∧ j.val ≤ 64 then
    x (ix4 n ci ⟨i.val - 1, by omega⟩ ⟨j.val - 1, by omega⟩)
  else 0

/-- The padded pixel tap `t` sees at output pixel `(h, w)`. -/
def seen (x : SX.Idx → EReal) (n : Fin 16) (h w : Fin 64) (t : Fin 9) (ci : Fin 128) : EReal :=
  XP x n ⟨h.val + (kyOf t).val, by have := h.isLt; have := (kyOf t).isLt; omega⟩
    ⟨w.val + (kxOf t).val, by have := w.isLt; have := (kxOf t).isLt; omega⟩ ci

/-- One tap's contribution: weight row times the pixel it sees, summed over the input channels. -/
def tapDot (x : SX.Idx → EReal) (wn : SW.Idx → EReal) (s : S0.Idx → EReal) (n : Fin 16) (co : Fin 128) (h w : Fin 64)
    (t : Fin 9) : EReal :=
  ∑ ci : Fin 128, W wn s (rowOf t ci) co * seen x n h w t ci

/-- The bias plus the nine taps, accumulated from tap 0. -/
def convTaps (x : SX.Idx → EReal) (wn : SW.Idx → EReal) (b : SB.Idx → EReal) (s : S0.Idx → EReal) : SX.Idx → EReal :=
  fun j =>
    let D := tapDot x wn s (j 0) (j 1) (j 2) (j 3)
    b (ix1 (j 1)) + D 0 + D 1 + D 2 + D 3 + D 4 + D 5 + D 6 + D 7 + D 8

/-- One contraction over the whole flattened weight against the pixel's patch vector, plus the bias. -/
def convPatch (x : SX.Idx → EReal) (wn : SW.Idx → EReal) (b : SB.Idx → EReal) (s : S0.Idx → EReal) : SX.Idx → EReal :=
  fun j =>
    (∑ k : Fin 1152, seen x (j 0) (j 2) (j 3) (tapOf k) (chanOf k) * W wn s k (j 1)) + b (ix1 (j 1))

end Cert.ConvSpec

end
-- ==== Proof.LibConvLayout.lean ====
/-
  Layout lemmas for a 3×3 convolution over NCHW images with 128 channels, read at an index, over the extended reals
  and over literal shapes. Each lemma is stated for ANY proof of its side conditions (that a shape broadcasts,
  transposes or reshapes to another), so that it applies to the same operation wherever it is printed.

  * the weight chain: scale, move the two tap axes to the front, flatten tap-major to 1152 rows, narrow the
    format — entry `(k, co)` is the scaled weight `W wn s k co` of the specification;
  * the image chain of one image: drop the unit axis, narrow the format, transpose to pixels × channels, split the
    pixel axis into rows and columns — entry `(h, w, ci)` is the image at channel `ci`, pixel `h·64 + w`;
  * the host's flattening of the two spatial axes of the whole batch into one pixel axis, and back;
  * the bias as a column, and that column copied along every pixel;
  * a matrix product into a zero accumulator, read at an index as the sum over the one contracted axis: the
    product that contracts the FIRST axis of the left operand with the SECOND of the right one, and the plain
    rows-by-columns product.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«176999_g2000105039750728_pallasbulk_413_24_alg».proof.Proof.ConvSpec

noncomputable section

open scoped BigOperators

namespace Cert.ConvLayout

open Idealize.ShloMosaic Idealize.ShloMosaic.ValueIdx Cert.ConvSpec

/-- The weight with its two tap axes in front: `[ky, kx, ci, co]`. -/
abbrev SWt : Shape := ⟨4, ![3, 3, 128, 128]⟩
/-- The flattened weight: `[(ky·3 + kx)·128 + ci, co]`. -/
abbrev SW2 : Shape := ⟨2, ![1152, 128]⟩
/-- One image as a block: `[1, ci, pixel]`. -/
abbrev SV : Shape := ⟨3, ![1, 128, 4096]⟩
/-- One image, channels × pixels. -/
abbrev SM : Shape := ⟨2, ![128, 4096]⟩
/-- One image, pixels × channels. -/
abbrev SMt : Shape := ⟨2, ![4096, 128]⟩
/-- One image, rows × columns × channels. -/
abbrev SI : Shape := ⟨3, ![64, 64, 128]⟩
/-- The batch with its two spatial axes flattened: `[n, ci, pixel]`. -/
abbrev SX3 : Shape := ⟨3, ![16, 128, 4096]⟩
/-- The bias as a column. -/
abbrev SBc : Shape := ⟨2, ![128, 1]⟩
/-- A square block of the flattened weight: one tap, `[ci, co]`. -/
abbrev SA : Shape := ⟨2, ![128, 128]⟩

/-! ## The weight chain -/

/-- THE WEIGHT CHAIN AT AN ENTRY. The weight `[co, ci, ky, kx]` times the broadcast scale, transposed to
    `[ky, kx, ci, co]`, flattened row-major to `[1152, 128]` and narrowed, read at `(k, co)`, is the specification's
    scaled weight: row `k = (ky·3 + kx)·128 + ci` reads tap `(ky, kx)` and input channel `ci`. -/
theorem weight_chain_apply (hb : S0.BroadcastsInDim SW (![] : Fin 0 → Fin SW.rank))
    (ht : SW.Transposes [2, 3, 1, 0] SWt) (hs : SWt.ShapeCasts SW2) (hlt : FTy.bits .bf16 < FTy.bits .f32)
    (wn : FVec Ideal SW .f32) (s : FVec Ideal S0 .f32) (k : Fin 1152) (co : Fin 128) :
    truncf .bf16 (shapeCast SW2 (transpose SWt [2, 3, 1, 0] (mulf wn (broadcastInDim SW ![] hb s)) ht) hs) hlt (ix2 k co)
      = W wn s k co := by
  have h1 : shapeCast SW2 (transpose SWt [2, 3, 1, 0] (mulf wn (broadcastInDim SW ![] hb s)) ht) hs (ix2 k co)
      = transpose SWt [2, 3, 1, 0] (mulf wn (broadcastInDim SW ![] hb s)) ht
          (ix4 (kyOf (tapOf k)) (kxOf (tapOf k)) (chanOf k) co) :=
    shapeCast_apply _ hs _ _ (by
      rw [Shape.rowMajor_val_four, Shape.rowMajor_val_two]
      show ((k.val / 128 / 3 * 3 + k.val / 128 % 3) * 128 + k.val % 128) * 128 + co.val = k.val * 128 + co.val
      omega)
  have h2 : transpose SWt [2, 3, 1, 0] (mulf wn (broadcastInDim SW ![] hb s)) ht
          (ix4 (kyOf (tapOf k)) (kxOf (tapOf k)) (chanOf k) co)
      = mulf wn (broadcastInDim SW ![] hb s) (ix4 co (chanOf k) (kyOf (tapOf k)) (kxOf (tapOf k))) :=
    transpose_apply _ _ ht _ _ fun b => match b with
      | ⟨0, _⟩ => rfl | ⟨1, _⟩ => rfl | ⟨2, _⟩ => rfl | ⟨3, _⟩ => rfl
  have h3 : broadcastInDim SW ![] hb s (ix4 co (chanOf k) (kyOf (tapOf k)) (kxOf (tapOf k))) = s ix0 :=
    broadcastInDim_apply _ hb s _ _ (fun a => a.elim0)
  show shapeCast SW2 (transpose SWt [2, 3, 1, 0] (mulf wn (broadcastInDim SW ![] hb s)) ht) hs (ix2 k co) = _
  rw [h1, h2, mulf_apply, h3]
  rfl

/-! ## The image chain of one image -/

/-- THE IMAGE CHAIN AT AN ENTRY. One image `[1, ci, pixel]` with its unit axis dropped, narrowed, transposed to
    pixels × channels and its pixel axis split into 64 rows of 64 columns, read at `(h, w, ci)`, is the image at
    channel `ci` and pixel `h·64 + w`. -/
theorem image_chain_apply (h1 : SV.ShapeCasts SM) (hlt : FTy.bits .bf16 < FTy.bits .f32)
    (h2 : SM.Transposes [1, 0] SMt) (h3 : SMt.ShapeCasts SI)
    (v : FVec Ideal SV .f32) (h w : Fin 64) (ci : Fin 128) :
    shapeCast SI (transpose SMt [1, 0] (truncf .bf16 (shapeCast SM v h1) hlt) h2) h3 (ix3 h w ci)
      = v (ix3 (0 : Fin 1) ci ⟨h.val * 64 + w.val, by have := h.isLt; have := w.isLt; omega⟩) := by
  have e1 : shapeCast SI (transpose SMt [1, 0] (truncf .bf16 (shapeCast SM v h1) hlt) h2) h3 (ix3 h w ci)
      = transpose SMt [1, 0] (truncf .bf16 (shapeCast SM v h1) hlt) h2
          (ix2 (⟨h.val * 64 + w.val, by have := h.isLt; have := w.isLt; omega⟩ : Fin 4096) ci) :=
    shapeCast_apply _ h3 _ _ (by
      rw [Shape.rowMajor_val_two, Shape.rowMajor_val_three]
      show (h.val * 64 + w.val) * 128 + ci.val = (h.val * 64 + w.val) * 128 + ci.val
      rfl)
  rw [e1, transpose_ix2_apply, truncf_apply, shapeCast_1ab_ab_apply]

/-! ## The batch: two spatial axes as one pixel axis, and back -/

/-- The batch `[n, ci, h, w]` reshaped to `[n, ci, pixel]` reads, at pixel `p`, row `p / 64` and column `p % 64`. -/
theorem batch_flatten_apply {α : Type} (hc : SX.ShapeCasts SX3) (x : SX.Idx → α) (n : Fin 16) (ci : Fin 128) (p : Fin 4096) :
    shapeCast SX3 x hc (ix3 n ci p)
      = x (ix4 n ci ⟨p.val / 64, by have := p.isLt; omega⟩ ⟨p.val % 64, Nat.mod_lt _ (by decide)⟩) :=
  shapeCast_apply x hc _ _ (by
    rw [Shape.rowMajor_val_four, Shape.rowMajor_val_three]
    show ((n.val * 128 + ci.val) * 64 + p.val / 64) * 64 + p.val % 64 = (n.val * 128 + ci.val) * 4096 + p.val
    omega)

/-- The batch `[n, ci, pixel]` reshaped to `[n, ci, h, w]` reads, at `(h, w)`, pixel `h·64 + w`. -/
theorem batch_unflatten_apply {α : Type} (hc : SX3.ShapeCasts SX) (y : SX3.Idx → α) (n : Fin 16) (co : Fin 128) (h w : Fin 64) :
    shapeCast SX y hc (ix4 n co h w)
      = y (ix3 n co ⟨h.val * 64 + w.val, by have := h.isLt; have := w.isLt; omega⟩) :=
  shapeCast_apply y hc _ _ (by
    rw [Shape.rowMajor_val_three, Shape.rowMajor_val_four]
    show (n.val * 128 + co.val) * 4096 + (h.val * 64 + w.val) = ((n.val * 128 + co.val) * 64 + h.val) * 64 + w.val
    omega)

/-! ## The bias as a column, copied along the pixels -/

/-- The bias `[co]` reshaped to a column `[co, 1]` reads the bias at `co`. -/
theorem bias_column_apply {α : Type} (hc : SB.ShapeCasts SBc) (b : SB.Idx → α) (co : Fin 128) (u : Fin 1) :
    shapeCast SBc b hc (ix2 co u) = b (ix1 co) :=
  shapeCast_apply b hc _ _ (by
    have hu : u.val = 0 := by omega
    rw [Shape.rowMajor_val_one, Shape.rowMajor_val_two]
    show co.val = co.val * 1 + u.val
    omega)

/-- A column `[co, 1]` broadcast along 4096 pixels reads, at `(co, p)`, the column at `co`. -/
theorem column_broadcast_apply {α : Type} (hbr : SBc.Broadcasts SM) (c : SBc.Idx → α) (co : Fin 128) (p : Fin 4096) :
    broadcastTo SM c hbr (ix2 co p) = c (ix2 co (0 : Fin 1)) :=
  broadcastTo_apply c hbr (ix2 co p) (ix2 co (0 : Fin 1)) fun ax => match ax with
    | ⟨0, _⟩ => rfl
    | ⟨1, _⟩ => rfl

/-! ## A matrix product into a zero accumulator, read at an index

A product with ONE contracted axis is, at an output entry, the sum over that axis's coordinate of the products of the
two operands' entries. Which entries depends on the dimension numbers: below, first for the product that contracts the
left operand's first axis with the right operand's second one (`out[co, p] = ∑ ci, a[ci, co] · b[p, ci]`), then for the
plain product (`out[r, co] = ∑ k, a[r, k] · b[k, co]`). Each is proved at the record with those six lists over a
variable proof of its well-formedness, and then stated for any record that has those lists. -/

/-- A block of patch vectors: 512 output pixels × 1152 flattened rows. -/
abbrev SP : Shape := ⟨2, ![512, 1152]⟩
/-- A block of the output: 512 output pixels × 128 output channels. -/
abbrev SO : Shape := ⟨2, ![512, 128]⟩

/-- The dimension numbers "contract the left operand's axis 0 with the right operand's axis 1". -/
abbrev dotTN (wf : DotDims.WF SA SMt SM [0] [1] [1] [0] [] []) : DotDims SA SMt SM := ⟨[0], [1], [1], [0], [], [], wf⟩

/-- Under those numbers the left operand is read at (contraction coordinate, output row). -/
theorem lhsIdx_dotTN (wf : DotDims.WF SA SMt SM [0] [1] [1] [0] [] []) (co : Fin 128) (p : Fin 4096) (ci : Fin 128) :
    (dotTN wf).lhsIdx (ix2 co p) ((contrEquiv1 (dotTN wf) 128 rfl rfl).symm ci) = ix2 ci co := by
  funext ax
  match ax with
  | ⟨0, _⟩ =>
    exact Fin.ext (((dotTN wf).lhsIdx_val_of_single rfl (ix2 co p) _).trans
      (contrEquiv1_symm_val (dotTN wf) 128 rfl rfl ci))
  | ⟨1, _⟩ => exact Fin.ext rfl

/-- Under those numbers the right operand is read at (output column, contraction coordinate). -/
theorem rhsIdx_dotTN (wf : DotDims.WF SA SMt SM [0] [1] [1] [0] [] []) (co : Fin 128) (p : Fin 4096) (ci : Fin 128) :
    (dotTN wf).rhsIdx (ix2 co p) ((contrEquiv1 (dotTN wf) 128 rfl rfl).symm ci) = ix2 p ci := by
  funext ax
  match ax with
  | ⟨0, _⟩ => exact Fin.ext rfl
  | ⟨1, _⟩ =>
    exact Fin.ext (((dotTN wf).rhsIdx_val_of_single rfl (ix2 co p) _).trans
      (contrEquiv1_symm_val (dotTN wf) 128 rfl rfl ci))

/-- The product at the literal record. -/
theorem matmul_dotTN_apply {φ₁ φ₂ : FTy} (wf : DotDims.WF SA SMt SM [0] [1] [1] [0] [] [])
    (prec : Option ContractPrecision) (a : FVec Ideal SA φ₁) (bm : FVec Ideal SMt φ₂) (co : Fin 128) (p : Fin 4096) :
    matmul (dotTN wf) prec a bm (constant (F := Ideal) SM .f32 0x00000000#32) (ix2 co p)
      = ∑ ci : Fin 128, a (ix2 ci co) * bm (ix2 p ci) := by
  refine (Ideal.matmul_constant_zero_apply (dotTN wf) prec a bm (ix2 co p)).trans ?_
  refine ((Equiv.sum_comp (contrEquiv1 (dotTN wf) 128 rfl rfl).symm _).symm).trans ?_
  refine Finset.sum_congr rfl fun ci _ => ?_
  exact congrArg₂ (fun u v => a u * bm v) (lhsIdx_dotTN wf co p ci) (rhsIdx_dotTN wf co p ci)

/-- THE TRANSPOSED-LEFT PRODUCT AT AN ENTRY. For any dimension numbers with lhs contracting `[0]`, rhs contracting
    `[1]`, lhs non-contracting `[1]`, rhs non-contracting `[0]` and no batch axes, a `[ci, co]` block times a
    `[p, ci]` block into the zero accumulator reads, at `(co, p)`, `∑ ci, a[ci, co] · b[p, ci]`. -/
theorem matmul_tn_apply {φ₁ φ₂ : FTy} (D : DotDims SA SMt SM)
    (hlc : D.lhsContracting = [0]) (hrc : D.rhsContracting = [1])
    (hln : D.lhsNonContracting = [1]) (hrn : D.rhsNonContracting = [0])
    (hlb : D.lhsBatch = []) (hrb : D.rhsBatch = [])
    (prec : Option ContractPrecision) (a : FVec Ideal SA φ₁) (bm : FVec Ideal SMt φ₂) (co : Fin 128) (p : Fin 4096) :
    matmul D prec a bm (constant (F := Ideal) SM .f32 0x00000000#32) (ix2 co p)
      = ∑ ci : Fin 128, a (ix2 ci co) * bm (ix2 p ci) := by
  obtain ⟨lc, rc, ln, rn, lb, rb, wf⟩ := D
  dsimp only at hlc hrc hln hrn hlb hrb
  subst hlc hrc hln hrn hlb hrb
  exact matmul_dotTN_apply wf prec a bm co p

/-- The plain dimension numbers: contract the left operand's axis 1 with the right operand's axis 0. -/
abbrev dotNN (wf : DotDims.WF SP SW2 SO [1] [0] [0] [1] [] []) : DotDims SP SW2 SO := ⟨[1], [0], [0], [1], [], [], wf⟩

/-- Under the plain numbers the left operand is read at (output row, contraction coordinate). -/
theorem lhsIdx_dotNN (wf : DotDims.WF SP SW2 SO [1] [0] [0] [1] [] []) (r : Fin 512) (co : Fin 128) (k : Fin 1152) :
    (dotNN wf).lhsIdx (ix2 r co) ((contrEquiv1 (dotNN wf) 1152 rfl rfl).symm k) = ix2 r k := by
  funext ax
  match ax with
  | ⟨0, _⟩ => exact Fin.ext rfl
  | ⟨1, _⟩ =>
    exact Fin.ext (((dotNN wf).lhsIdx_val_of_single rfl (ix2 r co) _).trans
      (contrEquiv1_symm_val (dotNN wf) 1152 rfl rfl k))

/-- Under the plain numbers the right operand is read at (contraction coordinate, output column). -/
theorem rhsIdx_dotNN (wf : DotDims.WF SP SW2 SO [1] [0] [0] [1] [] []) (r : Fin 512) (co : Fin 128) (k : Fin 1152) :
    (dotNN wf).rhsIdx (ix2 r co) ((contrEquiv1 (dotNN wf) 1152 rfl rfl).symm k) = ix2 k co := by
  funext ax
  match ax with
  | ⟨0, _⟩ =>
    exact Fin.ext (((dotNN wf).rhsIdx_val_of_single rfl (ix2 r co) _).trans
      (contrEquiv1_symm_val (dotNN wf) 1152 rfl rfl k))
  | ⟨1, _⟩ => exact Fin.ext rfl

/-- The plain product at the literal record. -/
theorem matmul_dotNN_apply {φ₁ φ₂ : FTy} (wf : DotDims.WF SP SW2 SO [1] [0] [0] [1] [] [])
    (prec : Option ContractPrecision) (a : FVec Ideal SP φ₁) (bm : FVec Ideal SW2 φ₂) (r : Fin 512) (co : Fin 128) :
    matmul (dotNN wf) prec a bm (constant (F := Ideal) SO .f32 0x00000000#32) (ix2 r co)
      = ∑ k : Fin 1152, a (ix2 r k) * bm (ix2 k co) := by
  refine (Ideal.matmul_constant_zero_apply (dotNN wf) prec a bm (ix2 r co)).trans ?_
  refine ((Equiv.sum_comp (contrEquiv1 (dotNN wf) 1152 rfl rfl).symm _).symm).trans ?_
  refine Finset.sum_congr rfl fun k _ => ?_
  exact congrArg₂ (fun u v => a u * bm v) (lhsIdx_dotNN wf r co k) (rhsIdx_dotNN wf r co k)

/-- THE PLAIN PRODUCT AT AN ENTRY. For any dimension numbers with lhs contracting `[1]`, rhs contracting `[0]`, lhs
    non-contracting `[0]`, rhs non-contracting `[1]` and no batch axes, a `[r, k]` block times the `[k, co]` flattened
    weight into the zero accumulator reads, at `(r, co)`, `∑ k, a[r, k] · b[k, co]`. -/
theorem matmul_nn_apply {φ₁ φ₂ : FTy} (D : DotDims SP SW2 SO)
    (hlc : D.lhsContracting = [1]) (hrc : D.rhsContracting = [0])
    (hln : D.lhsNonContracting = [0]) (hrn : D.rhsNonContracting = [1])
    (hlb : D.lhsBatch = []) (hrb : D.rhsBatch = [])
    (prec : Option ContractPrecision) (a : FVec Ideal SP φ₁) (bm : FVec Ideal SW2 φ₂) (r : Fin 512) (co : Fin 128) :
    matmul D prec a bm (constant (F := Ideal) SO .f32 0x00000000#32) (ix2 r co)
      = ∑ k : Fin 1152, a (ix2 r k) * bm (ix2 k co) := by
  obtain ⟨lc, rc, ln, rn, lb, rb, wf⟩ := D
  dsimp only at hlc hrc hln hrn hlb hrb
  subst hlc hrc hln hrn hlb hrb
  exact matmul_dotNN_apply wf prec a bm r co

end Cert.ConvLayout

end
-- ==== Proof.KValueIdx.lean ====
/-
  The fused convolution body's output block read at one entry, over the extended reals.

  * The bf16 zero word the body splats is the extended real `0`.
  * The scratch after the body's stores (`shiftedAt` of the transposed image block) is, at copy `kx`, row
    `ky + h`, column `w`, the ZERO-PADDED image at padded row `h + ky` and padded column `w + kx`: the pixel
    tap `(ky, kx)` sees from output pixel `(h, w)` (`Cert.ConvSpec.seen`).
  * Each of the body's nine products, read at `(co, p)`, is the sum over the input channels of a weight-block entry
    times a slab entry; the output block is the bias column plus the nine products, added one after the other.
  * With the weight block the specification's scaled weight, the bias column the bias and the image block image
    `n` of the batch, the output block at `(co, p)` is the specification's `convTaps` at `(n, co, p / 64, p % 64)`.
-/
import proofs.«176999_g2000105039750728_pallasbulk_413_24_alg».proof.Proof.KOut
import proofs.«176999_g2000105039750728_pallasbulk_413_24_alg».proof.Proof.LibConvLayout
import proofs.«176999_g2000105039750728_pallasbulk_413_24_alg».proof.Proof.ConvSpec

set_option maxRecDepth 16384

noncomputable section

open scoped BigOperators

namespace Cert.KernelIdeal.KValueIdx

open Idealize.ShloMosaic Idealize.ShloMosaic.ValueIdx Cert.KernelIdeal Cert.KernelIdeal.Gen Cert.ConvSpec

/-! ## Small index facts -/

/-- Two rank-3 indices that agree on the outer coordinates and whose middle coordinates are the same number. -/
theorem ix3_congr_mid {n0 n1 n2 : Nat} (a : Fin n0) (b b' : Fin n1) (c : Fin n2) (h : b.val = b'.val) :
    ix3 a b c = ix3 a b' c := by rw [Fin.ext h]

/-- Two rank-3 indices that agree but for their last coordinates, which are the same number. -/
theorem ix3_congr_last {n0 n1 n2 : Nat} (a : Fin n0) (b : Fin n1) (c c' : Fin n2) (h : c.val = c'.val) :
    ix3 a b c = ix3 a b c' := by rw [Fin.ext h]

/-- Two rank-4 indices that agree on the first two coordinates and whose last two are the same numbers. -/
theorem ix4_congr_last2 {n0 n1 n2 n3 : Nat} (a : Fin n0) (b : Fin n1) (c c' : Fin n2) (d d' : Fin n3)
    (hc : c.val = c'.val) (hd : d.val = d'.val) : ix4 a b c d = ix4 a b c' d' := by rw [Fin.ext hc, Fin.ext hd]

/-! ## The zero word -/

/-- The bf16 zero word is the extended real zero. -/
theorem zE_eq_zero : (zE (F := Ideal)) = (0 : EReal) := by
  show Ideal.ofBits .bf16 0x0000#16 = 0
  simp [Ideal.ofBits, Ideal.ieee]

/-! ## The scratch is the padded image -/

/-- The transposed image block at `(h, w, ci)` is the image block at channel `ci`, pixel `h·64 + w`. -/
theorem pay3_apply (x0 : Vec Ideal S1x128x4096 .f32) (h w : Fin 64) (ci : Fin 128) :
    k0_pay3 x0 (ix3 h w ci)
      = x0 (ix3 (0 : Fin 1) ci ⟨h.val * 64 + w.val, by have := h.isLt; have := w.isLt; omega⟩) := by
  unfold k0_pay3
  exact Cert.ConvLayout.image_chain_apply _ _ _ _ x0 h w ci

/-- The three copies in one formula: copy `kx` at row `row`, column `col` holds the block at row `row - 1`, column
    `col + kx - 1` when both lie inside the image, and zero on the padding. -/
theorem shiftedAt_eq (r : FVec Ideal S64x64x128 .bf16) (kx : Fin 3) (row : Fin 66) (col : Fin 64) (ch : Fin 128) :
    shiftedAt r kx row col ch
      = if hin : 1 ≤ row.val ∧ row.val ≤ 64 ∧ 1 ≤ col.val + kx.val ∧ col.val + kx.val ≤ 64 then
          r (ix3 (⟨row.val - 1, by omega⟩ : Fin 64) (⟨col.val + kx.val - 1, by omega⟩ : Fin 64) ch)
        else 0 := by
  have hk := kx.isLt
  have hcl := col.isLt
  unfold shiftedAt
  by_cases hin : 1 ≤ row.val ∧ row.val ≤ 64 ∧ 1 ≤ col.val + kx.val ∧ col.val + kx.val ≤ 64
  · have hr : 1 ≤ row.val ∧ row.val ≤ 64 := ⟨hin.1, hin.2.1⟩
    rw [dif_pos hin, dif_pos hr]
    rcases (show kx.val = 0 ∨ kx.val = 1 ∨ kx.val = 2 by omega) with h0 | h1 | h2
    · have hc : 1 ≤ col.val := by omega
      rw [if_pos h0, dif_pos hc]
      exact congrArg r (ix3_congr_mid _ _ _ _ (by show col.val - 1 = col.val + kx.val - 1; omega))
    · have n0 : ¬ kx.val = 0 := by omega
      rw [if_neg n0, if_pos h1]
      exact congrArg r (ix3_congr_mid _ _ _ _ (by show col.val = col.val + kx.val - 1; omega))
    · have n0 : ¬ kx.val = 0 := by omega
      have n1 : ¬ kx.val = 1 := by omega
      have hc : col.val ≤ 62 := by omega
      rw [if_neg n0, if_neg n1, dif_pos hc]
      exact congrArg r (ix3_congr_mid _ _ _ _ (by show col.val + 1 = col.val + kx.val - 1; omega))
  · rw [dif_neg hin]
    by_cases hr : 1 ≤ row.val ∧ row.val ≤ 64
    · rw [dif_pos hr]
      rcases (show kx.val = 0 ∨ kx.val = 1 ∨ kx.val = 2 by omega) with h0 | h1 | h2
      · have hc : ¬ 1 ≤ col.val := by omega
        rw [if_pos h0, dif_neg hc]
        exact zE_eq_zero
      · exfalso; omega
      · have n0 : ¬ kx.val = 0 := by omega
        have n1 : ¬ kx.val = 1 := by omega
        have hc : ¬ col.val ≤ 62 := by omega
        rw [if_neg n0, if_neg n1, dif_neg hc]
        exact zE_eq_zero
    · rw [dif_neg hr]
      exact zE_eq_zero

/-- THE SCRATCH OVER THE IMAGE BLOCK. Copy `kx` of tap `t`, at row `ky + h` and column `w`, holds the image block at
    padded row `i = h + ky` and padded column `j = w + kx`: pixel `(i - 1)·64 + (j - 1)` inside the image, zero on the
    one-pixel border. -/
theorem shifted_block (x0 : Vec Ideal S1x128x4096 .f32) (t : Fin 9) (h w : Fin 64) (ci : Fin 128) :
    shiftedAt (k0_pay3 x0) (kxOf t)
        (⟨(kyOf t).val + h.val, by have := (kyOf t).isLt; have := h.isLt; omega⟩ : Fin 66) w ci
      = if hin : 1 ≤ h.val + (kyOf t).val ∧ h.val + (kyOf t).val ≤ 64 ∧ 1 ≤ w.val + (kxOf t).val ∧ w.val + (kxOf t).val ≤ 64 then
          x0 (ix3 (0 : Fin 1) ci (⟨(h.val + (kyOf t).val - 1) * 64 + (w.val + (kxOf t).val - 1), by omega⟩ : Fin 4096))
        else 0 := by
  rw [shiftedAt_eq]
  by_cases hin : 1 ≤ h.val + (kyOf t).val ∧ h.val + (kyOf t).val ≤ 64 ∧ 1 ≤ w.val + (kxOf t).val ∧ w.val + (kxOf t).val ≤ 64
  · have hin' : 1 ≤ (kyOf t).val + h.val ∧ (kyOf t).val + h.val ≤ 64 ∧ 1 ≤ w.val + (kxOf t).val ∧ w.val + (kxOf t).val ≤ 64 := by
      omega
    rw [dif_pos hin, dif_pos hin', pay3_apply]
    exact congrArg x0 (ix3_congr_last _ _ _ _ (by
      show ((kyOf t).val + h.val - 1) * 64 + (w.val + (kxOf t).val - 1) = (h.val + (kyOf t).val - 1) * 64 + (w.val + (kxOf t).val - 1)
      omega))
  · have hin' : ¬ (1 ≤ (kyOf t).val + h.val ∧ (kyOf t).val + h.val ≤ 64 ∧ 1 ≤ w.val + (kxOf t).val ∧ w.val + (kxOf t).val ≤ 64) := by
      omega
    rw [dif_neg hin, dif_neg hin']

/-- THE SCRATCH IS WHAT THE TAP SEES. When the image block is image `n` of the batch (pixel `q` at row `q / 64`, column
    `q % 64`), copy `kx` of tap `t` at row `ky + h`, column `w` holds the padded pixel tap `t` sees from `(h, w)`. -/
theorem shifted_seen (x : SX.Idx → EReal) (n : Fin 16) (x0 : Vec Ideal S1x128x4096 .f32)
    (hx : ∀ (ci : Fin 128) (q : Fin 4096), x0 (ix3 (0 : Fin 1) ci q)
      = x (ix4 n ci (⟨q.val / 64, by have := q.isLt; omega⟩ : Fin 64) (⟨q.val % 64, Nat.mod_lt _ (by decide)⟩ : Fin 64)))
    (t : Fin 9) (h w : Fin 64) (ci : Fin 128) :
    shiftedAt (k0_pay3 x0) (kxOf t)
        (⟨(kyOf t).val + h.val, by have := (kyOf t).isLt; have := h.isLt; omega⟩ : Fin 66) w ci
      = seen x n h w t ci := by
  rw [shifted_block]
  unfold seen XP
  by_cases hin : 1 ≤ h.val + (kyOf t).val ∧ h.val + (kyOf t).val ≤ 64 ∧ 1 ≤ w.val + (kxOf t).val ∧ w.val + (kxOf t).val ≤ 64
  · rw [dif_pos hin, dif_pos hin, hx]
    exact congrArg x (ix4_congr_last2 _ _ _ _ _ _
      (by show ((h.val + (kyOf t).val - 1) * 64 + (w.val + (kxOf t).val - 1)) / 64 = h.val + (kyOf t).val - 1; omega)
      (by show ((h.val + (kyOf t).val - 1) * 64 + (w.val + (kxOf t).val - 1)) % 64 = w.val + (kxOf t).val - 1; omega))
  · rw [dif_neg hin, dif_neg hin]

/-! ## One product of the body at an entry -/

/-- A slab `[1, row, column, channel]` with its unit axis dropped and its two spatial axes merged into one pixel axis
    reads, at pixel `p`, row `p / 64` and column `p % 64`. -/
theorem slab_flat_apply {α : Type} (s : S1x64x64x128.Idx → α) (p : Fin 4096) (ci : Fin 128) :
    shapeCast S4096x128 (shapeCast S64x64x128 s shapeCasts_S1x64x64x128_S64x64x128) shapeCasts_S64x64x128_S4096x128 (ix2 p ci)
      = s (ix4 (0 : Fin 1) (⟨p.val / 64, by have := p.isLt; omega⟩ : Fin 64) (⟨p.val % 64, Nat.mod_lt _ (by decide)⟩ : Fin 64) ci) := by
  have e1 : shapeCast S4096x128 (shapeCast S64x64x128 s shapeCasts_S1x64x64x128_S64x64x128) shapeCasts_S64x64x128_S4096x128 (ix2 p ci)
      = shapeCast S64x64x128 s shapeCasts_S1x64x64x128_S64x64x128
          (ix3 (⟨p.val / 64, by have := p.isLt; omega⟩ : Fin 64) (⟨p.val % 64, Nat.mod_lt _ (by decide)⟩ : Fin 64) ci) :=
    shapeCast_apply _ shapeCasts_S64x64x128_S4096x128 _ _ (by
      rw [Shape.rowMajor_val_three, Shape.rowMajor_val_two]
      show (p.val / 64 * 64 + p.val % 64) * 128 + ci.val = p.val * 128 + ci.val
      omega)
  rw [e1, shapeCast_1abc_abc_apply]

/-- One tap's contribution at an output entry: the sum over the input channels of a weight-block entry times a slab
    entry. -/
def tapAt (w : Vec Ideal S128x128 .bf16) (s : Vec Ideal S1x64x64x128 .bf16) (co : Fin 128) (p : Fin 4096) : EReal :=
  ∑ ci : Fin 128, w (ix2 ci co)
    * s (ix4 (0 : Fin 1) (⟨p.val / 64, by have := p.isLt; omega⟩ : Fin 64) (⟨p.val % 64, Nat.mod_lt _ (by decide)⟩ : Fin 64) ci)

/-- The body's first product at an entry. -/
theorem pay16_apply (w : Vec Ideal S128x128 .bf16) (s : Vec Ideal S1x64x64x128 .bf16) (co : Fin 128) (p : Fin 4096) :
    k0_pay16 w s (ix2 co p) = tapAt w s co p := by
  unfold k0_pay16 tapAt
  rw [Cert.ConvLayout.matmul_tn_apply dot_S128x128_S4096x128_S128x4096_0_1_1_0_n_n rfl rfl rfl rfl rfl rfl]
  refine Finset.sum_congr rfl fun ci _ => ?_
  rw [shapeCast_self, slab_flat_apply]

/-- The bias column copied along the pixels plus the first five products, added one after the other. -/
theorem pay17_apply (v43 : FVec Ideal S128x1 .f32) (v49 : FVec Ideal S128x4096 .f32)
    (w1 : Vec Ideal S128x128 .bf16) (s1 : Vec Ideal S1x64x64x128 .bf16) (w2 : Vec Ideal S128x128 .bf16) (s2 : Vec Ideal S1x64x64x128 .bf16)
    (w3 : Vec Ideal S128x128 .bf16) (s3 : Vec Ideal S1x64x64x128 .bf16) (w4 : Vec Ideal S128x128 .bf16) (s4 : Vec Ideal S1x64x64x128 .bf16)
    (co : Fin 128) (p : Fin 4096) :
    k0_pay17 v43 v49 w1 s1 w2 s2 w3 s3 w4 s4 (ix2 co p)
      = v43 (ix2 co (0 : Fin 1)) + v49 (ix2 co p) + tapAt w1 s1 co p + tapAt w2 s2 co p + tapAt w3 s3 co p + tapAt w4 s4 co p := by
  unfold k0_pay17
  simp only [addf_apply]
  rw [Cert.ConvLayout.column_broadcast_apply]
  have hp : ∀ (w : Vec Ideal S128x128 .bf16) (s : Vec Ideal S1x64x64x128 .bf16),
      matmul dot_S128x128_S4096x128_S128x4096_0_1_1_0_n_n none (shapeCast S128x128 w shapeCasts_S128x128_S128x128)
        (shapeCast S4096x128 (shapeCast S64x64x128 s shapeCasts_S1x64x64x128_S64x64x128) shapeCasts_S64x64x128_S4096x128)
        (constant (F := Ideal) S128x4096 .f32 0x00000000#32) (ix2 co p) = tapAt w s co p := fun w s => pay16_apply w s co p
  rw [hp w1 s1, hp w2 s2, hp w3 s3, hp w4 s4]

/-- The running sum plus the last four products, as the one-image block. -/
theorem pay18_apply (v79 : FVec Ideal S128x4096 .f32)
    (w5 : Vec Ideal S128x128 .bf16) (s5 : Vec Ideal S1x64x64x128 .bf16) (w6 : Vec Ideal S128x128 .bf16) (s6 : Vec Ideal S1x64x64x128 .bf16)
    (w7 : Vec Ideal S128x128 .bf16) (s7 : Vec Ideal S1x64x64x128 .bf16) (w8 : Vec Ideal S128x128 .bf16) (s8 : Vec Ideal S1x64x64x128 .bf16)
    (u : Fin 1) (co : Fin 128) (p : Fin 4096) :
    k0_pay18 v79 w5 s5 w6 s6 w7 s7 w8 s8 (ix3 u co p)
      = v79 (ix2 co p) + tapAt w5 s5 co p + tapAt w6 s6 co p + tapAt w7 s7 co p + tapAt w8 s8 co p := by
  unfold k0_pay18
  rw [shapeCast_ab_1ab_apply]
  simp only [addf_apply]
  have hp : ∀ (w : Vec Ideal S128x128 .bf16) (s : Vec Ideal S1x64x64x128 .bf16),
      matmul dot_S128x128_S4096x128_S128x4096_0_1_1_0_n_n none (shapeCast S128x128 w shapeCasts_S128x128_S128x128)
        (shapeCast S4096x128 (shapeCast S64x64x128 s shapeCasts_S1x64x64x128_S64x64x128) shapeCasts_S64x64x128_S4096x128)
        (constant (F := Ideal) S128x4096 .f32 0x00000000#32) (ix2 co p) = tapAt w s co p := fun w s => pay16_apply w s co p
  rw [hp w5 s5, hp w6 s6, hp w7 s7, hp w8 s8]

/-! ## The output block at an entry -/

/-- Tap `t`'s contribution to output entry `(co, p)`: the sum over the input channels of the weight block's row
    `t·128 + ci` times the scratch's copy `kx` at row `ky + p / 64`, column `p % 64`. -/
def tapTerm (x0 : Vec Ideal S1x128x4096 .f32) (w0 : Vec Ideal S1152x128 .bf16) (co : Fin 128) (p : Fin 4096) (t : Fin 9) : EReal :=
  ∑ ci : Fin 128, w0 (ix2 (rowOf t ci) co)
    * shiftedAt (k0_pay3 x0) (kxOf t)
        (⟨(kyOf t).val + p.val / 64, by have := (kyOf t).isLt; have := p.isLt; omega⟩ : Fin 66)
        (⟨p.val % 64, Nat.mod_lt _ (by decide)⟩ : Fin 64) ci

/-- THE OUTPUT BLOCK AT AN ENTRY: the bias column plus the nine taps' contributions, added one after the other from
    tap 0 (tap `t = ky·3 + kx` reads rows `t·128‥` of the weight block against rows `ky‥` of copy `kx`). -/
theorem outBlock_apply (x0 : Vec Ideal S1x128x4096 .f32) (w0 : Vec Ideal S1152x128 .bf16) (b0 : Vec Ideal S128x1 .f32)
    (co : Fin 128) (p : Fin 4096) :
    outBlock x0 w0 b0 (ix3 (0 : Fin 1) co p)
      = b0 (ix2 co (0 : Fin 1)) + tapTerm x0 w0 co p 0 + tapTerm x0 w0 co p 1 + tapTerm x0 w0 co p 2
          + tapTerm x0 w0 co p 3 + tapTerm x0 w0 co p 4 + tapTerm x0 w0 co p 5 + tapTerm x0 w0 co p 6
          + tapTerm x0 w0 co p 7 + tapTerm x0 w0 co p 8 := by
  have h15 : k0_pay15 b0 (ix2 co (0 : Fin 1)) = b0 (ix2 co (0 : Fin 1)) := by
    unfold k0_pay15
    rw [shapeCast_self]
  have e0 : tapAt (wrows w0 0) (slab (k0_pay3 x0) 0 0) co p = tapTerm x0 w0 co p 0 := rfl
  have e1 : tapAt (wrows w0 1) (slab (k0_pay3 x0) 1 0) co p = tapTerm x0 w0 co p 1 := rfl
  have e2 : tapAt (wrows w0 2) (slab (k0_pay3 x0) 2 0) co p = tapTerm x0 w0 co p 2 := rfl
  have e3 : tapAt (wrows w0 3) (slab (k0_pay3 x0) 0 1) co p = tapTerm x0 w0 co p 3 := rfl
  have e4 : tapAt (wrows w0 4) (slab (k0_pay3 x0) 1 1) co p = tapTerm x0 w0 co p 4 := rfl
  have e5 : tapAt (wrows w0 5) (slab (k0_pay3 x0) 2 1) co p = tapTerm x0 w0 co p 5 := rfl
  have e6 : tapAt (wrows w0 6) (slab (k0_pay3 x0) 0 2) co p = tapTerm x0 w0 co p 6 := rfl
  have e7 : tapAt (wrows w0 7) (slab (k0_pay3 x0) 1 2) co p = tapTerm x0 w0 co p 7 := rfl
  have e8 : tapAt (wrows w0 8) (slab (k0_pay3 x0) 2 2) co p = tapTerm x0 w0 co p 8 := rfl
  unfold outBlock
  rw [pay18_apply, pay17_apply, pay16_apply, h15, e0, e1, e2, e3, e4, e5, e6, e7, e8]

/-- THE OUTPUT BLOCK IS THE CONVOLUTION. When the image block is image `n` of the batch, the weight block the
    specification's scaled flattened weight and the bias column the bias, the output block at `(co, p)` is the
    specification's tap-by-tap convolution at image `n`, output channel `co`, pixel `(p / 64, p % 64)`. -/
theorem outBlock_conv (x : SX.Idx → EReal) (wn : SW.Idx → EReal) (b : SB.Idx → EReal) (s : S0.Idx → EReal) (n : Fin 16)
    (x0 : Vec Ideal S1x128x4096 .f32) (w0 : Vec Ideal S1152x128 .bf16) (b0 : Vec Ideal S128x1 .f32)
    (hx : ∀ (ci : Fin 128) (q : Fin 4096), x0 (ix3 (0 : Fin 1) ci q)
      = x (ix4 n ci (⟨q.val / 64, by have := q.isLt; omega⟩ : Fin 64) (⟨q.val % 64, Nat.mod_lt _ (by decide)⟩ : Fin 64)))
    (hw : ∀ (k : Fin 1152) (co : Fin 128), w0 (ix2 k co) = W wn s k co)
    (hb : ∀ co : Fin 128, b0 (ix2 co (0 : Fin 1)) = b (ix1 co))
    (co : Fin 128) (p : Fin 4096) :
    outBlock x0 w0 b0 (ix3 (0 : Fin 1) co p)
      = convTaps x wn b s
          (ix4 n co (⟨p.val / 64, by have := p.isLt; omega⟩ : Fin 64) (⟨p.val % 64, Nat.mod_lt _ (by decide)⟩ : Fin 64)) := by
  have hT : ∀ t : Fin 9, tapTerm x0 w0 co p t
      = tapDot x wn s n co (⟨p.val / 64, by have := p.isLt; omega⟩ : Fin 64) (⟨p.val % 64, Nat.mod_lt _ (by decide)⟩ : Fin 64) t := by
    intro t
    unfold tapTerm tapDot
    refine Finset.sum_congr rfl fun ci _ => ?_
    exact congrArg₂ (· * ·) (hw (rowOf t ci) co)
      (shifted_seen x n x0 hx t (⟨p.val / 64, by have := p.isLt; omega⟩ : Fin 64) (⟨p.val % 64, Nat.mod_lt _ (by decide)⟩ : Fin 64) ci)
  rw [outBlock_apply, hT 0, hT 1, hT 2, hT 3, hT 4, hT 5, hT 6, hT 7, hT 8, hb]
  rfl

end Cert.KernelIdeal.KValueIdx

end
-- ==== Proof.KValue.lean ====
/-
  The fused convolution program's run, with its result array read.

  Grid point `t` works on image `t`: its image block is image `t` of the flattened batch, its weight and bias blocks
  are the whole flattened weight and the whole bias column, and what it writes back is block `t` of ONE function `Gk`
  of those three arrays — at `(n, co, p)`, the body's output block of image `n` at `(co, p)`. The sixteen blocks tile
  the result array, so after the run it is `Gk` of the three arrays as the region finds them. Those are the host
  operations before the region applied to the arguments (the batch with its spatial axes flattened, the scaled weight
  flattened tap-major, the bias as a column), so `Gk` of them at `(n, co, p)` is the specification's tap-by-tap
  convolution at `(n, co, p / 64, p % 64)`; the host operation after the region splits the pixel axis back, and the
  result buffer is the specification's convolution of the four arguments.
-/
import proofs.«176999_g2000105039750728_pallasbulk_413_24_alg».proof.Proof.KFrame
import proofs.«176999_g2000105039750728_pallasbulk_413_24_alg».proof.Proof.KValueIdx
import proofs.«176999_g2000105039750728_pallasbulk_413_24_alg».proof.Proof.LibConvLayout
import proofs.«176999_g2000105039750728_pallasbulk_413_24_alg».proof.Proof.ConvSpec

set_option maxRecDepth 16384

noncomputable section

open scoped BigOperators

namespace Cert.KernelIdeal.KValue

open Cert.KernelIdeal Cert.KernelIdeal.Gen Cert.KernelIdeal.KValueIdx
open Idealize.ShloMosaic Idealize.ShloMosaic.TcCoe Idealize.SL.Sem Idealize.ShloMosaic.ValueIdx Idealize.ShloMosaic.Tactic
open Idealize.ShloMosaic.Pipeline (Dat)
open Cert.ConvSpec

variable (m : (ℓ : Loc nD τ sig) → Buf (Elt Ideal) ℓ) (ρ : Dev nD → PrngReg)

/-! ## The three arrays the region reads, as the host operations before it leave them -/

/-- The flattened weight: the weight times the broadcast scale, moved to `[ky, kx, ci, co]`, flattened and narrowed. -/
def wflat (wn : FVec Ideal S128x128x3x3 .f32) (s : FVec Ideal S_ .f32) : FVec Ideal S1152x128 .bf16 :=
  truncf .bf16 (shapeCast S1152x128 (transpose S3x3x128x128 [2, 3, 1, 0]
    (mulf wn (broadcastInDim S128x128x3x3 ![] bcast_S_S128x128x3x3 s)) transposes_S128x128x3x3_S3x3x128x128_2_3_1_0)
    shapeCasts_S3x3x128x128_S1152x128) bitsLt_bf16_f32

theorem V_main_v4 (c : Dev nD) :
    (V m c main_v4 : S1152x128.Idx → EReal) = wflat (m ((c : Thread nD τ).loc main_arg1)) (m ((c : Thread nD τ).loc main_arg3)) := by
  dsimp only [V, V0]
  simp only [hostOps0, List.flatten_cons, List.flatten_nil, List.append_nil, List.cons_append, List.nil_append]
  after_results
  rfl

theorem V_main_v5 (c : Dev nD) :
    (V m c main_v5 : S16x128x4096.Idx → EReal)
      = shapeCast S16x128x4096 (m ((c : Thread nD τ).loc main_arg0)) shapeCasts_S16x128x64x64_S16x128x4096 := by
  dsimp only [V, V0]
  simp only [hostOps0, List.flatten_cons, List.flatten_nil, List.append_nil, List.cons_append, List.nil_append]
  after_results
  rfl

theorem V_main_v6 (c : Dev nD) :
    (V m c main_v6 : S128x1.Idx → EReal) = shapeCast S128x1 (m ((c : Thread nD τ).loc main_arg2)) shapeCasts_S128_S128x1 := by
  dsimp only [V, V0]
  simp only [hostOps0, List.flatten_cons, List.flatten_nil, List.append_nil, List.cons_append, List.nil_append]
  after_results
  rfl

/-- The flattened batch at pixel `q` is the batch at row `q / 64`, column `q % 64`. -/
theorem V5_at (c : Dev nD) (n : Fin 16) (ci : Fin 128) (q : Fin 4096) :
    (V m c main_v5 : S16x128x4096.Idx → EReal) (ix3 n ci q)
      = (m ((c : Thread nD τ).loc main_arg0) : S16x128x64x64.Idx → EReal)
          (ix4 n ci (⟨q.val / 64, by have := q.isLt; omega⟩ : Fin 64) (⟨q.val % 64, Nat.mod_lt _ (by decide)⟩ : Fin 64)) := by
  rw [V_main_v5]
  exact Cert.ConvLayout.batch_flatten_apply _ _ n ci q

/-- The flattened weight the region reads is the specification's scaled weight. -/
theorem V4_at (c : Dev nD) (k : Fin 1152) (co : Fin 128) :
    (V m c main_v4 : S1152x128.Idx → EReal) (ix2 k co)
      = W (m ((c : Thread nD τ).loc main_arg1)) (m ((c : Thread nD τ).loc main_arg3)) k co := by
  rw [V_main_v4]
  exact Cert.ConvLayout.weight_chain_apply _ _ _ _ _ _ k co

/-- The bias column the region reads is the bias. -/
theorem V6_at (c : Dev nD) (co : Fin 128) :
    (V m c main_v6 : S128x1.Idx → EReal) (ix2 co (0 : Fin 1))
      = (m ((c : Thread nD τ).loc main_arg2) : S128.Idx → EReal) (ix1 co) := by
  rw [V_main_v6]
  exact Cert.ConvLayout.bias_column_apply _ _ co 0

/-! ## The result array as one function of the three arrays -/

/-- The result array: at `(n, co, p)`, the body's output block of image `n` of `X` at `(co, p)`. -/
def Gk (X : S16x128x4096.Idx → EReal) (Wm : S1152x128.Idx → EReal) (Bc : S128x1.Idx → EReal) : S16x128x4096.Idx → EReal :=
  fun i => outBlock (F := Ideal) (fun y => X (ix3 (i 0) (y 1) (y 2))) Wm Bc (ix3 (0 : Fin 1) (i 1) (i 2))

/-- The output block depends on its three blocks only. -/
theorem outBlock_congr {x0 x0' : Vec Ideal S1x128x4096 .f32} {w0 w0' : Vec Ideal S1152x128 .bf16} {b0 b0' : Vec Ideal S128x1 .f32}
    (hx : x0 = x0') (hw : w0 = w0') (hb : b0 = b0') (j : S1x128x4096.Idx) :
    outBlock x0 w0 b0 j = outBlock x0' w0' b0' j := by subst hx hw hb; rfl

/-- `Gk` of the flattened batch, the specification's scaled weight and the bias column is the tap-by-tap convolution. -/
theorem Gk_conv (x : SX.Idx → EReal) (wn : SW.Idx → EReal) (b : SB.Idx → EReal) (s : S0.Idx → EReal)
    (X : S16x128x4096.Idx → EReal) (Wm : S1152x128.Idx → EReal) (Bc : S128x1.Idx → EReal)
    (hX : ∀ (n : Fin 16) (ci : Fin 128) (q : Fin 4096), X (ix3 n ci q)
      = x (ix4 n ci (⟨q.val / 64, by have := q.isLt; omega⟩ : Fin 64) (⟨q.val % 64, Nat.mod_lt _ (by decide)⟩ : Fin 64)))
    (hW : ∀ (k : Fin 1152) (co : Fin 128), Wm (ix2 k co) = W wn s k co)
    (hB : ∀ co : Fin 128, Bc (ix2 co (0 : Fin 1)) = b (ix1 co))
    (n : Fin 16) (co : Fin 128) (p : Fin 4096) :
    Gk X Wm Bc (ix3 n co p)
      = convTaps x wn b s
          (ix4 n co (⟨p.val / 64, by have := p.isLt; omega⟩ : Fin 64) (⟨p.val % 64, Nat.mod_lt _ (by decide)⟩ : Fin 64)) :=
  outBlock_conv x wn b s n (fun y => X (ix3 n (y 1) (y 2))) Wm Bc (fun ci q => hX n ci q) hW hB co p

/-! ## The printed index maps, and the blocks tile the result array -/

/-- Over the grid: the image window moves with the result window on the image axis, every other block index is zero,
    and the image index stays in range. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) < 16 :=
  (by decide +kernel : ∀ t : Fin grid0.N, _)

/-- Every image is some point's. -/
theorem idx_onto : ∀ q0 : Fin 16, ∃ t : Fin cfg0.N, win0_3.index t = ![q0.val, 0, 0] :=
  (by decide +kernel : ∀ q0 : Fin 16, ∃ t : Fin grid0.N, win0_3.index t = ![q0.val, 0, 0])

theorem mem_blk (t : Fin cfg0.N) (i : S16x128x4096.Idx) :
    i ∈ ((cfg0.win 3).blk t).view.set ↔ ∀ a : Fin 3, win0_3.index t a * S1x128x4096.size a ≤ (i a).val
      ∧ (i a).val < win0_3.index t a * S1x128x4096.size a + S1x128x4096.size a := by
  show i ∈ ((View.whole main_v7).slice (win0_3.rect t)).set ↔ _
  rw [View.set_slice_whole, Rect.mem_set_unit]
  exact Iff.rfl

/-- Image `n` is the block of the point whose image index is `n`. -/
theorem cover (i : S16x128x4096.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hi2 : (i 2).val < 4096 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 4096 ≤ (i 2).val ∧ (i 2).val < win0_3.index t (2 : Fin 3) * 4096 + 4096; omega

/-! ## What a point writes back -/

/-- `Gk` at an index whose coordinates are `(n, co, p)`. -/
theorem Gk_at (X : S16x128x4096.Idx → EReal) (Wm : S1152x128.Idx → EReal) (Bc : S128x1.Idx → EReal) (i : S16x128x4096.Idx)
    (n : Fin 16) (co : Fin 128) (p : Fin 4096) (h0 : (i 0).val = n.val) (h1 : (i 1).val = co.val) (h2 : (i 2).val = p.val) :
    Gk X Wm Bc i = outBlock (F := Ideal) (fun y => X (ix3 n (y 1) (y 2))) Wm Bc (ix3 (0 : Fin 1) co p) := by
  obtain rfl : i = ix3 n co p := by
    funext a
    match a with
    | ⟨0, _⟩ => exact Fin.ext h0
    | ⟨1, _⟩ => exact Fin.ext h1
    | ⟨2, _⟩ => exact Fin.ext h2
  rfl

/-- WHAT POINT `t` WRITES BACK is block `t` of `Gk` of the three arrays as the region finds them: its image block is
    image `t` of the flattened batch, its weight and bias blocks the whole flattened weight and bias column. -/
theorem flushed_eq (c : Dev nD) (t : Fin cfg0.N) :
    (dats m 0 c).flushed 3 t
      = ((cfg0.win 3).blk t).view.read (Elt Ideal) (Gk (V m c main_v5) (V m c main_v4) (V m c main_v6)) := by
  show (cfg0.win 3).cut (grid0.coords t) ((dats m 0 c).after 3 t) = _
  rw [after0_3]
  refine funext fun (j : S1x128x4096.Idx) => ?_
  obtain ⟨z, co, p, rfl⟩ : ∃ (z : Fin 1) (co : Fin 128) (p : Fin 4096), j = ix3 z co p := ⟨j 0, j 1, j 2, eq_ix3 j⟩
  obtain rfl : z = 0 := Subsingleton.elim _ _
  obtain ⟨e0, e1, e2, e3, e4, e5, e6, e7, e8, e9⟩ := idx_facts t
  show outBlock (iblk m c 0 t) (iblk m c 1 t) (iblk m c 2 t) (ix3 (0 : Fin 1) co p)
    = Gk (V m c main_v5) (V m c main_v4) (V m c main_v6) (((cfg0.win 3).blk t).view.emb (ix3 (0 : Fin 1) co p))
  have c0 : ((((cfg0.win 3).blk t).view.emb (ix3 (0 : Fin 1) co p)) 0).val = win0_3.index t (0 : Fin 3) := by
    show win0_3.index t (0 : Fin 3) * 1 + 1 * (0 : Fin 1).val = _; simp
  have c1 : ((((cfg0.win 3).blk t).view.emb (ix3 (0 : Fin 1) co p)) 1).val = co.val := by
    show win0_3.index t (1 : Fin 3) * 128 + 1 * co.val = _; rw [e7]; omega
  have c2 : ((((cfg0.win 3).blk t).view.emb (ix3 (0 : Fin 1) co p)) 2).val = p.val := by
    show win0_3.index t (2 : Fin 3) * 4096 + 1 * p.val = _; rw [e8]; omega
  have h0 : (iblk m c 0 t : Vec Ideal S1x128x4096 .f32)
      = fun y => (V m c main_v5 : S16x128x4096.Idx → EReal) (ix3 (⟨win0_3.index t (0 : Fin 3), e9⟩ : Fin 16) (y 1) (y 2)) := by
    funext y
    show V m c main_v5 (((cfg0.win 0).blk t).view.emb y) = _
    refine congrArg (V m c main_v5) (funext fun a => Fin.ext ?_)
    match a with
    | ⟨0, _⟩ =>
      show win0_0.index t (0 : Fin 3) * 1 + 1 * (y 0).val = win0_3.index t (0 : Fin 3)
      have : (y 0).val < 1 := (y 0).isLt
      rw [e0]; omega
    | ⟨1, _⟩ => show win0_0.index t (1 : Fin 3) * 128 + 1 * (y 1).val = (y 1).val; rw [e1]; omega
    | ⟨2, _⟩ => show win0_0.index t (2 : Fin 3) * 4096 + 1 * (y 2).val = (y 2).val; rw [e2]; omega
  have h1 : (iblk m c 1 t : Vec Ideal S1152x128 .bf16) = (V m c main_v4 : S1152x128.Idx → EReal) := by
    funext y
    show V m c main_v4 (((cfg0.win 1).blk t).view.emb y) = V m c main_v4 y
    refine congrArg (V m c main_v4) (funext fun a => Fin.ext ?_)
    match a with
    | ⟨0, _⟩ => show win0_1.index t (0 : Fin 2) * 1152 + 1 * (y 0).val = (y 0).val; rw [e3]; omega
    | ⟨1, _⟩ => show win0_1.index t (1 : Fin 2) * 128 + 1 * (y 1).val = (y 1).val; rw [e4]; omega
  have h2 : (iblk m c 2 t : Vec Ideal S128x1 .f32) = (V m c main_v6 : S128x1.Idx → EReal) := by
    funext y
    show V m c main_v6 (((cfg0.win 2).blk t).view.emb y) = V m c main_v6 y
    refine congrArg (V m c main_v6) (funext fun a => Fin.ext ?_)
    match a with
    | ⟨0, _⟩ => show win0_2.index t (0 : Fin 2) * 128 + 1 * (y 0).val = (y 0).val; rw [e5]; omega
    | ⟨1, _⟩ => show win0_2.index t (1 : Fin 2) * 1 + 1 * (y 1).val = (y 1).val; rw [e6]; omega
  exact (outBlock_congr h0 h1 h2 _).trans
    (Gk_at _ _ _ _ (⟨win0_3.index t (0 : Fin 3), e9⟩ : Fin 16) co p c0 c1 c2).symm

/-- THE RESULT ARRAY after the run: `Gk` of the three arrays as the region finds them. -/
theorem final (c : Dev nD) :
    (dats m 0 c).arrAt 3 cfg0.N = Gk (V m c main_v5) (V m c main_v4) (V m c main_v6) :=
  (dats m 0 c).arrAt_eq_of_cover 3 (Gk (V m c main_v5) (V m c main_v4) (V m c main_v6)) (fun t _ => flushed_eq m c t) cover

/-! ## The host operation after the region, and the result buffer -/

/-- After the host operation that follows the region the result buffer is the result array with its pixel axis split back
    into rows and columns. -/
theorem tail_eq (c : Dev nD) :
    (Pipeline.afterTail₀ cfgs (dats m) 0 (V0 m) [hostOps1] c main_v8 : S16x128x64x64.Idx → EReal)
      = shapeCast S16x128x64x64 (Gk (V m c main_v5) (V m c main_v4) (V m c main_v6)) shapeCasts_S16x128x4096_S16x128x64x64 := by
  unfold Pipeline.afterTail₀
  show StableHlo.after hostOps1 _ (Proc.devRef .tc main_v8) = _
  after_results
  have hw := (Pipeline.withArrays_arr spec0 launch0.win.arr_inj c (V0 m c) (fun w => (dats m 0 c).arrAt w cfg0.N) 3).trans (final m c)
  exact congrArg (fun A => shapeCast S16x128x64x64 A shapeCasts_S16x128x4096_S16x128x64x64) hw

/-- THE RESULT BUFFER is the specification's tap-by-tap convolution of the four arguments. -/
theorem result_eq (c : Dev nD) :
    (Pipeline.afterTail₀ cfgs (dats m) 0 (V0 m) [hostOps1] c main_v8 : S16x128x64x64.Idx → EReal)
      = convTaps (m ((c.tc : Thread nD τ).loc main_arg0)) (m ((c.tc : Thread nD τ).loc main_arg1))
          (m ((c.tc : Thread nD τ).loc main_arg2)) (m ((c.tc : Thread nD τ).loc main_arg3)) := by
  refine (tail_eq m c).trans (funext fun j => ?_)
  obtain ⟨n, co, h, w, rfl⟩ : ∃ (n : Fin 16) (co : Fin 128) (h w : Fin 64), j = ix4 n co h w := ⟨j 0, j 1, j 2, j 3, eq_ix4 j⟩
  refine (Cert.ConvLayout.batch_unflatten_apply _ _ n co h w).trans ?_
  refine (Gk_conv (m ((c.tc : Thread nD τ).loc main_arg0)) (m ((c.tc : Thread nD τ).loc main_arg1))
    (m ((c.tc : Thread nD τ).loc main_arg2)) (m ((c.tc : Thread nD τ).loc main_arg3)) _ _ _
    (V5_at m c) (V4_at m c) (V6_at m c) n co
    (⟨h.val * 64 + w.val, by have := h.isLt; have := w.isLt; omega⟩ : Fin 4096)).trans ?_
  exact congrArg _ (ix4_congr_last2 _ _ _ _ _ _
    (by show (h.val * 64 + w.val) / 64 = h.val; have := w.isLt; omega)
    (by show (h.val * 64 + w.val) % 64 = w.val; have := w.isLt; omega))

/-! ## The run, read -/

/-- THE RUN: the program ends with its result buffer at the specification's tap-by-tap convolution of its four
    arguments, and the arguments as launched. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v8)
        = convTaps (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefFrame.lean ====
/-
  The reference program's @main around its one region: the eight stretches of host operations before the region
  (the scaled weight flattened tap-major, the padded channel-last image cut into nine shifted copies and joined along
  the channel axis, the bias as a row), the region, and the two host operations after it (the result unflattened and
  moved back to channel-second). What is here: the buffers' contents when the region is entered (`V0`, `V`), that
  @main reduces to the region continued by the later lines (`hmain`), that the later lines touch only what they may
  (`sfx_sub`, `sfx_fresh`, `sfx_keeps`), that no host operation writes an argument array (`V_main_argK`,
  `W_main_argK`), each window's block at a grid point (`iblk`), and the frame claim's post from a frame run (`frame_of`).
-/
import proofs.«176999_g2000105039750728_pallasbulk_413_24_alg».proof.Proof.Gen.ReferenceIdeal.Launch
import proofs.«176999_g2000105039750728_pallasbulk_413_24_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefFrame

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations
    before the region. -/
abbrev V0 (c : Dev nD) : Valuation τ sig (Elt F) := StableHlo.after (List.flatten [hostOps0, hostOps0_1, hostOps0_2, hostOps0_3, hostOps0_4, hostOps0_5, hostOps0_6, hostOps0_7]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7] [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append,
        List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append,
        List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append,
        List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the library's
    frame post read at the argument arrays is the frame claim's post, at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

end Cert.ReferenceIdeal.RefFrame

end
-- ==== Proof.RefBody.lean ====
/-
  The reference program's matmul region, point by point. The body at a grid point loads its 512×1152 block of patch
  rows, the whole 1152×128 flattened weight and the 1×128 bias row, and stores ONE value over its whole 512×128
  output block: the product of the patch rows with the weight, plus the bias row broadcast down the rows
  (`Gen.k0_pay1`). Here: what the output's staging buffer holds after the body (`out0_3`), the body's triple
  (`sound_kernel`), the proof data of the pipeline (`dats`: the arrays as the region finds them, each input buffer
  at its block, the output buffer at `out0_3` of the three input blocks), the body obligation at every point, the
  run of @main to the library's frame post (`run_main`), and from it the frame claim (`frame`).
-/
import proofs.«176999_g2000105039750728_pallasbulk_413_24_alg».proof.Proof.RefFrame
import proofs.«176999_g2000105039750728_pallasbulk_413_24_alg».proof.Proof.Gen.ReferenceIdeal.Skeleton
import Idealize.ShloMosaic.Lib.Pipeline.Frame
import Idealize.ShloMosaic.Lib.Pipeline.Value
import Idealize.ShloMosaic.Lib.Exec.Geometry

set_option maxRecDepth 16384

noncomputable section

namespace Cert.ReferenceIdeal.RefBody

open Cert.ReferenceIdeal.Gen Cert.ReferenceIdeal.RefFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through: each the whole of its staging buffer -/

abbrev rP : Rect S1x512x1152 := Rect.unit (s := S1x512x1152) ![0, 0, 0] S1x512x1152.size inb_S1x512x1152_S1x512x1152_0_0_0
abbrev rW : Rect S1152x128 := Rect.unit (s := S1152x128) ![0, 0] S1152x128.size inb_S1152x128_S1152x128_0_0
abbrev rB : Rect S1x128 := Rect.unit (s := S1x128) ![0, 0] S1x128.size inb_S1x128_S1x128_0_0
abbrev rO : Rect S1x512x128 := Rect.unit (s := S1x512x128) ![0, 0, 0] S1x512x128.size inb_S1x512x128_S1x512x128_0_0_0

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the output's buffer holds after the body -/

/-- The output window's staging buffer after the body, from the three input blocks: its one store, of the product
    plus the bias, through the whole buffer. -/
def out0_3 (x0 : Vec F S1x512x1152 .bf16) (x1 : Vec F S1152x128 .bf16) (x2 : Vec F S1x128 .f32) : Vec F S1x512x128 .f32 :=
  View.canon [⟨rO, k0_pay1 (View.ld x0 rP) (View.ld x1 rW) (View.ld x2 rB)⟩]

/-- The one store covers the buffer: its rectangle is the whole of it. -/
theorem cover0_3 (p0 : Vec F S1x512x128 .f32) (y : S1x512x128.Idx) :
    ∃ pc ∈ ([⟨rO, p0⟩] : List (View.Piece (Elt F) S1x512x128 .f32)), y ∈ pc.1.set :=
  ⟨_, List.mem_singleton_self _, View.mem_set_unit_zero hz3 inb_S1x512x128_S1x512x128_0_0_0 y⟩

/-- So the buffer holds the stored value itself. -/
theorem out0_3_eq (x0 : Vec F S1x512x1152 .bf16) (x1 : Vec F S1152x128 .bf16) (x2 : Vec F S1x128 .f32) :
    out0_3 x0 x1 x2 = k0_pay1 x0 x1 x2 := by
  unfold out0_3
  rw [View.canon_unit_zero hz3]
  simp only [View.ld_unit_zero (S := S1x512x1152) hz3, View.ld_unit_zero (S := S1152x128) hz2, View.ld_unit_zero (S := S1x128) hz2]

/-! ## The body's triple -/

set_option maxHeartbeats 1000000 in
/-- The kernel body on whole staging memrefs, the inputs' at read contents and the output's at anything, runs to the
    continuation holding the inputs' as they were and the output's at `out0_3` of the inputs'. -/
theorem sound_kernel (c : Dev nD) (E : Set ℕ) (i : grid0.Coords)
    (arg3 : Memref sig .tc .vmem S1x512x1152 .bf16) (harg3 : arg3.IsWhole) (arg4 : Memref sig .tc .vmem S1152x128 .bf16) (harg4 : arg4.IsWhole)
    (arg5 : Memref sig .tc .vmem S1x128 .f32) (harg5 : arg5.IsWhole) (arg6 : Memref sig .tc .vmem S1x512x128 .f32) (harg6 : arg6.IsWhole)
    (x0 : Vec F S1x512x1152 .bf16) (x1 : Vec F S1152x128 .bf16) (x2 : Vec F S1x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out0_3 x0 x1 x2)) -∗ K ⟨⟩))
      ⊢ wp frame (wpE (defs₀ (F := F)) Variants.none c none) E (cc0__eq_conv2d_kernel i arg3 harg3 arg4 harg4 arg5 harg5 arg6 harg6) K := by
  simp only [cc0__eq_conv2d_kernel_eq_skeleton]; unfold cc0__eq_conv2d_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the one pipeline on core `c`: the arrays as the region finds them; after the body at point `t`
    each input's buffer at its block and the output's at `out0_3` of the input blocks; the region invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the library computes from the proof data and every other
    unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post at any `F`: the run ends, and the four argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.ReferenceIdeal.RefBody

end
-- ==== Proof.RefPay.lean ====
/-
  The matmul body's stored value read at an index, over the extended reals: entry (0, r, co) of the stored block is
  the sum over the 1152 patch columns of row r of the patch block times column co of the flattened weight, plus
  entry co of the bias row.
-/
import proofs.«176999_g2000105039750728_pallasbulk_413_24_alg».proof.Proof.Gen.ReferenceIdeal.Skeleton
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.ReferenceIdeal.RefPay

open Cert.ReferenceIdeal Cert.ReferenceIdeal.Gen
open Idealize.ShloMosaic Idealize.ShloMosaic.ValueIdx

/-- The product's dimension numbers: rows of the left operand against columns of the right, one contracted axis. -/
abbrev DD : DotDims S512x1152 S1152x128 S512x128 := dot_S512x1152_S1152x128_S512x128_1_0_0_1_n_n

theorem contr_rank : DD.contr.rank = 1 := rfl
theorem contr_size : DD.contr.size ⟨0, by rw [contr_rank]; exact Nat.one_pos⟩ = 1152 := rfl

/-- The left operand's index at output (r, co) and contraction position k is (r, k). -/
theorem lhs_at (r : Fin 512) (co : Fin 128) (k : Fin 1152) :
    DD.lhsIdx (ix2 r co) ((contrEquiv1 DD 1152 contr_rank contr_size).symm k) = ix2 r k := by
  funext a; apply Fin.ext
  match a with
  | ⟨0, _⟩ => simp [DotDims.lhsIdx, DD, dot_S512x1152_S1152x128_S512x128_1_0_0_1_n_n]; rfl
  | ⟨1, _⟩ => exact (DD.lhsIdx_val_of_single (cl := (1 : Fin 2)) rfl _ _).trans (contrEquiv1_symm_val DD 1152 contr_rank contr_size k)

/-- The right operand's is (k, co). -/
theorem rhs_at (r : Fin 512) (co : Fin 128) (k : Fin 1152) :
    DD.rhsIdx (ix2 r co) ((contrEquiv1 DD 1152 contr_rank contr_size).symm k) = ix2 k co := by
  funext a; apply Fin.ext
  match a with
  | ⟨0, _⟩ => exact (DD.rhsIdx_val_of_single (cr := (0 : Fin 2)) rfl _ _).trans (contrEquiv1_symm_val DD 1152 contr_rank contr_size k)
  | ⟨1, _⟩ => simp [DotDims.rhsIdx, DD, dot_S512x1152_S1152x128_S512x128_1_0_0_1_n_n]; rfl

/-- The product into the zero accumulator, at an index: the sum over the contracted axis. -/
theorem matmul_at (A : FVec Ideal S512x1152 .bf16) (B : FVec Ideal S1152x128 .bf16) (r : Fin 512) (co : Fin 128) :
    matmul DD none A B (constant (F := Ideal) S512x128 .f32 0x00000000#32) (ix2 r co)
      = ∑ k : Fin 1152, A (ix2 r k) * B (ix2 k co) := by
  refine (Ideal.matmul_constant_zero_apply DD none A B (ix2 r co)).trans ?_
  rw [← Equiv.sum_comp (contrEquiv1 DD 1152 contr_rank contr_size).symm]
  refine Finset.sum_congr rfl fun k _ => ?_
  rw [lhs_at, rhs_at]

/-- The stored block at (0, r, co). -/
theorem pay_apply (x0 : Vec Ideal S1x512x1152 .bf16) (x1 : Vec Ideal S1152x128 .bf16) (x2 : Vec Ideal S1x128 .f32)
    (r : Fin 512) (co : Fin 128) :
    k0_pay1 (F := Ideal) x0 x1 x2 (ix3 0 r co)
      = (∑ k : Fin 1152, (x0 (ix3 0 r k) : EReal) * (x1 (ix2 k co) : EReal)) + (x2 (ix2 0 co) : EReal) := by
  unfold k0_pay1
  refine (shapeCast_apply _ _ (ix3 (0 : Fin 1) r co) (ix2 r co) ?_).trans ?_
  · rw [Shape.rowMajor_val_two, Shape.rowMajor_val_three]
    show r.val * 128 + co.val = ((0 : Fin 1).val * 512 + r.val) * 128 + co.val
    simp
  refine (addf_apply _ _ _).trans ?_
  refine congrArg₂ (· + ·) ?_ ?_
  · refine (matmul_at _ _ r co).trans ?_
    refine Finset.sum_congr rfl fun k _ => ?_
    refine congrArg₂ (· * ·) ?_ ?_
    · refine shapeCast_apply _ _ (ix2 r k) (ix3 (0 : Fin 1) r k) ?_
      rw [Shape.rowMajor_val_two, Shape.rowMajor_val_three]
      show ((0 : Fin 1).val * 512 + r.val) * 1152 + k.val = r.val * 1152 + k.val
      simp
    · exact congrFun (shapeCast_self _ _) _
  · refine (broadcastTo_apply _ _ (ix2 r co) (ix2 (0 : Fin 1) co) ?_).trans ?_
    · intro a
      match a with
      | ⟨0, _⟩ => rfl
      | ⟨1, _⟩ => rfl
    · exact congrFun (shapeCast_self _ _) _

end Cert.ReferenceIdeal.RefPay

end
-- ==== Proof.RefArray.lean ====
/-
  The result array of the matmul region, whole. Grid point (bi, mi) writes back rows mi·512 … mi·512+511 of image bi;
  what it writes is those rows of ONE function of the three arrays the region reads — `G P Wt B` at (n, r, co) is the sum
  over the 1152 patch columns of `P` (n, r, ·) times column co of `Wt`, plus `B` (0, co) — because its patch block is
  those rows of `P` and its weight and bias blocks are the whole of `Wt` and `B`. The 128 blocks tile the array, so
  after the run the array is `G` of the three arrays as the region finds them.
-/
import proofs.«176999_g2000105039750728_pallasbulk_413_24_alg».proof.Proof.RefBody
import proofs.«176999_g2000105039750728_pallasbulk_413_24_alg».proof.Proof.RefPay

set_option maxRecDepth 16384

noncomputable section

open scoped BigOperators

namespace Cert.ReferenceIdeal.RefArray

open Cert.ReferenceIdeal Cert.ReferenceIdeal.Gen Cert.ReferenceIdeal.RefFrame Cert.ReferenceIdeal.RefBody Cert.ReferenceIdeal.RefPay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The product array as one function of the patch array, the flattened weight and the bias row. -/
def G (P : S16x4096x1152.Idx → EReal) (Wt : S1152x128.Idx → EReal) (B : S1x128.Idx → EReal) : S16x4096x128.Idx → EReal :=
  fun i => (∑ k : Fin 1152, P (ix3 (i 0) (i 1) k) * Wt (ix2 k (i 2))) + B (ix2 0 (i 2))

/-- The printed index maps over the grid: the patch window moves with the result window on the image and row-block
    axes, every other block index is zero, and the result's block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) < 16 ∧ win0_3.index t (1 : Fin 3) < 8 :=
  (by decide +kernel : ∀ t : Fin grid0.N, _)

/-- Every (image, row block) is some point's. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-! ## The three input blocks at a point, read off their arrays -/

/-- Row r, column k of the patch block at point t is the patch array at the image and row the result's block names. -/
theorem blk0_at (c : Dev nD) (t : Fin cfg0.N) (r : Fin 512) (k : Fin 1152) (i : S16x4096x1152.Idx)
    (h0 : (i 0).val = win0_3.index t (0 : Fin 3)) (h1 : (i 1).val = win0_3.index t (1 : Fin 3) * 512 + r.val)
    (h2 : (i 2).val = k.val) :
    (iblk m c 0 t : Vec Ideal S1x512x1152 .bf16) (ix3 0 r k) = (V m c main_v19 : S16x4096x1152.Idx → EReal) i := by
  obtain ⟨e0, e1, e2, -⟩ := idx_facts t
  show V m c main_v19 (((cfg0.win 0).blk t).view.emb (ix3 0 r k)) = V m c main_v19 i
  refine congrArg (V m c main_v19) ?_
  funext a; apply Fin.ext
  match a with
  | ⟨0, _⟩ => show win0_0.index t (0 : Fin 3) * 1 + 1 * (0 : Fin 1).val = (i 0).val; rw [h0, e0]; simp
  | ⟨1, _⟩ => show win0_0.index t (1 : Fin 3) * 512 + 1 * r.val = (i 1).val; rw [h1, e1]; omega
  | ⟨2, _⟩ => show win0_0.index t (2 : Fin 3) * 1152 + 1 * k.val = (i 2).val; rw [h2, e2]; omega

/-- The weight block is the whole flattened weight. -/
theorem blk1_at (c : Dev nD) (t : Fin cfg0.N) (k : Fin 1152) (co : Fin 128) :
    (iblk m c 1 t : Vec Ideal S1152x128 .bf16) (ix2 k co) = (V m c main_v20 : S1152x128.Idx → EReal) (ix2 k co) := by
  obtain ⟨-, -, -, -, e4, e5, -⟩ := idx_facts t
  show V m c main_v20 (((cfg0.win 1).blk t).view.emb (ix2 k co)) = V m c main_v20 (ix2 k co)
  refine congrArg (V m c main_v20) ?_
  funext a; apply Fin.ext
  match a with
  | ⟨0, _⟩ => show win0_1.index t (0 : Fin 2) * 1152 + 1 * k.val = k.val; rw [e4]; omega
  | ⟨1, _⟩ => show win0_1.index t (1 : Fin 2) * 128 + 1 * co.val = co.val; rw [e5]; omega

/-- The bias block is the whole bias row. -/
theorem blk2_at (c : Dev nD) (t : Fin cfg0.N) (co : Fin 128) :
    (iblk m c 2 t : Vec Ideal S1x128 .f32) (ix2 0 co) = (V m c main_v22 : S1x128.Idx → EReal) (ix2 0 co) := by
  obtain ⟨-, -, -, -, -, -, e6, e7, -⟩ := idx_facts t
  show V m c main_v22 (((cfg0.win 2).blk t).view.emb (ix2 0 co)) = V m c main_v22 (ix2 0 co)
  refine congrArg (V m c main_v22) ?_
  funext a; apply Fin.ext
  match a with
  | ⟨0, _⟩ => show win0_2.index t (0 : Fin 2) * 1 + 1 * (0 : Fin 1).val = (0 : Fin 1).val; rw [e6]; rfl
  | ⟨1, _⟩ => show win0_2.index t (1 : Fin 2) * 128 + 1 * co.val = co.val; rw [e7]; omega

/-! ## What a point writes back -/

/-- What point t writes back is block t of `G` of the three arrays as the region finds them. -/
theorem flushed_eq (c : Dev nD) (t : Fin cfg0.N) :
    (dats m 0 c).flushed 3 t
      = ((cfg0.win 3).blk t).view.read (Elt Ideal) (G (V m c main_v19) (V m c main_v20) (V m c main_v22)) := by
  show (cfg0.win 3).cut (grid0.coords t) ((dats m 0 c).after 3 t) = _
  rw [after0_3, out0_3_eq]
  refine funext fun (j : S1x512x128.Idx) => ?_
  obtain ⟨z, r, co, rfl⟩ : ∃ (z : Fin 1) (r : Fin 512) (co : Fin 128), j = ix3 z r co := ⟨j 0, j 1, j 2, eq_ix3 j⟩
  obtain rfl : z = 0 := Subsingleton.elim _ _
  refine (pay_apply (iblk m c 0 t) (iblk m c 1 t) (iblk m c 2 t) r co).trans ?_
  obtain ⟨-, -, -, e3, -⟩ := idx_facts t
  show _ = G (V m c main_v19) (V m c main_v20) (V m c main_v22) (((cfg0.win 3).blk t).view.emb (ix3 0 r co))
  unfold G
  have c0 : ((((cfg0.win 3).blk t).view.emb (ix3 0 r co)) 0).val = win0_3.index t (0 : Fin 3) := by
    show win0_3.index t (0 : Fin 3) * 1 + 1 * (0 : Fin 1).val = _; simp
  have c1 : ((((cfg0.win 3).blk t).view.emb (ix3 0 r co)) 1).val = win0_3.index t (1 : Fin 3) * 512 + r.val := by
    show win0_3.index t (1 : Fin 3) * 512 + 1 * r.val = _; omega
  have c2 : ((((cfg0.win 3).blk t).view.emb (ix3 0 r co)) 2) = co := by
    apply Fin.ext; show win0_3.index t (2 : Fin 3) * 128 + 1 * co.val = _; rw [e3]; omega
  refine congrArg₂ (· + ·) (Finset.sum_congr rfl fun k _ => congrArg₂ (· * ·) ?_ ?_) ?_
  · exact blk0_at m c t r k _ c0 c1 rfl
  · rw [c2]; exact blk1_at m c t k co
  · rw [c2]; exact blk2_at m c t co

/-! ## The blocks tile the array -/

theorem mem_blk (t : Fin cfg0.N) (i : S16x4096x128.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v23).slice (win0_3.rect t)).set ↔ _
  rw [View.set_slice_whole, Rect.mem_set_unit]
  exact Iff.rfl

/-- Row r of image n is in the block of point (n, r / 512). -/
theorem cover (i : S16x4096x128.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 128 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- The result array after the run. -/
theorem final (c : Dev nD) :
    (dats m 0 c).arrAt 3 cfg0.N = G (V m c main_v19) (V m c main_v20) (V m c main_v22) :=
  (dats m 0 c).arrAt_eq_of_cover 3 (G (V m c main_v19) (V m c main_v20) (V m c main_v22)) (fun t _ => flushed_eq m c t) cover

end Cert.ReferenceIdeal.RefArray

end
-- ==== Proof.RefLayout.lean ====
/-
  Small layout facts the reference's host operations need when read at an index: a nine-operand operation's result
  with each operand at its own reference; a padding of zero width on every side is the identity; a concatenation of
  nine pieces of one shape [a, b, c, 128] along the last axis reads piece k / 128 at column k % 128.
-/
import Idealize.ShloMosaic.Lib.StableHlo.Run
import Idealize.ShloMosaic.Lib.Pipeline.Value
import Idealize.ShloMosaic.Lib.ValueIdx
import Idealize.ShloMosaic.Lib.KernelVsHost

noncomputable section

namespace Cert.RefLayout

open Idealize.ShloMosaic Idealize.ShloMosaic.ValueIdx Idealize.SL.Sem

/-! ## A nine-operand host operation's result -/

section Nary

variable {τ : Topo} {sig : RefSig} {Val : EltTy → Type}

/-- The result of an operation over a literal family of nine references, each operand's contents at its own
    reference. -/
theorem nary9_result (x0 x1 x2 x3 x4 x5 x6 x7 x8 y : Ref sig .tc)
    (f : ((k : Fin 9) → ((![x0, x1, x2, x3, x4, x5, x6, x7, x8] : Fin 9 → Ref sig .tc) k).ty.Contents Val) → y.ty.Contents Val) (hxs hy)
    (F : Valuation τ sig Val) :
    (StableHlo.nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) := by
  rw [StableHlo.nary_result]; congr 1; funext k; fin_cases k <;> rfl

end Nary

/-- The contents of one buffer after a literal line of host operations, with a nine-operand operation among them:
    each operation's result at its own buffer is its function's value, at any other buffer what was there. -/
macro "after_results9" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.reshape_result]
               | rw [Cert.RefLayout.nary9_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.reshape_result_ne]; rotate_left; decide)
               | (rw [Idealize.ShloMosaic.StableHlo.nary_result_ne]; rotate_left; decide))))

/-! ## Padding of zero width -/

section Pad
variable {α : Type}

/-- A padding of zero width on every side of a rank-2 array is the array. -/
theorem pad_zero2_apply {n0 n1 : Nat} {u : Shape} (x : (⟨2, ![n0, n1]⟩ : Shape).Idx → α) (v : u.Idx → α)
    (h : (⟨2, ![n0, n1]⟩ : Shape).Pads (![0, 0] : Fin 2 → Nat) ![0, 0] ![0, 0] ⟨2, ![n0, n1]⟩) (hu : 0 < u.numel)
    (j : (⟨2, ![n0, n1]⟩ : Shape).Idx) :
    pad ⟨2, ![n0, n1]⟩ ![0, 0] ![0, 0] ![0, 0] x v h hu j = x j :=
  pad_apply_of_inside _ _ _ x v h hu j j fun a => match a with
    | ⟨0, _⟩ => by show (j 0).val = 0 + (j 0).val * (0 + 1); omega
    | ⟨1, _⟩ => by show (j 1).val = 0 + (j 1).val * (0 + 1); omega

/-- The same at rank 3. -/
theorem pad_zero3_apply {n0 n1 n2 : Nat} {u : Shape} (x : (⟨3, ![n0, n1, n2]⟩ : Shape).Idx → α) (v : u.Idx → α)
    (h : (⟨3, ![n0, n1, n2]⟩ : Shape).Pads (![0, 0, 0] : Fin 3 → Nat) ![0, 0, 0] ![0, 0, 0] ⟨3, ![n0, n1, n2]⟩) (hu : 0 < u.numel)
    (j : (⟨3, ![n0, n1, n2]⟩ : Shape).Idx) :
    pad ⟨3, ![n0, n1, n2]⟩ ![0, 0, 0] ![0, 0, 0] ![0, 0, 0] x v h hu j = x j :=
  pad_apply_of_inside _ _ _ x v h hu j j fun a => match a with
    | ⟨0, _⟩ => by show (j 0).val = 0 + (j 0).val * (0 + 1); omega
    | ⟨1, _⟩ => by show (j 1).val = 0 + (j 1).val * (0 + 1); omega
    | ⟨2, _⟩ => by show (j 2).val = 0 + (j 2).val * (0 + 1); omega

end Pad

/-! ## Nine pieces joined along the last of four axes -/

section Concat
variable {α : Type}

/-- Nine pieces of shape [a, b, c, 128] joined along the last axis, read at column k: piece k / 128 at column
    k % 128, the other coordinates unchanged. -/
theorem concat9_apply {a b c : Nat} (P : Fin 9 → ((⟨4, ![a, b, c, 128]⟩ : Shape).Idx → α))
    (h : Shape.Concatenates [(⟨4, ![a, b, c, 128]⟩ : Shape), ⟨4, ![a, b, c, 128]⟩, ⟨4, ![a, b, c, 128]⟩, ⟨4, ![a, b, c, 128]⟩,
      ⟨4, ![a, b, c, 128]⟩, ⟨4, ![a, b, c, 128]⟩, ⟨4, ![a, b, c, 128]⟩, ⟨4, ![a, b, c, 128]⟩, ⟨4, ![a, b, c, 128]⟩]
      (⟨4, ![a, b, c, 1152]⟩ : Shape) (3 : Fin 4))
    (i0 : Fin a) (i1 : Fin b) (i2 : Fin c) (k : Fin 1152) (t : Fin 9) (ci : Fin 128) (hk : k.val = t.val * 128 + ci.val) :
    concatenate (⟨4, ![a, b, c, 1152]⟩ : Shape) (3 : Fin 4)
      [⟨⟨4, ![a, b, c, 128]⟩, P 0⟩, ⟨⟨4, ![a, b, c, 128]⟩, P 1⟩, ⟨⟨4, ![a, b, c, 128]⟩, P 2⟩, ⟨⟨4, ![a, b, c, 128]⟩, P 3⟩,
       ⟨⟨4, ![a, b, c, 128]⟩, P 4⟩, ⟨⟨4, ![a, b, c, 128]⟩, P 5⟩, ⟨⟨4, ![a, b, c, 128]⟩, P 6⟩, ⟨⟨4, ![a, b, c, 128]⟩, P 7⟩,
       ⟨⟨4, ![a, b, c, 128]⟩, P 8⟩] h (ix4 i0 i1 i2 k)
      = P t (ix4 i0 i1 i2 ci) := by
  have hci := ci.isLt
  refine concatenate_apply_piece (t := (⟨4, ![a, b, c, 1152]⟩ : Shape)) (3 : Fin 4)
    ([⟨⟨4, ![a, b, c, 128]⟩, P 0⟩, ⟨⟨4, ![a, b, c, 128]⟩, P 1⟩, ⟨⟨4, ![a, b, c, 128]⟩, P 2⟩, ⟨⟨4, ![a, b, c, 128]⟩, P 3⟩, ⟨⟨4, ![a, b, c, 128]⟩, P 4⟩, ⟨⟨4, ![a, b, c, 128]⟩, P 5⟩, ⟨⟨4, ![a, b, c, 128]⟩, P 6⟩, ⟨⟨4, ![a, b, c, 128]⟩, P 7⟩, ⟨⟨4, ![a, b, c, 128]⟩, P 8⟩] : List ((s : Shape) × (s.Idx → α))) h (ix4 i0 i1 i2 k) t.val
    (by have := t.isLt; simpa using this) ⟨4, ![a, b, c, 128]⟩ (P t) ?_ rfl
    (t.val * 128) ?_ (ix4 i0 i1 i2 ci) ?_ ?_
  · fin_cases t <;> rfl
  · fin_cases t <;> rfl
  · intro b' hb'
    match b' with
    | ⟨0, _⟩ => rfl
    | ⟨1, _⟩ => rfl
    | ⟨2, _⟩ => rfl
    | ⟨3, _⟩ => exact absurd rfl hb'
  · show t.val * 128 + ci.val = k.val
    omega

end Concat

end Cert.RefLayout

end
-- ==== Proof.RefTerms.lean ====
/-
  The three arrays the matmul region reads, as terms of the program's arguments, and each read at an index:
  * the patch array at (n, h·64 + w, k) is the padded pixel that tap k / 128 sees at output pixel (h, w) of image n, in
    input channel k % 128: the image moved to channel-last, padded by one pixel of zeros on each side of both spatial
    axes, cut into the nine copies shifted by (ky, kx), joined along the channel axis tap-major, and its two spatial
    axes flattened;
  * the flattened weight at (k, co) is the scaled weight of the specification;
  * the bias row at (0, co) is the bias at co.
  The three paddings of zero width and the narrowings to bf16 are the identity.
-/
import proofs.«176999_g2000105039750728_pallasbulk_413_24_alg».proof.Proof.Gen.ReferenceIdeal
import proofs.«176999_g2000105039750728_pallasbulk_413_24_alg».proof.Proof.RefLayout
import proofs.«176999_g2000105039750728_pallasbulk_413_24_alg».proof.Proof.LibConvLayout
import proofs.«176999_g2000105039750728_pallasbulk_413_24_alg».proof.Proof.ConvSpec
import Idealize.ShloMosaic.Lib.KernelVsHost

set_option maxRecDepth 16384

noncomputable section

open scoped BigOperators

namespace Cert.ReferenceIdeal.RefTerms

open Cert.ReferenceIdeal Cert.ReferenceIdeal.Gen
open Idealize.ShloMosaic Idealize.ShloMosaic.ValueIdx
open Cert.ConvSpec Cert.RefLayout

/-! ## The terms the host operations compute -/

/-- The padding value: the integer zero converted. -/
abbrev zf32 : FVec Ideal S_ .f32 := sitofp .f32 (constantI S_ 32 0#32)
abbrev zbf16 : FVec Ideal S_ .bf16 := sitofp .bf16 (constantI S_ 32 0#32)

/-- The image channel-last, padded by one pixel on each side of both spatial axes. -/
def padded (x : FVec Ideal S16x128x64x64 .f32) : FVec Ideal S16x66x66x128 .f32 :=
  pad S16x66x66x128 ![0, 1, 1, 0] ![0, 1, 1, 0] ![0, 0, 0, 0]
    (transpose S16x64x64x128 [0, 2, 3, 1] x transposes_S16x128x64x64_S16x64x64x128_0_2_3_1) zf32
    pads_S16x64x64x128_S16x66x66x128_000_110_110_000 h_S_

/-- The nine copies of the padded image, copy t shifted by (t / 3, t % 3). -/
def shifted (x : FVec Ideal S16x128x64x64 .f32) : Fin 9 → FVec Ideal S16x64x64x128 .f32
  | ⟨0, _⟩ => extractStridedSlice S16x64x64x128 ![0, 0, 0, 0] (padded x) slices_S16x66x66x128_S16x64x64x128_0_0_0_0
  | ⟨1, _⟩ => extractStridedSlice S16x64x64x128 ![0, 0, 1, 0] (padded x) slices_S16x66x66x128_S16x64x64x128_0_0_1_0
  | ⟨2, _⟩ => extractStridedSlice S16x64x64x128 ![0, 0, 2, 0] (padded x) slices_S16x66x66x128_S16x64x64x128_0_0_2_0
  | ⟨3, _⟩ => extractStridedSlice S16x64x64x128 ![0, 1, 0, 0] (padded x) slices_S16x66x66x128_S16x64x64x128_0_1_0_0
  | ⟨4, _⟩ => extractStridedSlice S16x64x64x128 ![0, 1, 1, 0] (padded x) slices_S16x66x66x128_S16x64x64x128_0_1_1_0
  | ⟨5, _⟩ => extractStridedSlice S16x64x64x128 ![0, 1, 2, 0] (padded x) slices_S16x66x66x128_S16x64x64x128_0_1_2_0
  | ⟨6, _⟩ => extractStridedSlice S16x64x64x128 ![0, 2, 0, 0] (padded x) slices_S16x66x66x128_S16x64x64x128_0_2_0_0
  | ⟨7, _⟩ => extractStridedSlice S16x64x64x128 ![0, 2, 1, 0] (padded x) slices_S16x66x66x128_S16x64x64x128_0_2_1_0
  | ⟨8, _⟩ => extractStridedSlice S16x64x64x128 ![0, 2, 2, 0] (padded x) slices_S16x66x66x128_S16x64x64x128_0_2_2_0
  | ⟨_ + 9, h⟩ => absurd h (Nat.not_lt.2 (Nat.le_add_left _ _))

/-- The patch array: the nine shifted copies joined along the channel axis, the spatial axes flattened. -/
def patches (x : FVec Ideal S16x128x64x64 .f32) : FVec Ideal S16x4096x1152 .bf16 :=
  pad S16x4096x1152 ![0, 0, 0] ![0, 0, 0] ![0, 0, 0]
    (truncf .bf16 (shapeCast S16x4096x1152 (concatenate S16x64x64x1152 3
      [⟨S16x64x64x128, shifted x 0⟩, ⟨S16x64x64x128, shifted x 1⟩, ⟨S16x64x64x128, shifted x 2⟩, ⟨S16x64x64x128, shifted x 3⟩, ⟨S16x64x64x128, shifted x 4⟩, ⟨S16x64x64x128, shifted x 5⟩, ⟨S16x64x64x128, shifted x 6⟩, ⟨S16x64x64x128, shifted x 7⟩, ⟨S16x64x64x128, shifted x 8⟩]
      concatenates_S16x64x64x128_S16x64x64x128_S16x64x64x128_S16x64x64x128_S16x64x64x128_S16x64x64x128_S16x64x64x128_S16x64x64x128_S16x64x64x128_S16x64x64x1152_d3) shapeCasts_S16x64x64x1152_S16x4096x1152) bitsLt_bf16_f32) zbf16
    pads_S16x4096x1152_S16x4096x1152_000_000_000 h_S_

/-- The flattened weight: the weight times the broadcast scale, moved to [ky, kx, ci, co] and flattened. -/
def wflat (wn : FVec Ideal S128x128x3x3 .f32) (s : FVec Ideal S_ .f32) : FVec Ideal S1152x128 .bf16 :=
  pad S1152x128 ![0, 0] ![0, 0] ![0, 0]
    (truncf .bf16 (shapeCast S1152x128 (transpose S3x3x128x128 [2, 3, 1, 0]
      (mulf wn (broadcastInDim S128x128x3x3 ![] bcast_S_S128x128x3x3 s)) transposes_S128x128x3x3_S3x3x128x128_2_3_1_0)
      shapeCasts_S3x3x128x128_S1152x128) bitsLt_bf16_f32) zbf16 pads_S1152x128_S1152x128_000_000 h_S_

/-- The bias as a row. -/
def brow (b : FVec Ideal S128 .f32) : FVec Ideal S1x128 .f32 :=
  pad S1x128 ![0, 0] ![0, 0] ![0, 0] (shapeCast S1x128 b shapeCasts_S128_S1x128) zf32 pads_S1x128_S1x128_000_000 h_S_

/-! ## Read at an index -/

/-- The padding value is zero. -/
theorem zf32_first : zf32 (Shape.Idx.first h_S_) = (0 : EReal) := sitofp_zero

/-- The padded image at (n, i, j, ci) is the specification's padded image. -/
theorem padded_apply (x : FVec Ideal S16x128x64x64 .f32) (n : Fin 16) (i j : Fin 66) (ci : Fin 128) :
    padded x (ix4 n i j ci) = XP x n i j ci := by
  have hi := i.isLt
  have hj := j.isLt
  unfold padded XP
  by_cases h : 1 ≤ i.val ∧ i.val ≤ 64 ∧ 1 ≤ j.val ∧ j.val ≤ 64
  · rw [dif_pos h]
    refine (pad_apply_of_inside _ _ _ _ _ _ _ (ix4 n i j ci)
      (ix4 n (⟨i.val - 1, by omega⟩ : Fin 64) (⟨j.val - 1, by omega⟩ : Fin 64) ci) ?_).trans ?_
    · intro a
      match a with
      | ⟨0, _⟩ => show n.val = 0 + n.val * (0 + 1); omega
      | ⟨1, _⟩ => show i.val = 1 + (i.val - 1) * (0 + 1); omega
      | ⟨2, _⟩ => show j.val = 1 + (j.val - 1) * (0 + 1); omega
      | ⟨3, _⟩ => show ci.val = 0 + ci.val * (0 + 1); omega
    · exact transpose_apply _ _ _ _ (ix4 n ci (⟨i.val - 1, by omega⟩ : Fin 64) (⟨j.val - 1, by omega⟩ : Fin 64)) fun b =>
        match b with
        | ⟨0, _⟩ => rfl | ⟨1, _⟩ => rfl | ⟨2, _⟩ => rfl | ⟨3, _⟩ => rfl
  · rw [dif_neg h]
    by_cases hi' : 1 ≤ i.val ∧ i.val ≤ 64
    · refine (pad_apply_of_not_inside _ _ _ _ _ _ _ (ix4 n i j ci) (2 : Fin 4) ?_).trans zf32_first
      show ¬(1 ≤ j.val ∧ (j.val - 1) % (0 + 1) = 0 ∧ (j.val - 1) / (0 + 1) < 64)
      omega
    · refine (pad_apply_of_not_inside _ _ _ _ _ _ _ (ix4 n i j ci) (1 : Fin 4) ?_).trans zf32_first
      show ¬(1 ≤ i.val ∧ (i.val - 1) % (0 + 1) = 0 ∧ (i.val - 1) / (0 + 1) < 64)
      omega

/-- A copy of the padded image shifted by (ky, kx), at (n, h, w, ci), is the padded image at (n, h + ky, w + kx, ci). -/
theorem slice_apply (x : FVec Ideal S16x128x64x64 .f32) (o : Fin 4 → Nat) (hs : S16x66x66x128.Slices o S16x64x64x128)
    (ky kx : Fin 3) (h0 : o 0 = 0) (h1 : o 1 = ky.val) (h2 : o 2 = kx.val) (h3 : o 3 = 0)
    (n : Fin 16) (h w : Fin 64) (ci : Fin 128) :
    extractStridedSlice S16x64x64x128 o (padded x) hs (ix4 n h w ci)
      = XP x n ⟨h.val + ky.val, by have := h.isLt; have := ky.isLt; omega⟩ ⟨w.val + kx.val, by have := w.isLt; have := kx.isLt; omega⟩ ci := by
  refine (extractStridedSlice_apply o _ hs (ix4 n h w ci)
    (ix4 n (⟨h.val + ky.val, by have := h.isLt; have := ky.isLt; omega⟩ : Fin 66)
      (⟨w.val + kx.val, by have := w.isLt; have := kx.isLt; omega⟩ : Fin 66) ci) ?_).trans (padded_apply x _ _ _ _)
  intro a
  match a with
  | ⟨0, _⟩ => show n.val = o 0 + n.val; omega
  | ⟨1, _⟩ => show h.val + ky.val = o 1 + h.val; omega
  | ⟨2, _⟩ => show w.val + kx.val = o 2 + w.val; omega
  | ⟨3, _⟩ => show ci.val = o 3 + ci.val; omega

/-- Copy t at (n, h, w, ci) is the padded pixel tap t sees at output pixel (h, w). -/
theorem shifted_apply (x : FVec Ideal S16x128x64x64 .f32) (t : Fin 9) (n : Fin 16) (h w : Fin 64) (ci : Fin 128) :
    shifted x t (ix4 n h w ci) = seen x n h w t ci := by
  unfold seen
  fin_cases t
  · exact slice_apply x ![0, 0, 0, 0] slices_S16x66x66x128_S16x64x64x128_0_0_0_0 (kyOf 0) (kxOf 0) rfl rfl rfl rfl n h w ci
  · exact slice_apply x ![0, 0, 1, 0] slices_S16x66x66x128_S16x64x64x128_0_0_1_0 (kyOf 1) (kxOf 1) rfl rfl rfl rfl n h w ci
  · exact slice_apply x ![0, 0, 2, 0] slices_S16x66x66x128_S16x64x64x128_0_0_2_0 (kyOf 2) (kxOf 2) rfl rfl rfl rfl n h w ci
  · exact slice_apply x ![0, 1, 0, 0] slices_S16x66x66x128_S16x64x64x128_0_1_0_0 (kyOf 3) (kxOf 3) rfl rfl rfl rfl n h w ci
  · exact slice_apply x ![0, 1, 1, 0] slices_S16x66x66x128_S16x64x64x128_0_1_1_0 (kyOf 4) (kxOf 4) rfl rfl rfl rfl n h w ci
  · exact slice_apply x ![0, 1, 2, 0] slices_S16x66x66x128_S16x64x64x128_0_1_2_0 (kyOf 5) (kxOf 5) rfl rfl rfl rfl n h w ci
  · exact slice_apply x ![0, 2, 0, 0] slices_S16x66x66x128_S16x64x64x128_0_2_0_0 (kyOf 6) (kxOf 6) rfl rfl rfl rfl n h w ci
  · exact slice_apply x ![0, 2, 1, 0] slices_S16x66x66x128_S16x64x64x128_0_2_1_0 (kyOf 7) (kxOf 7) rfl rfl rfl rfl n h w ci
  · exact slice_apply x ![0, 2, 2, 0] slices_S16x66x66x128_S16x64x64x128_0_2_2_0 (kyOf 8) (kxOf 8) rfl rfl rfl rfl n h w ci

/-- The patch array at (n, h·64 + w, k). -/
theorem patches_apply (x : FVec Ideal S16x128x64x64 .f32) (n : Fin 16) (h w : Fin 64) (k : Fin 1152) :
    patches x (ix3 n (⟨h.val * 64 + w.val, by have := h.isLt; have := w.isLt; omega⟩ : Fin 4096) k)
      = seen x n h w (tapOf k) (chanOf k) := by
  have hh := h.isLt
  have hw := w.isLt
  have hk := k.isLt
  unfold patches
  refine (pad_zero3_apply _ _ _ _ _).trans ?_
  refine Eq.trans (truncf_apply (φ := .f32) (ψ := .bf16) _ bitsLt_bf16_f32 _) ?_
  refine (shapeCast_apply _ _ (ix3 n (⟨h.val * 64 + w.val, by omega⟩ : Fin 4096) k) (ix4 n h w k) ?_).trans ?_
  · rw [Shape.rowMajor_val_four, Shape.rowMajor_val_three]
    show ((n.val * 64 + h.val) * 64 + w.val) * 1152 + k.val = (n.val * 4096 + (h.val * 64 + w.val)) * 1152 + k.val
    omega
  refine (concat9_apply (shifted x) _ n h w k (tapOf k) (chanOf k) ?_).trans (shifted_apply x _ n h w _)
  show k.val = k.val / 128 * 128 + k.val % 128
  omega

/-- The flattened weight at (k, co) is the specification's scaled weight. -/
theorem wflat_apply (wn : FVec Ideal S128x128x3x3 .f32) (s : FVec Ideal S_ .f32) (k : Fin 1152) (co : Fin 128) :
    wflat wn s (ix2 k co) = W wn s k co := by
  unfold wflat
  refine (pad_zero2_apply _ _ _ _ _).trans ?_
  exact Cert.ConvLayout.weight_chain_apply _ _ _ _ wn s k co

/-- The bias row at (0, co) is the bias at co. -/
theorem brow_apply (b : FVec Ideal S128 .f32) (co : Fin 128) : brow b (ix2 (0 : Fin 1) co) = b (ix1 co) := by
  unfold brow
  refine (pad_zero2_apply _ _ _ _ _).trans ?_
  refine shapeCast_apply _ _ (ix2 (0 : Fin 1) co) (ix1 co) ?_
  rw [Shape.rowMajor_val_one, Shape.rowMajor_val_two]
  show co.val = (0 : Fin 1).val * 128 + co.val
  simp

end Cert.ReferenceIdeal.RefTerms

end
-- ==== Proof.LibAfterRead.lean ====
/-
  Reading one buffer out of a straight line of host operations that assigns every buffer once.

  A line `ops` rewrites the device's buffers in order (`after ops V`). When operation `k` writes exactly the buffer `W[k]`
  (`Writes ops W`), a buffer that is not among `W[j], W[j+1], …` is left alone by every operation from `j` on. So, for the
  whole line: the buffer operation `k` writes ends at that operation's value, and each operand of operation `k` that no
  operation from `k` on writes is read, at that moment, with the contents it has at the END of the line. Together: on the final
  contents `after ops V`, every operation's equation  result = f (operands)  holds as printed.
-/
import Idealize.ShloMosaic.Lib.StableHlo.Run
import Mathlib.Data.List.Forall2

namespace Cert.LibAfterRead

open Idealize.ShloMosaic Idealize.ShloMosaic.StableHlo

variable {τ : Topo} {sig : RefSig} {Val : EltTy → Type}

/-- Running two lines one after the other is running their concatenation. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Related lists: every member of the left one has a partner in the right one. -/
theorem exists_of_forall₂ {α β : Type} {R : α → β → Prop} {l₁ : List α} {l₂ : List β} (h : List.Forall₂ R l₁ l₂) {a : α}
    (ha : a ∈ l₁) : ∃ b ∈ l₂, R a b := by
  induction h with
  | nil => cases ha
  | cons hab _ ih =>
    rcases List.mem_cons.mp ha with rfl | ha'
    · exact ⟨_, List.mem_cons_self, hab⟩
    · obtain ⟨b, hb, r⟩ := ih ha'
      exact ⟨b, List.mem_cons_of_mem _ hb, r⟩

/-- Operation `k` of the line writes exactly the buffer `W[k]`. -/
def Writes (ops : List (HloOp τ sig Val)) (W : List (Ref sig .tc)) : Prop :=
  List.Forall₂ (fun op r => op.writes = {Proc.devRef (τ := τ) .tc r}) ops W

/-- A buffer not among `W[j], W[j+1], …` is written by no operation from `j` on. -/
theorem Writes.not_mem_drop {ops : List (HloOp τ sig Val)} {W : List (Ref sig .tc)} (h : Writes ops W) (j : Nat)
    {y : Ref sig .tc} (hy : y ∉ W.drop j) : ∀ op ∈ ops.drop j, Proc.devRef (τ := τ) .tc y ∉ op.writes := by
  intro op hop hmem
  obtain ⟨r, hr, hw⟩ := exists_of_forall₂ (List.forall₂_drop j h) hop
  rw [hw, Finset.mem_singleton] at hmem
  exact hy (Proc.devRef_injective _ hmem ▸ hr)

/-- The line up to operation `k` has already given a buffer its final contents when no operation from `k` on writes it. -/
theorem after_take {ops : List (HloOp τ sig Val)} {W : List (Ref sig .tc)} (h : Writes ops W) (k : Nat) {a : Ref sig .tc}
    (ha : a ∉ W.drop k) (V : Valuation τ sig Val) :
    after (ops.take k) V (Proc.devRef .tc a) = after ops V (Proc.devRef .tc a) := by
  conv_rhs => rw [← List.take_append_drop k ops]
  rw [after_app, after_of_forall_not_mem _ _ (h.not_mem_drop k ha)]

/-- The buffer operation `k` writes, if no later operation writes it, ends at that operation's result over the contents
    the line has reached before it. -/
theorem after_eq_result {ops : List (HloOp τ sig Val)} {W : List (Ref sig .tc)} (h : Writes ops W) (k : Nat)
    {op : HloOp τ sig Val} (hk : ops[k]? = some op) {y : Ref sig .tc} (hy : y ∉ W.drop (k + 1)) (V : Valuation τ sig Val) :
    after ops V (Proc.devRef .tc y) = op.result (after (ops.take k) V) (Proc.devRef .tc y) := by
  obtain ⟨hlt, rfl⟩ := List.getElem?_eq_some_iff.mp hk
  conv_lhs => rw [← List.take_append_drop k ops, List.drop_eq_getElem_cons hlt]
  rw [after_app, after_cons, after_of_forall_not_mem _ _ (h.not_mem_drop (k + 1) hy)]

section Builders

variable {ops : List (HloOp τ sig Val)} {W : List (Ref sig .tc)}

/-- Operation `k` a value with no operand: its buffer ends at the value. -/
theorem read_nullary (h : Writes ops W) (k : Nat) (V : Valuation τ sig Val) {y : Ref sig .tc} {v : y.ty.Contents Val} {hy}
    (hk : ops[k]? = some (nullary (τ := τ) y v hy)) (hy' : y ∉ W.drop (k + 1)) :
    after ops V (Proc.devRef .tc y) = v := by
  rw [after_eq_result h k hk hy', nullary_result]

/-- Operation `k` a function of one operand: on the final contents its buffer is the function of the operand's. -/
theorem read_unary (h : Writes ops W) (k : Nat) (V : Valuation τ sig Val) {x y : Ref sig .tc} {f : x.ty.Contents Val → y.ty.Contents Val} {hx hy}
    (hk : ops[k]? = some (unary (τ := τ) x y f hx hy)) (hy' : y ∉ W.drop (k + 1)) (hx' : x ∉ W.drop k) :
    after ops V (Proc.devRef .tc y) = f (after ops V (Proc.devRef .tc x)) := by
  rw [after_eq_result h k hk hy', unary_result, after_take h k hx']

/-- Operation `k` a function of two operands. -/
theorem read_binary (h : Writes ops W) (k : Nat) (V : Valuation τ sig Val) {a b y : Ref sig .tc} {f : a.ty.Contents Val → b.ty.Contents Val → y.ty.Contents Val} {ha hb hy}
    (hk : ops[k]? = some (binary (τ := τ) a b y f ha hb hy)) (hy' : y ∉ W.drop (k + 1)) (ha' : a ∉ W.drop k)
    (hb' : b ∉ W.drop k) :
    after ops V (Proc.devRef .tc y) = f (after ops V (Proc.devRef .tc a)) (after ops V (Proc.devRef .tc b)) := by
  rw [after_eq_result h k hk hy', binary_result, after_take h k ha', after_take h k hb']

/-- Operation `k` a change of shape. -/
theorem read_reshape (h : Writes ops W) (k : Nat) (V : Valuation τ sig Val) {x y : Ref sig .tc} {he : x.ty.elt = y.ty.elt} {hn : x.ty.shape.ShapeCasts y.ty.shape} {hx hy}
    (hk : ops[k]? = some (reshape (τ := τ) (Val := Val) x y he hn hx hy)) (hy' : y ∉ W.drop (k + 1)) (hx' : x ∉ W.drop k) :
    after ops V (Proc.devRef .tc y) = fun i => he ▸ shapeCast y.ty.shape (after ops V (Proc.devRef .tc x)) hn i := by
  rw [after_eq_result h k hk hy', reshape_result, after_take h k hx']

/-- Operation `k` a function of a family of operands. -/
theorem read_nary (h : Writes ops W) (k : Nat) (V : Valuation τ sig Val) {n : Nat} {xs : Fin n → Ref sig .tc} {y : Ref sig .tc}
    {f : ((i : Fin n) → (xs i).ty.Contents Val) → y.ty.Contents Val} {hxs hy}
    (hk : ops[k]? = some (nary (τ := τ) xs y f hxs hy)) (hy' : y ∉ W.drop (k + 1)) (hxs' : ∀ i, xs i ∉ W.drop k) :
    after ops V (Proc.devRef .tc y) = f (fun i => after ops V (Proc.devRef .tc (xs i))) := by
  rw [after_eq_result h k hk hy', nary_result]
  exact congrArg f (funext fun i => after_take h k (hxs' i) V)

end Builders

end Cert.LibAfterRead
-- ==== Proof.RefHost.lean ====
/-
  The three arrays the matmul region reads, as the host operations before the region leave them, are the terms of
  RefTerms of the program's arguments. The bias row and the flattened weight are read off the whole line of host
  operations at once; the patch array, whose line holds the nine-operand concatenation, is read stretch by stretch:
  within each stretch a buffer's contents are a function of the contents before the stretch, and the later stretches
  leave it alone.
-/
import proofs.«176999_g2000105039750728_pallasbulk_413_24_alg».proof.Proof.RefFrame
import proofs.«176999_g2000105039750728_pallasbulk_413_24_alg».proof.Proof.RefLayout
import proofs.«176999_g2000105039750728_pallasbulk_413_24_alg».proof.Proof.RefTerms
import proofs.«176999_g2000105039750728_pallasbulk_413_24_alg».proof.Proof.LibAfterRead

set_option maxRecDepth 16384

noncomputable section

open scoped BigOperators

namespace Cert.ReferenceIdeal.RefHost

open Cert.ReferenceIdeal Cert.ReferenceIdeal.Gen Cert.ReferenceIdeal.RefFrame
open Idealize.ShloMosaic Idealize.ShloMosaic.TcCoe Idealize.SL.Sem Idealize.ShloMosaic.ValueIdx Idealize.ShloMosaic.Tactic
open Cert.RefLayout Cert.ReferenceIdeal.RefTerms

/-- One buffer's contents after a literal line of host operations over any contents before it: each operation's result
    at its own buffer is its function's value, at any other buffer what was there. -/
macro "host_results" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.reshape_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.reshape_result_ne]; rotate_left; decide)
               | (rw [Idealize.ShloMosaic.StableHlo.nary_result_ne]; rotate_left; decide)
               | rw [Cert.RefLayout.nary9_result])))

variable (m : (ℓ : Loc nD τ sig) → Buf (Elt Ideal) ℓ)

/-! ## The bias row and the flattened weight -/

theorem V_main_v20 (c : Dev nD) :
    (V m c main_v20 : S1152x128.Idx → EReal) = wflat (m ((c : Thread nD τ).loc main_arg1)) (m ((c : Thread nD τ).loc main_arg3)) := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

theorem V_main_v22 (c : Dev nD) :
    (V m c main_v22 : S1x128.Idx → EReal) = brow (m ((c : Thread nD τ).loc main_arg2)) := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

/-! ## The patch array, stretch by stretch -/

section Stretches

variable (A : Valuation τ sig (Elt Ideal))

/-- The first stretch leaves the channel-last image in `main_v5` and the integer zero in `main_c`. -/
theorem st0_v5 : StableHlo.after hostOps0 A (Proc.devRef .tc main_v5)
    = transpose S16x64x64x128 [0, 2, 3, 1] (A (Proc.devRef .tc main_arg0)) transposes_S16x128x64x64_S16x64x64x128_0_2_3_1 := by
  dsimp only [hostOps0]; host_results; try rfl
theorem st0_c : StableHlo.after hostOps0 A (Proc.devRef .tc main_c) = constantI S_ 32 0#32 := by
  dsimp only [hostOps0]; host_results; try rfl

/-- The second pads it. -/
theorem st1_v6 : StableHlo.after hostOps0_1 A (Proc.devRef .tc main_v6)
    = pad S16x66x66x128 ![0, 1, 1, 0] ![0, 1, 1, 0] ![0, 0, 0, 0] (A (Proc.devRef .tc main_v5))
        (sitofp .f32 (A (Proc.devRef .tc main_c)) : FVec Ideal S_ .f32) pads_S16x64x64x128_S16x66x66x128_000_110_110_000 h_S_ := by
  dsimp only [hostOps0_1]; host_results; try rfl

/-- The buffers the third stretch writes, in order: every buffer is written once. -/
abbrev W2 : List (Ref sig .tc) :=
  [main_v7, main_v8, main_v9, main_v10, main_v11, main_v12, main_v13, main_v14, main_v15, main_v16, main_v17, main_v18, main_c_0]

theorem hW2 : Cert.LibAfterRead.Writes (τ := τ) (hostOps0_2 (F := Ideal)) W2 := by
  unfold Cert.LibAfterRead.Writes
  repeat (first | exact List.Forall₂.nil | refine List.Forall₂.cons rfl ?_)

/-- The third stretch leaves the padded image alone, -/
theorem st2_v6 : StableHlo.after hostOps0_2 A (Proc.devRef .tc main_v6) = A (Proc.devRef .tc main_v6) :=
  StableHlo.after_of_forall_not_mem _ _ (hW2.not_mem_drop 0 (by decide))

/-- cuts the nine shifted copies of it, -/
theorem st2_v7 : StableHlo.after hostOps0_2 A (Proc.devRef .tc main_v7)
    = extractStridedSlice S16x64x64x128 ![0, 0, 0, 0] (A (Proc.devRef .tc main_v6) : FVec Ideal S16x66x66x128 .f32) slices_S16x66x66x128_S16x64x64x128_0_0_0_0 :=
  by rw [Cert.LibAfterRead.read_unary hW2 0 A rfl (by decide) (by decide), st2_v6 A]
theorem st2_v8 : StableHlo.after hostOps0_2 A (Proc.devRef .tc main_v8)
    = extractStridedSlice S16x64x64x128 ![0, 0, 1, 0] (A (Proc.devRef .tc main_v6) : FVec Ideal S16x66x66x128 .f32) slices_S16x66x66x128_S16x64x64x128_0_0_1_0 :=
  by rw [Cert.LibAfterRead.read_unary hW2 1 A rfl (by decide) (by decide), st2_v6 A]
theorem st2_v9 : StableHlo.after hostOps0_2 A (Proc.devRef .tc main_v9)
    = extractStridedSlice S16x64x64x128 ![0, 0, 2, 0] (A (Proc.devRef .tc main_v6) : FVec Ideal S16x66x66x128 .f32) slices_S16x66x66x128_S16x64x64x128_0_0_2_0 :=
  by rw [Cert.LibAfterRead.read_unary hW2 2 A rfl (by decide) (by decide), st2_v6 A]
theorem st2_v10 : StableHlo.after hostOps0_2 A (Proc.devRef .tc main_v10)
    = extractStridedSlice S16x64x64x128 ![0, 1, 0, 0] (A (Proc.devRef .tc main_v6) : FVec Ideal S16x66x66x128 .f32) slices_S16x66x66x128_S16x64x64x128_0_1_0_0 :=
  by rw [Cert.LibAfterRead.read_unary hW2 3 A rfl (by decide) (by decide), st2_v6 A]
theorem st2_v11 : StableHlo.after hostOps0_2 A (Proc.devRef .tc main_v11)
    = extractStridedSlice S16x64x64x128 ![0, 1, 1, 0] (A (Proc.devRef .tc main_v6) : FVec Ideal S16x66x66x128 .f32) slices_S16x66x66x128_S16x64x64x128_0_1_1_0 :=
  by rw [Cert.LibAfterRead.read_unary hW2 4 A rfl (by decide) (by decide), st2_v6 A]
theorem st2_v12 : StableHlo.after hostOps0_2 A (Proc.devRef .tc main_v12)
    = extractStridedSlice S16x64x64x128 ![0, 1, 2, 0] (A (Proc.devRef .tc main_v6) : FVec Ideal S16x66x66x128 .f32) slices_S16x66x66x128_S16x64x64x128_0_1_2_0 :=
  by rw [Cert.LibAfterRead.read_unary hW2 5 A rfl (by decide) (by decide), st2_v6 A]
theorem st2_v13 : StableHlo.after hostOps0_2 A (Proc.devRef .tc main_v13)
    = extractStridedSlice S16x64x64x128 ![0, 2, 0, 0] (A (Proc.devRef .tc main_v6) : FVec Ideal S16x66x66x128 .f32) slices_S16x66x66x128_S16x64x64x128_0_2_0_0 :=
  by rw [Cert.LibAfterRead.read_unary hW2 6 A rfl (by decide) (by decide), st2_v6 A]
theorem st2_v14 : StableHlo.after hostOps0_2 A (Proc.devRef .tc main_v14)
    = extractStridedSlice S16x64x64x128 ![0, 2, 1, 0] (A (Proc.devRef .tc main_v6) : FVec Ideal S16x66x66x128 .f32) slices_S16x66x66x128_S16x64x64x128_0_2_1_0 :=
  by rw [Cert.LibAfterRead.read_unary hW2 7 A rfl (by decide) (by decide), st2_v6 A]
theorem st2_v15 : StableHlo.after hostOps0_2 A (Proc.devRef .tc main_v15)
    = extractStridedSlice S16x64x64x128 ![0, 2, 2, 0] (A (Proc.devRef .tc main_v6) : FVec Ideal S16x66x66x128 .f32) slices_S16x66x66x128_S16x64x64x128_0_2_2_0 :=
  by rw [Cert.LibAfterRead.read_unary hW2 8 A rfl (by decide) (by decide), st2_v6 A]

/-- joins them along the channel axis, -/
theorem st2_v16 : StableHlo.after hostOps0_2 A (Proc.devRef .tc main_v16)
    = concatenate S16x64x64x1152 3
      [⟨S16x64x64x128, extractStridedSlice S16x64x64x128 ![0, 0, 0, 0] (A (Proc.devRef .tc main_v6) : FVec Ideal S16x66x66x128 .f32) slices_S16x66x66x128_S16x64x64x128_0_0_0_0⟩,
       ⟨S16x64x64x128, extractStridedSlice S16x64x64x128 ![0, 0, 1, 0] (A (Proc.devRef .tc main_v6) : FVec Ideal S16x66x66x128 .f32) slices_S16x66x66x128_S16x64x64x128_0_0_1_0⟩,
       ⟨S16x64x64x128, extractStridedSlice S16x64x64x128 ![0, 0, 2, 0] (A (Proc.devRef .tc main_v6) : FVec Ideal S16x66x66x128 .f32) slices_S16x66x66x128_S16x64x64x128_0_0_2_0⟩,
       ⟨S16x64x64x128, extractStridedSlice S16x64x64x128 ![0, 1, 0, 0] (A (Proc.devRef .tc main_v6) : FVec Ideal S16x66x66x128 .f32) slices_S16x66x66x128_S16x64x64x128_0_1_0_0⟩,
       ⟨S16x64x64x128, extractStridedSlice S16x64x64x128 ![0, 1, 1, 0] (A (Proc.devRef .tc main_v6) : FVec Ideal S16x66x66x128 .f32) slices_S16x66x66x128_S16x64x64x128_0_1_1_0⟩,
       ⟨S16x64x64x128, extractStridedSlice S16x64x64x128 ![0, 1, 2, 0] (A (Proc.devRef .tc main_v6) : FVec Ideal S16x66x66x128 .f32) slices_S16x66x66x128_S16x64x64x128_0_1_2_0⟩,
       ⟨S16x64x64x128, extractStridedSlice S16x64x64x128 ![0, 2, 0, 0] (A (Proc.devRef .tc main_v6) : FVec Ideal S16x66x66x128 .f32) slices_S16x66x66x128_S16x64x64x128_0_2_0_0⟩,
       ⟨S16x64x64x128, extractStridedSlice S16x64x64x128 ![0, 2, 1, 0] (A (Proc.devRef .tc main_v6) : FVec Ideal S16x66x66x128 .f32) slices_S16x66x66x128_S16x64x64x128_0_2_1_0⟩,
       ⟨S16x64x64x128, extractStridedSlice S16x64x64x128 ![0, 2, 2, 0] (A (Proc.devRef .tc main_v6) : FVec Ideal S16x66x66x128 .f32) slices_S16x66x66x128_S16x64x64x128_0_2_2_0⟩]
      concatenates_S16x64x64x128_S16x64x64x128_S16x64x64x128_S16x64x64x128_S16x64x64x128_S16x64x64x128_S16x64x64x128_S16x64x64x128_S16x64x64x128_S16x64x64x1152_d3 := by
  rw [Cert.LibAfterRead.read_nary hW2 9 A rfl (by decide) (by decide)]
  dsimp only [Matrix.cons_val]
  rw [st2_v7 A, st2_v8 A, st2_v9 A, st2_v10 A, st2_v11 A, st2_v12 A, st2_v13 A, st2_v14 A, st2_v15 A]

/-- flattens the spatial axes and narrows; -/
theorem st2_v18 : (StableHlo.after hostOps0_2 A (Proc.devRef .tc main_v18) : FVec Ideal S16x4096x1152 .bf16)
    = truncf (F := Ideal) .bf16 (shapeCast S16x4096x1152 (concatenate S16x64x64x1152 3
      [⟨S16x64x64x128, extractStridedSlice S16x64x64x128 ![0, 0, 0, 0] (A (Proc.devRef .tc main_v6) : FVec Ideal S16x66x66x128 .f32) slices_S16x66x66x128_S16x64x64x128_0_0_0_0⟩,
       ⟨S16x64x64x128, extractStridedSlice S16x64x64x128 ![0, 0, 1, 0] (A (Proc.devRef .tc main_v6) : FVec Ideal S16x66x66x128 .f32) slices_S16x66x66x128_S16x64x64x128_0_0_1_0⟩,
       ⟨S16x64x64x128, extractStridedSlice S16x64x64x128 ![0, 0, 2, 0] (A (Proc.devRef .tc main_v6) : FVec Ideal S16x66x66x128 .f32) slices_S16x66x66x128_S16x64x64x128_0_0_2_0⟩,
       ⟨S16x64x64x128, extractStridedSlice S16x64x64x128 ![0, 1, 0, 0] (A (Proc.devRef .tc main_v6) : FVec Ideal S16x66x66x128 .f32) slices_S16x66x66x128_S16x64x64x128_0_1_0_0⟩,
       ⟨S16x64x64x128, extractStridedSlice S16x64x64x128 ![0, 1, 1, 0] (A (Proc.devRef .tc main_v6) : FVec Ideal S16x66x66x128 .f32) slices_S16x66x66x128_S16x64x64x128_0_1_1_0⟩,
       ⟨S16x64x64x128, extractStridedSlice S16x64x64x128 ![0, 1, 2, 0] (A (Proc.devRef .tc main_v6) : FVec Ideal S16x66x66x128 .f32) slices_S16x66x66x128_S16x64x64x128_0_1_2_0⟩,
       ⟨S16x64x64x128, extractStridedSlice S16x64x64x128 ![0, 2, 0, 0] (A (Proc.devRef .tc main_v6) : FVec Ideal S16x66x66x128 .f32) slices_S16x66x66x128_S16x64x64x128_0_2_0_0⟩,
       ⟨S16x64x64x128, extractStridedSlice S16x64x64x128 ![0, 2, 1, 0] (A (Proc.devRef .tc main_v6) : FVec Ideal S16x66x66x128 .f32) slices_S16x66x66x128_S16x64x64x128_0_2_1_0⟩,
       ⟨S16x64x64x128, extractStridedSlice S16x64x64x128 ![0, 2, 2, 0] (A (Proc.devRef .tc main_v6) : FVec Ideal S16x66x66x128 .f32) slices_S16x66x66x128_S16x64x64x128_0_2_2_0⟩]
      concatenates_S16x64x64x128_S16x64x64x128_S16x64x64x128_S16x64x64x128_S16x64x64x128_S16x64x64x128_S16x64x64x128_S16x64x64x128_S16x64x64x128_S16x64x64x1152_d3) shapeCasts_S16x64x64x1152_S16x4096x1152) bitsLt_bf16_f32 := by
  rw [Cert.LibAfterRead.read_unary hW2 11 A rfl (by decide) (by decide),
    Cert.LibAfterRead.read_reshape hW2 10 A rfl (by decide) (by decide), st2_v16 A]
  rfl

/-- and leaves the integer zero in `main_c_0`. -/
theorem st2_c0 : StableHlo.after hostOps0_2 A (Proc.devRef .tc main_c_0) = constantI S_ 32 0#32 :=
  Cert.LibAfterRead.read_nullary hW2 12 A rfl (by decide)

/-- The fourth pads by nothing. -/
theorem st3_v19 : StableHlo.after hostOps0_3 A (Proc.devRef .tc main_v19)
    = pad S16x4096x1152 ![0, 0, 0] ![0, 0, 0] ![0, 0, 0] (A (Proc.devRef .tc main_v18))
        (sitofp .bf16 (A (Proc.devRef .tc main_c_0)) : FVec Ideal S_ .bf16) pads_S16x4096x1152_S16x4096x1152_000_000_000 h_S_ := by
  dsimp only [hostOps0_3]; host_results; try rfl

/-- The last four leave the patch array alone. -/
theorem st4_v19 : StableHlo.after hostOps0_4 A (Proc.devRef .tc main_v19) = A (Proc.devRef .tc main_v19) := by
  dsimp only [hostOps0_4]; host_results; try rfl
theorem st5_v19 : StableHlo.after hostOps0_5 A (Proc.devRef .tc main_v19) = A (Proc.devRef .tc main_v19) := by
  dsimp only [hostOps0_5]; host_results; try rfl
theorem st6_v19 : StableHlo.after hostOps0_6 A (Proc.devRef .tc main_v19) = A (Proc.devRef .tc main_v19) := by
  dsimp only [hostOps0_6]; host_results; try rfl
theorem st7_v19 : StableHlo.after hostOps0_7 A (Proc.devRef .tc main_v19) = A (Proc.devRef .tc main_v19) := by
  dsimp only [hostOps0_7]; host_results; try rfl

end Stretches

theorem V_main_v19 (c : Dev nD) :
    (V m c main_v19 : S16x4096x1152.Idx → EReal) = patches (m ((c : Thread nD τ).loc main_arg0)) := by
  dsimp only [V, V0]
  simp only [List.flatten_cons, List.flatten_nil, List.append_nil, StableHlo.after_append]
  rw [st7_v19, st6_v19, st5_v19, st4_v19, st3_v19, st2_v18, st2_c0, st1_v6, st0_v5, st0_c]
  rfl

end Cert.ReferenceIdeal.RefHost

end
-- ==== Proof.RefValue.lean ====
/-
  The reference program's run, read: the result array is the specification's single-contraction form of the
  convolution, `convPatch`, of the four arguments, and the arguments end unchanged. After the region the result of the
  matmul is unflattened to [16, 64, 64, 128] and moved to channel-second; entry (n, co, h, w) of the result is therefore
  entry (n, h·64 + w, co) of the matmul's array, which is the sum over the 1152 patch columns of the padded pixel each
  sees times the scaled weight, plus the bias.
-/
import proofs.«176999_g2000105039750728_pallasbulk_413_24_alg».proof.Proof.RefArray
import proofs.«176999_g2000105039750728_pallasbulk_413_24_alg».proof.Proof.RefHost
import proofs.«176999_g2000105039750728_pallasbulk_413_24_alg».proof.Proof.RefTerms
import proofs.«176999_g2000105039750728_pallasbulk_413_24_alg».proof.Proof.ConvSpec

set_option maxRecDepth 16384

noncomputable section

open scoped BigOperators

namespace Cert.ReferenceIdeal.RefValue

open Cert.ReferenceIdeal Cert.ReferenceIdeal.Gen Cert.ReferenceIdeal.RefFrame
open Idealize.ShloMosaic Idealize.ShloMosaic.TcCoe Idealize.SL.Sem Idealize.ShloMosaic.ValueIdx Idealize.ShloMosaic.Tactic
open Cert.ReferenceIdeal.RefBody Cert.ReferenceIdeal.RefArray Cert.ReferenceIdeal.RefHost Cert.ReferenceIdeal.RefTerms
open Cert.ConvSpec
open Idealize.ShloMosaic.Pipeline (Dat)

variable (m : (ℓ : Loc nD τ sig) → Buf (Elt Ideal) ℓ) (ρ : Dev nD → PrngReg)

/-! ## The lines after the region -/

/-- The result buffer after the lines that follow the region: the matmul's array unflattened and moved to
    channel-second. -/
theorem tail_eq (c : Dev nD) :
    Pipeline.afterTail₀ cfgs (dats m) 0 (V0 m) [hostOps1] c main_v25
      = transpose S16x128x64x64 [0, 3, 1, 2]
          (shapeCast S16x64x64x128 ((dats m 0 c).arrAt 3 cfg0.N) shapeCasts_S16x4096x128_S16x64x64x128)
          transposes_S16x64x64x128_S16x128x64x64_0_3_1_2 := by
  unfold Pipeline.afterTail₀
  show StableHlo.after hostOps1 _ (Proc.devRef .tc main_v25) = _
  after_results
  have hw : Pipeline.withArrays (cfgs 0).spec c (V0 m c) (fun w => (dats m 0 c).arrAt w (cfgs 0).N) (Proc.devRef .tc main_v23)
      = (dats m 0 c).arrAt 3 cfg0.N :=
    Pipeline.withArrays_arr spec0 launch0.win.arr_inj c (V0 m c) (fun w => (dats m 0 c).arrAt w cfg0.N) 3
  rw [hw]
  rfl

/-- The result at (n, co, h, w) is the matmul's array at (n, h·64 + w, co). -/
theorem tail_apply (Y : S16x4096x128.Idx → EReal) (n : Fin 16) (co : Fin 128) (h w : Fin 64) :
    transpose S16x128x64x64 [0, 3, 1, 2] (shapeCast S16x64x64x128 Y shapeCasts_S16x4096x128_S16x64x64x128)
        transposes_S16x64x64x128_S16x128x64x64_0_3_1_2 (ix4 n co h w)
      = Y (ix3 n (⟨h.val * 64 + w.val, by have := h.isLt; have := w.isLt; omega⟩ : Fin 4096) co) := by
  have hh := h.isLt
  have hw := w.isLt
  refine (transpose_apply _ _ _ (ix4 n co h w) (ix4 n h w co) fun b =>
    match b with
    | ⟨0, _⟩ => rfl | ⟨1, _⟩ => rfl | ⟨2, _⟩ => rfl | ⟨3, _⟩ => rfl).trans ?_
  refine shapeCast_apply _ _ (ix4 n h w co) (ix3 n (⟨h.val * 64 + w.val, by omega⟩ : Fin 4096) co) ?_
  rw [Shape.rowMajor_val_three, Shape.rowMajor_val_four]
  show (n.val * 4096 + (h.val * 64 + w.val)) * 128 + co.val = ((n.val * 64 + h.val) * 64 + w.val) * 128 + co.val
  omega

/-! ## The result is the specification's -/

/-- The matmul's array, unflattened and moved to channel-second, is `convPatch` of the arguments. -/
theorem result_eq (c : Dev nD) :
    (transpose S16x128x64x64 [0, 3, 1, 2]
      (shapeCast S16x64x64x128 (G (V m c main_v19) (V m c main_v20) (V m c main_v22)) shapeCasts_S16x4096x128_S16x64x64x128)
      transposes_S16x64x64x128_S16x128x64x64_0_3_1_2 : S16x128x64x64.Idx → EReal)
      = convPatch (m ((c : Thread nD τ).loc main_arg0)) (m ((c : Thread nD τ).loc main_arg1))
          (m ((c : Thread nD τ).loc main_arg2)) (m ((c : Thread nD τ).loc main_arg3)) := by
  funext j
  obtain ⟨n, co, h, w, rfl⟩ : ∃ (n : Fin 16) (co : Fin 128) (h w : Fin 64), j = ix4 n co h w :=
    ⟨j 0, j 1, j 2, j 3, eq_ix4 j⟩
  refine (tail_apply _ n co h w).trans ?_
  rw [V_main_v19, V_main_v20, V_main_v22]
  unfold G convPatch
  refine congrArg₂ (· + ·) (Finset.sum_congr rfl fun k _ => congrArg₂ (· * ·) ?_ ?_) ?_
  · exact patches_apply _ n h w k
  · exact wflat_apply _ _ k co
  · exact brow_apply _ co

/-! ## The run -/

/-- The frame claim's post at `Ideal`: the run ends and the four argument arrays are as launched. -/
theorem frame : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  RefBody.frame m ρ

/-- The run with the result read: every weakly fair execution ends, the result array is `convPatch` of the arguments,
    and the arguments are unchanged. -/
theorem run : θ_run (defs (F := Ideal)) (onTc (τ := τ) (main (F := Ideal))) ⟨m, fun _ => 0, ρ⟩ (fun r => ∀ c : Dev nD,
      r.2.mem ((c.tc : Thread nD τ).loc main_v25)
        = convPatch (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(((h c).2 main_v25 (Pipeline.mem_restRefs_of main_v25 (by decide) (by decide))).trans (tail_eq m c)).trans
        ((congrArg (fun Y => transpose S16x128x64x64 [0, 3, 1, 2]
            (shapeCast S16x64x64x128 Y shapeCasts_S16x4096x128_S16x64x64x128)
            transposes_S16x64x64x128_S16x128x64x64_0_3_1_2) (final m c)).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.ReferenceIdeal.RefValue

end
-- ==== Proof.ConvBridge.lean ====
/-
  The two arrangements of the equalized 3×3 convolution agree over the extended reals.

  `convTaps` adds to the bias, one after the other, the nine per-tap contractions over the 128 input channels;
  `convPatch` is one contraction over all 9·128 rows of the flattened weight, plus the bias. A flattened row
  `k = t·128 + ci` is the pair (tap `t`, input channel `ci`), so the sum over the 1152 rows is the sum over the nine
  taps of the sums over the channels. Only commutativity and associativity of `+` and `*` on the extended reals are
  used: no entry is assumed finite.
-/
import proofs.«176999_g2000105039750728_pallasbulk_413_24_alg».proof.Proof.ConvSpec
import Mathlib.Algebra.BigOperators.Fin

noncomputable section

open scoped BigOperators

namespace Cert.ConvSpec

open Idealize.ShloMosaic Idealize.ShloMosaic.ValueIdx

/-- The tap of row `t·128 + ci` is `t`. -/
theorem tapOf_rowOf (t : Fin 9) (ci : Fin 128) : tapOf (rowOf t ci) = t := by
  refine Fin.ext ?_
  show (t.val * 128 + ci.val) / 128 = t.val
  have := ci.isLt; omega

/-- The input channel of row `t·128 + ci` is `ci`. -/
theorem chanOf_rowOf (t : Fin 9) (ci : Fin 128) : chanOf (rowOf t ci) = ci := by
  refine Fin.ext ?_
  show (t.val * 128 + ci.val) % 128 = ci.val
  have := ci.isLt; omega

/-- Every row is the row of its tap and its input channel. -/
theorem rowOf_tapOf_chanOf (k : Fin 1152) : rowOf (tapOf k) (chanOf k) = k := by
  refine Fin.ext ?_
  show k.val / 128 * 128 + k.val % 128 = k.val
  omega

/-- The flattened weight rows are the pairs (tap, input channel), tap-major. -/
def rowEquiv : Fin 9 × Fin 128 ≃ Fin 1152 where
  toFun p := rowOf p.1 p.2
  invFun k := (tapOf k, chanOf k)
  left_inv p := Prod.ext (tapOf_rowOf p.1 p.2) (chanOf_rowOf p.1 p.2)
  right_inv k := rowOf_tapOf_chanOf k

/-- A sum over all flattened rows is the sum over the taps of the sums over the input channels. -/
theorem sum_rows {M : Type*} [AddCommMonoid M] (f : Fin 1152 → M) :
    ∑ k : Fin 1152, f k = ∑ t : Fin 9, ∑ ci : Fin 128, f (rowOf t ci) :=
  calc ∑ k : Fin 1152, f k = ∑ p : Fin 9 × Fin 128, f (rowOf p.1 p.2) :=
        (Fintype.sum_equiv rowEquiv (fun p => f (rowOf p.1 p.2)) f (fun _ => rfl)).symm
    _ = ∑ t : Fin 9, ∑ ci : Fin 128, f (rowOf t ci) := Fintype.sum_prod_type _

/-- A sum over the nine taps, written out from tap 0. -/
theorem sum_nine {M : Type*} [AddCommMonoid M] (D : Fin 9 → M) :
    ∑ t : Fin 9, D t = D 0 + D 1 + D 2 + D 3 + D 4 + D 5 + D 6 + D 7 + D 8 := by
  rw [Fin.sum_univ_castSucc, Fin.sum_univ_eight]
  rfl

/-- THE TWO ARRANGEMENTS AGREE: the bias plus the nine taps' contractions is the one contraction over the flattened
    rows plus the bias. -/
theorem convTaps_eq_convPatch (x : SX.Idx → EReal) (wn : SW.Idx → EReal) (b : SB.Idx → EReal) (s : S0.Idx → EReal) :
    convTaps x wn b s = convPatch x wn b s := by
  funext j
  obtain ⟨n, co, h, w, rfl⟩ : ∃ (n : Fin 16) (co : Fin 128) (h w : Fin 64), j = ix4 n co h w :=
    ⟨j 0, j 1, j 2, j 3, eq_ix4 j⟩
  -- one tap's contraction is that tap's block of the flattened contraction
  have hD : ∀ t : Fin 9, (∑ ci : Fin 128, seen x n h w (tapOf (rowOf t ci)) (chanOf (rowOf t ci)) * W wn s (rowOf t ci) co)
      = tapDot x wn s n co h w t := by
    intro t
    unfold tapDot
    refine Finset.sum_congr rfl fun ci _ => ?_
    rw [tapOf_rowOf, chanOf_rowOf, mul_comm]
  show b (ix1 co) + tapDot x wn s n co h w 0 + tapDot x wn s n co h w 1 + tapDot x wn s n co h w 2
      + tapDot x wn s n co h w 3 + tapDot x wn s n co h w 4 + tapDot x wn s n co h w 5 + tapDot x wn s n co h w 6
      + tapDot x wn s n co h w 7 + tapDot x wn s n co h w 8
    = (∑ k : Fin 1152, seen x n h w (tapOf k) (chanOf k) * W wn s k co) + b (ix1 co)
  rw [sum_rows, Finset.sum_congr rfl (fun t _ => hD t), sum_nine]
  ac_rfl

end Cert.ConvSpec

end
-- ==== Proof.lean ====
/-
  An equalized 3×3 convolution (stride 1, zero padding 1, weight scaled by a scalar, bias added) of a batch of sixteen
  NCHW images with 128 channels in and out, computed two ways, and the proof that the two agree over the extended reals.

  The kernel program does everything for one image per grid point on chip: it transposes the image to rows × columns ×
  channels, keeps three zero-padded copies of it in a scratch, the copy `kx` shifted by `kx - 1` columns, and adds to
  the bias, one after the other, the nine products of a 128-row band of the flattened weight with the slab of the copy
  that tap sees. The reference program builds the patch matrix on the host (transpose, pad, nine shifted slices
  concatenated channel-wise, flattened), multiplies it by the whole flattened weight in a blocked matrix product, adds the
  bias, and undoes the layout.

  * Frames. Each program runs to the end, faults nowhere and leaves its arguments unchanged: the body of each kernel is
    run symbolically once at a generic grid point (`KBody`, `BBody`, `RefBody`), and the library's frame run of a region
    between host operations does the rest (`KFrame`, `BFrame`, `RefFrame`). The one thing particular to the fused body is
    its scratch: four of its eleven stores into it are blends over words it first loads, so what it stores depends,
    syntactically, on what the scratch held; read after all eleven stores every element is a value of the image or zero
    (`KScratch2.read_pcs11`), so the output block is a function of the three input blocks alone.
  * Values. The kernel's result is `convTaps` of the arguments (`KValue.run`): the bias plus nine per-tap contractions over
    the input channels, each against the padded image at the tap's offset. The reference's is `convPatch` (`RefValue.run`):
    one contraction over all 1152 rows of the flattened weight against the pixel's patch vector, plus the bias.
  * The bridge. A flattened row is a (tap, channel) pair, so the long contraction splits into the nine short ones; with
    commutativity and associativity of + and · on the extended reals that is all (`ConvBridge.convTaps_eq_convPatch`): no
    entry need be finite, and the precondition is never opened.
  The idealization rewrote nothing, so its `preserves` conjunct is `True`.
-/
import proofs.«176999_g2000105039750728_pallasbulk_413_24_alg».proof.Defs
import proofs.«176999_g2000105039750728_pallasbulk_413_24_alg».proof.Proof.Gen.Kernel
import proofs.«176999_g2000105039750728_pallasbulk_413_24_alg».proof.Proof.Gen.KernelIdeal
import proofs.«176999_g2000105039750728_pallasbulk_413_24_alg».proof.Proof.Gen.ReferenceIdeal
import proofs.«176999_g2000105039750728_pallasbulk_413_24_alg».proof.Proof.Gen.Pre_finite_inputs
import proofs.«176999_g2000105039750728_pallasbulk_413_24_alg».proof.Proof.BFrame
import proofs.«176999_g2000105039750728_pallasbulk_413_24_alg».proof.Proof.KFrame
import proofs.«176999_g2000105039750728_pallasbulk_413_24_alg».proof.Proof.KValue
import proofs.«176999_g2000105039750728_pallasbulk_413_24_alg».proof.Proof.RefValue
import proofs.«176999_g2000105039750728_pallasbulk_413_24_alg».proof.Proof.ConvBridge

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefValue.frame m ρ

/-- Both programs run from memories agreeing on the arguments end with the same result array: the kernel's is the nine
    taps added to the bias, the reference's the one long contraction plus the bias, and the two are one function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact (Cert.ConvSpec.convTaps_eq_convPatch _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
